-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v146)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v146) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v227) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel

variable [Facts]

def fn {F : FTy → Type} [FloatOps F] (main_arg0 : FVec F S100000x32 .f32) (main_arg1 : IVec S2x1600000 32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  main_v3
-- ==== Kernel.lean ====
abbrev S100000x32 : Shape := ⟨2, ![100000, 32]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x32 : Shape := ⟨2, ![1600000, 32]⟩
abbrev S100000x1 : Shape := ⟨2, ![100000, 1]⟩
abbrev S3200000 : Shape := ⟨1, ![3200000]⟩
abbrev S3200000x1 : Shape := ⟨2, ![3200000, 1]⟩
abbrev S3200000x32 : Shape := ⟨2, ![3200000, 32]⟩
abbrev S100000x3 : Shape := ⟨2, ![100000, 3]⟩
abbrev S100000x192 : Shape := ⟨2, ![100000, 192]⟩
abbrev S2000x32 : Shape := ⟨2, ![2000, 32]⟩
abbrev S2000x3 : Shape := ⟨2, ![2000, 3]⟩
abbrev S2000x192 : Shape := ⟨2, ![2000, 192]⟩
abbrev S2000x1 : Shape := ⟨2, ![2000, 1]⟩
abbrev S2000 : Shape := ⟨1, ![2000]⟩

abbrev nBuf : Space → Nat
  | .hbm => 184
  | .vmem => 18
  | .smem => 0
  | _ => 0

abbrev hbmTy0_0 (i : Nat) : BufTy := match i % 128 with
  | 0 => ⟨S100000x32, .f32⟩
  | 1 => ⟨S2x1600000, .i32⟩
  | 2 => ⟨S1x1600000, .i32⟩
  | 3 => ⟨S1600000, .i32⟩
  | 4 => ⟨S1x1600000, .i32⟩
  | 5 => ⟨S1600000, .i32⟩
  | 6 => ⟨S_, .f32⟩
  | 7 => ⟨S1600000, .f32⟩
  | 8 => ⟨S_, .f32⟩
  | 9 => ⟨S100000, .f32⟩
  | 10 => ⟨S1600000x1, .i32⟩
  | 11 => ⟨S100000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .f32⟩
  | 19 => ⟨S100000, .f32⟩
  | 20 => ⟨S_, .f32⟩
  | 21 => ⟨S100000, .f32⟩
  | 22 => ⟨S100000, .f32⟩
  | 23 => ⟨S100000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S1600000x1, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x32, .f32⟩
  | 53 => ⟨S1600000x32, .f32⟩
  | 54 => ⟨S1600000x32, .f32⟩
  | 55 => ⟨S_, .f32⟩
  | 56 => ⟨S100000x32, .f32⟩
  | 57 => ⟨S1600000x1, .i32⟩
  | 58 => ⟨S100000x32, .f32⟩
  | 59 => ⟨S1600000x1, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x32, .f32⟩
  | 69 => ⟨S1600000x32, .f32⟩
  | 70 => ⟨S1600000x32, .f32⟩
  | 71 => ⟨S_, .f32⟩
  | 72 => ⟨S100000x32, .f32⟩
  | 73 => ⟨S1600000x1, .i32⟩
  | 74 => ⟨S100000x32, .f32⟩
  | 75 => ⟨S1600000x1, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000x32, .f32⟩
  | 85 => ⟨S1600000x32, .f32⟩
  | 86 => ⟨S1600000x32, .f32⟩
  | 87 => ⟨S_, .f32⟩
  | 88 => ⟨S100000x32, .f32⟩
  | 89 => ⟨S1600000x1, .i32⟩
  | 90 => ⟨S100000x32, .f32⟩
  | 91 => ⟨S1600000, .f32⟩
  | 92 => ⟨S_, .f32⟩
  | 93 => ⟨S100000, .f32⟩
  | 94 => ⟨S1600000x1, .i32⟩
  | 95 => ⟨S100000, .f32⟩
  | 96 => ⟨S100000x1, .f32⟩
  | 97 => ⟨S1600000x1, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000x32, .f32⟩
  | 107 => ⟨S1600000x32, .f32⟩
  | 108 => ⟨S1600000x32, .f32⟩
  | 109 => ⟨S_, .f32⟩
  | 110 => ⟨S100000x32, .f32⟩
  | 111 => ⟨S1600000x1, .i32⟩
  | 112 => ⟨S100000x32, .f32⟩
  | 113 => ⟨S_, .f32⟩
  | 114 => ⟨S100000, .f32⟩
  | 115 => ⟨S1600000x1, .i32⟩
  | 116 => ⟨S100000, .f32⟩
  | 117 => ⟨S100000x1, .f32⟩
  | 118 => ⟨S100000, .f32⟩
  | 119 => ⟨S_, .f32⟩
  | 120 => ⟨S100000, .f32⟩
  | 121 => ⟨S100000, .f32⟩
  | 122 => ⟨S100000, .f32⟩
  | 123 => ⟨S3200000, .i32⟩
  | 124 => ⟨S3200000, .i32⟩
  | 125 => ⟨S_, .i32⟩
  | 126 => ⟨S3200000, .i32⟩
  | 127 => ⟨S3200000, .i1⟩
  | _ => ⟨S100000x32, .f32⟩

abbrev hbmTy0_1 (i : Nat) : BufTy := match i % 128 with
  | 0 => ⟨S_, .i32⟩
  | 1 => ⟨S3200000, .i32⟩
  | 2 => ⟨S3200000, .i32⟩
  | 3 => ⟨S3200000, .i32⟩
  | 4 => ⟨S3200000x1, .i32⟩
  | 5 => ⟨S3200000, .f32⟩
  | 6 => ⟨S_, .i32⟩
  | 7 => ⟨S3200000, .i32⟩
  | 8 => ⟨S3200000, .i1⟩
  | 9 => ⟨S_, .i32⟩
  | 10 => ⟨S3200000, .i32⟩
  | 11 => ⟨S3200000, .i32⟩
  | 12 => ⟨S3200000, .i32⟩
  | 13 => ⟨S3200000x1, .i32⟩
  | 14 => ⟨S3200000, .f32⟩
  | 15 => ⟨S3200000, .f32⟩
  | 16 => ⟨S3200000x1, .f32⟩
  | 17 => ⟨S_, .i32⟩
  | 18 => ⟨S3200000, .i32⟩
  | 19 => ⟨S3200000, .i1⟩
  | 20 => ⟨S_, .i32⟩
  | 21 => ⟨S3200000, .i32⟩
  | 22 => ⟨S3200000, .i32⟩
  | 23 => ⟨S3200000, .i32⟩
  | 24 => ⟨S3200000x1, .i32⟩
  | 25 => ⟨S3200000x32, .f32⟩
  | 26 => ⟨S3200000x32, .f32⟩
  | 27 => ⟨S3200000x32, .f32⟩
  | 28 => ⟨S_, .f32⟩
  | 29 => ⟨S100000x32, .f32⟩
  | 30 => ⟨S3200000x1, .i32⟩
  | 31 => ⟨S100000x32, .f32⟩
  | 32 => ⟨S3200000x1, .f32⟩
  | 33 => ⟨S_, .i32⟩
  | 34 => ⟨S3200000, .i32⟩
  | 35 => ⟨S3200000, .i1⟩
  | 36 => ⟨S_, .i32⟩
  | 37 => ⟨S3200000, .i32⟩
  | 38 => ⟨S3200000, .i32⟩
  | 39 => ⟨S3200000, .i32⟩
  | 40 => ⟨S3200000x1, .i32⟩
  | 41 => ⟨S3200000x32, .f32⟩
  | 42 => ⟨S3200000x32, .f32⟩
  | 43 => ⟨S3200000x32, .f32⟩
  | 44 => ⟨S_, .f32⟩
  | 45 => ⟨S100000x32, .f32⟩
  | 46 => ⟨S3200000x1, .i32⟩
  | 47 => ⟨S100000x32, .f32⟩
  | 48 => ⟨S3200000, .f32⟩
  | 49 => ⟨S_, .f32⟩
  | 50 => ⟨S100000, .f32⟩
  | 51 => ⟨S3200000x1, .i32⟩
  | 52 => ⟨S100000, .f32⟩
  | 53 => ⟨S100000x1, .f32⟩
  | 54 => ⟨S100000x3, .f32⟩
  | 55 => ⟨S100000x192, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S2000x32, .f32⟩
  | .local _ .vmem, ⟨1, _⟩ => ⟨S2000x32, .f32⟩
  | .local _ .vmem, ⟨2, _⟩ => ⟨S2000x32, .f32⟩
  | .local _ .vmem, ⟨3, _⟩ => ⟨S2000x32, .f32⟩
  | .local _ .vmem, ⟨4, _⟩ => ⟨S2000x32, .f32⟩
  | .local _ .vmem, ⟨5, _⟩ => ⟨S2000x32, .f32⟩
  | .local _ .vmem, ⟨6, _⟩ => ⟨S2000x32, .f32⟩
  | .local _ .vmem, ⟨7, _⟩ => ⟨S2000x32, .f32⟩
  | .local _ .vmem, ⟨8, _⟩ => ⟨S2000x32, .f32⟩
  | .local _ .vmem, ⟨9, _⟩ => ⟨S2000x32, .f32⟩
  | .local _ .vmem, ⟨10, _⟩ => ⟨S2000x32, .f32⟩
  | .local _ .vmem, ⟨11, _⟩ => ⟨S2000x32, .f32⟩
  | .local _ .vmem, ⟨12, _⟩ => ⟨S2000x32, .f32⟩
  | .local _ .vmem, ⟨13, _⟩ => ⟨S2000x32, .f32⟩
  | .local _ .vmem, ⟨14, _⟩ => ⟨S2000x3, .f32⟩
  | .local _ .vmem, ⟨15, _⟩ => ⟨S2000x3, .f32⟩
  | .local _ .vmem, ⟨16, _⟩ => ⟨S2000x192, .f32⟩
  | .local _ .vmem, ⟨17, _⟩ => ⟨S2000x192, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_c_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_5 : Ref sig .tc := ⟨.hbm, 33, rfl⟩
abbrev main_v24 : Ref sig .tc := ⟨.hbm, 34, rfl⟩
abbrev main_v25 : Ref sig .tc := ⟨.hbm, 35, rfl⟩
abbrev main_c_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_7 : Ref sig .tc := ⟨.hbm, 44, rfl⟩
abbrev main_v33 : Ref sig .tc := ⟨.hbm, 45, rfl⟩
abbrev main_v34 : Ref sig .tc := ⟨.hbm, 46, rfl⟩
abbrev main_c_8 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_9 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_10 : Ref sig .tc := ⟨.hbm, 60, rfl⟩
abbrev main_v46 : Ref sig .tc := ⟨.hbm, 61, rfl⟩
abbrev main_v47 : Ref sig .tc := ⟨.hbm, 62, rfl⟩
abbrev main_c_11 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_12 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_c_13 : Ref sig .tc := ⟨.hbm, 76, rfl⟩
abbrev main_v59 : Ref sig .tc := ⟨.hbm, 77, rfl⟩
abbrev main_v60 : Ref sig .tc := ⟨.hbm, 78, rfl⟩
abbrev main_c_14 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_15 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_16 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_c_17 : Ref sig .tc := ⟨.hbm, 98, rfl⟩
abbrev main_v77 : Ref sig .tc := ⟨.hbm, 99, rfl⟩
abbrev main_v78 : Ref sig .tc := ⟨.hbm, 100, rfl⟩
abbrev main_c_18 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_19 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_20 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_cst_21 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_c_22 : Ref sig .tc := ⟨.hbm, 125, rfl⟩
abbrev main_v99 : Ref sig .tc := ⟨.hbm, 126, rfl⟩
abbrev main_v100 : Ref sig .tc := ⟨.hbm, 127, rfl⟩
abbrev main_c_23 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_c_24 : Ref sig .tc := ⟨.hbm, 134, rfl⟩
abbrev main_v106 : Ref sig .tc := ⟨.hbm, 135, rfl⟩
abbrev main_v107 : Ref sig .tc := ⟨.hbm, 136, rfl⟩
abbrev main_c_25 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_c_26 : Ref sig .tc := ⟨.hbm, 145, rfl⟩
abbrev main_v115 : Ref sig .tc := ⟨.hbm, 146, rfl⟩
abbrev main_v116 : Ref sig .tc := ⟨.hbm, 147, rfl⟩
abbrev main_c_27 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_cst_28 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_c_29 : Ref sig .tc := ⟨.hbm, 161, rfl⟩
abbrev main_v128 : Ref sig .tc := ⟨.hbm, 162, rfl⟩
abbrev main_v129 : Ref sig .tc := ⟨.hbm, 163, rfl⟩
abbrev main_c_30 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_cst_31 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_cst_32 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  concatenates_S1600000_S1600000_S3200000_d0 : Shape.Concatenates [S1600000, S1600000] S3200000 0
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x32_0_1 : S3200000x1.BroadcastsInDim S3200000x32 (![0, 1] : Fin 2 → Fin S3200000x32.rank)
  concatenates_S100000x1_S100000x1_S100000x1_S100000x3_d1 : Shape.Concatenates [S100000x1, S100000x1, S100000x1] S100000x3 1
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  inb_S2000x3_S2000x3_0_0 : ∀ a, (![0, 0] : Fin 2 → Nat) a + S2000x3.size a ≤ S2000x3.size a
  h_S2000x3 : 0 < S2000x3.numel
  shapeCasts_S2000x3_S2000x3 : S2000x3.ShapeCasts S2000x3
  slices_S2000x3_o0_0_S2000x1 : S2000x3.Slices ![0, 0] S2000x1
  slices_S2000x3_o0_1_S2000x1 : S2000x3.Slices ![0, 1] S2000x1
  slices_S2000x3_o0_2_S2000x1 : S2000x3.Slices ![0, 2] S2000x1
  broadcasts_S2000x1_S2000x32 : S2000x1.Broadcasts S2000x32
  reduces_S2000x32_S2000 : S2000x32.Reduces [1] S2000
  shapeCasts_S2000_S2000x1 : S2000.ShapeCasts S2000x1
  concatenates_S2000x32_S2000x32_S2000x32_S2000x32_S2000x32_S2000x32_S2000x192_d1 : Shape.Concatenates [S2000x32, S2000x32, S2000x32, S2000x32, S2000x32, S2000x32] S2000x192 1
  inb_S2000x192_S2000x192_0_0 : ∀ a, (![0, 0] : Fin 2 → Nat) a + S2000x192.size a ≤ S2000x192.size a
  h_S2000x192 : 0 < S2000x192.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  gather_S100000_S3200000x1_S3200000_n_0_n_n_0_1_1_wf : GatherDims.WF S100000 S3200000x1 S3200000 [] [0] [] [0] [] 1 ![1]
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  scatter_S100000_S3200000x1_S3200000_n_0_0_1_wf : ScatterDims.WF S100000 S3200000x1 S3200000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S100000x32.size a
  hwx0_0 : ∀ i : grid0.Coords, EltTy.bits .f32 = 32 ∨ (Rect.block (s := S100000x32) S2000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x32.size a ≤ S100000x32.size a
  hwx0_1 : ∀ i : grid0.Coords, EltTy.bits .f32 = 32 ∨ (Rect.block (s := S100000x32) S2000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x32.size a ≤ S100000x32.size a
  hwx0_2 : ∀ i : grid0.Coords, EltTy.bits .f32 = 32 ∨ (Rect.block (s := S100000x32) S2000x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x32.size a ≤ S100000x32.size a
  hwx0_3 : ∀ i : grid0.Coords, EltTy.bits .f32 = 32 ∨ (Rect.block (s := S100000x32) S2000x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x32.size a ≤ S100000x32.size a
  hwx0_4 : ∀ i : grid0.Coords, EltTy.bits .f32 = 32 ∨ (Rect.block (s := S100000x32) S2000x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x32.size a ≤ S100000x32.size a
  hwx0_5 : ∀ i : grid0.Coords, EltTy.bits .f32 = 32 ∨ (Rect.block (s := S100000x32) S2000x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x32.size a ≤ S100000x32.size a
  hwx0_6 : ∀ i : grid0.Coords, EltTy.bits .f32 = 32 ∨ (Rect.block (s := S100000x32) S2000x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x3.size a ≤ S100000x3.size a
  hwx0_7 : ∀ i : grid0.Coords, EltTy.bits .f32 = 32 ∨ (Rect.block (s := S100000x3) S2000x3.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x192.size a ≤ S100000x192.size a
  hwx0_8 : ∀ i : grid0.Coords, EltTy.bits .f32 = 32 ∨ (Rect.block (s := S100000x192) S2000x192.size (cc0_transform_8 i) (hinb0_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf

abbrev win0_0 : Pipeline.Window sig grid0 :=
  Pipeline.Window.ofSpec (Memref.whole main_arg0) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v139) S2000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v126) S2000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v70) S2000x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v57) S2000x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v44) S2000x32.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v88) S2000x32.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v145) S2000x3.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v146) S2000x192.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x32 : Shape := ⟨2, ![1600000, 32]⟩
abbrev S100000x1 : Shape := ⟨2, ![100000, 1]⟩
abbrev S3200000 : Shape := ⟨1, ![3200000]⟩
abbrev S3200000x1 : Shape := ⟨2, ![3200000, 1]⟩
abbrev S3200000x32 : Shape := ⟨2, ![3200000, 32]⟩
abbrev S100000x192 : Shape := ⟨2, ![100000, 192]⟩

abbrev nBuf : Space → Nat
  | .hbm => 290
  | .vmem => 0
  | .smem => 0
  | _ => 0

abbrev hbmTy0_0 (i : Nat) : BufTy := match i % 128 with
  | 0 => ⟨S100000x32, .f32⟩
  | 1 => ⟨S2x1600000, .i32⟩
  | 2 => ⟨S1x1600000, .i32⟩
  | 3 => ⟨S1600000, .i32⟩
  | 4 => ⟨S1x1600000, .i32⟩
  | 5 => ⟨S1600000, .i32⟩
  | 6 => ⟨S_, .f32⟩
  | 7 => ⟨S1600000, .f32⟩
  | 8 => ⟨S_, .f32⟩
  | 9 => ⟨S100000, .f32⟩
  | 10 => ⟨S1600000x1, .i32⟩
  | 11 => ⟨S100000, .f32⟩
  | 12 => ⟨S_, .f32⟩
  | 13 => ⟨S100000, .f32⟩
  | 14 => ⟨S100000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S100000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S_, .f32⟩
  | 44 => ⟨S1600000, .f32⟩
  | 45 => ⟨S_, .f32⟩
  | 46 => ⟨S100000, .f32⟩
  | 47 => ⟨S1600000x1, .i32⟩
  | 48 => ⟨S100000, .f32⟩
  | 49 => ⟨S_, .f32⟩
  | 50 => ⟨S100000, .f32⟩
  | 51 => ⟨S100000, .f32⟩
  | 52 => ⟨S_, .f32⟩
  | 53 => ⟨S100000, .f32⟩
  | 54 => ⟨S1600000x1, .i32⟩
  | 55 => ⟨S100000, .f32⟩
  | 56 => ⟨S_, .f32⟩
  | 57 => ⟨S100000, .f32⟩
  | 58 => ⟨S100000, .f32⟩
  | 59 => ⟨S100000, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000, .f32⟩
  | 69 => ⟨S100000, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000, .f32⟩
  | 79 => ⟨S1600000, .f32⟩
  | 80 => ⟨S1600000x1, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000x32, .f32⟩
  | 90 => ⟨S1600000x32, .f32⟩
  | 91 => ⟨S1600000x32, .f32⟩
  | 92 => ⟨S_, .f32⟩
  | 93 => ⟨S100000x32, .f32⟩
  | 94 => ⟨S1600000x1, .i32⟩
  | 95 => ⟨S100000x32, .f32⟩
  | 96 => ⟨S1600000x1, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x32, .f32⟩
  | 106 => ⟨S1600000x32, .f32⟩
  | 107 => ⟨S1600000x32, .f32⟩
  | 108 => ⟨S_, .f32⟩
  | 109 => ⟨S100000x32, .f32⟩
  | 110 => ⟨S1600000x1, .i32⟩
  | 111 => ⟨S100000x32, .f32⟩
  | 112 => ⟨S1600000x1, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x32, .f32⟩
  | 122 => ⟨S1600000x32, .f32⟩
  | 123 => ⟨S1600000x32, .f32⟩
  | 124 => ⟨S_, .f32⟩
  | 125 => ⟨S100000x32, .f32⟩
  | 126 => ⟨S1600000x1, .i32⟩
  | 127 => ⟨S100000x32, .f32⟩
  | _ => ⟨S100000x32, .f32⟩

abbrev hbmTy0_1 (i : Nat) : BufTy := match i % 128 with
  | 0 => ⟨S1600000, .f32⟩
  | 1 => ⟨S_, .f32⟩
  | 2 => ⟨S100000, .f32⟩
  | 3 => ⟨S1600000x1, .i32⟩
  | 4 => ⟨S100000, .f32⟩
  | 5 => ⟨S100000x1, .f32⟩
  | 6 => ⟨S100000x32, .f32⟩
  | 7 => ⟨S100000x32, .f32⟩
  | 8 => ⟨S100000x32, .f32⟩
  | 9 => ⟨S1600000x1, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000x32, .f32⟩
  | 19 => ⟨S1600000x32, .f32⟩
  | 20 => ⟨S1600000x32, .f32⟩
  | 21 => ⟨S_, .f32⟩
  | 22 => ⟨S100000x32, .f32⟩
  | 23 => ⟨S1600000x1, .i32⟩
  | 24 => ⟨S100000x32, .f32⟩
  | 25 => ⟨S_, .f32⟩
  | 26 => ⟨S100000, .f32⟩
  | 27 => ⟨S1600000x1, .i32⟩
  | 28 => ⟨S100000, .f32⟩
  | 29 => ⟨S100000x1, .f32⟩
  | 30 => ⟨S100000x32, .f32⟩
  | 31 => ⟨S100000x32, .f32⟩
  | 32 => ⟨S100000x32, .f32⟩
  | 33 => ⟨S3200000, .i32⟩
  | 34 => ⟨S3200000, .i32⟩
  | 35 => ⟨S_, .f32⟩
  | 36 => ⟨S3200000, .f32⟩
  | 37 => ⟨S_, .f32⟩
  | 38 => ⟨S100000, .f32⟩
  | 39 => ⟨S3200000x1, .i32⟩
  | 40 => ⟨S100000, .f32⟩
  | 41 => ⟨S_, .f32⟩
  | 42 => ⟨S100000, .f32⟩
  | 43 => ⟨S100000, .f32⟩
  | 44 => ⟨S_, .f32⟩
  | 45 => ⟨S100000, .f32⟩
  | 46 => ⟨S3200000x1, .i32⟩
  | 47 => ⟨S100000, .f32⟩
  | 48 => ⟨S_, .f32⟩
  | 49 => ⟨S100000, .f32⟩
  | 50 => ⟨S100000, .f32⟩
  | 51 => ⟨S100000, .f32⟩
  | 52 => ⟨S_, .i32⟩
  | 53 => ⟨S3200000, .i32⟩
  | 54 => ⟨S3200000, .i1⟩
  | 55 => ⟨S_, .i32⟩
  | 56 => ⟨S3200000, .i32⟩
  | 57 => ⟨S3200000, .i32⟩
  | 58 => ⟨S3200000, .i32⟩
  | 59 => ⟨S3200000x1, .i32⟩
  | 60 => ⟨S3200000, .f32⟩
  | 61 => ⟨S100000, .f32⟩
  | 62 => ⟨S_, .i32⟩
  | 63 => ⟨S3200000, .i32⟩
  | 64 => ⟨S3200000, .i1⟩
  | 65 => ⟨S_, .i32⟩
  | 66 => ⟨S3200000, .i32⟩
  | 67 => ⟨S3200000, .i32⟩
  | 68 => ⟨S3200000, .i32⟩
  | 69 => ⟨S3200000x1, .i32⟩
  | 70 => ⟨S3200000, .f32⟩
  | 71 => ⟨S3200000, .f32⟩
  | 72 => ⟨S3200000x1, .f32⟩
  | 73 => ⟨S_, .i32⟩
  | 74 => ⟨S3200000, .i32⟩
  | 75 => ⟨S3200000, .i1⟩
  | 76 => ⟨S_, .i32⟩
  | 77 => ⟨S3200000, .i32⟩
  | 78 => ⟨S3200000, .i32⟩
  | 79 => ⟨S3200000, .i32⟩
  | 80 => ⟨S3200000x1, .i32⟩
  | 81 => ⟨S3200000x32, .f32⟩
  | 82 => ⟨S3200000x32, .f32⟩
  | 83 => ⟨S3200000x32, .f32⟩
  | 84 => ⟨S_, .f32⟩
  | 85 => ⟨S100000x32, .f32⟩
  | 86 => ⟨S3200000x1, .i32⟩
  | 87 => ⟨S100000x32, .f32⟩
  | 88 => ⟨S3200000x1, .f32⟩
  | 89 => ⟨S_, .i32⟩
  | 90 => ⟨S3200000, .i32⟩
  | 91 => ⟨S3200000, .i1⟩
  | 92 => ⟨S_, .i32⟩
  | 93 => ⟨S3200000, .i32⟩
  | 94 => ⟨S3200000, .i32⟩
  | 95 => ⟨S3200000, .i32⟩
  | 96 => ⟨S3200000x1, .i32⟩
  | 97 => ⟨S3200000x32, .f32⟩
  | 98 => ⟨S3200000x32, .f32⟩
  | 99 => ⟨S3200000x32, .f32⟩
  | 100 => ⟨S_, .f32⟩
  | 101 => ⟨S100000x32, .f32⟩
  | 102 => ⟨S3200000x1, .i32⟩
  | 103 => ⟨S100000x32, .f32⟩
  | 104 => ⟨S3200000, .f32⟩
  | 105 => ⟨S_, .f32⟩
  | 106 => ⟨S100000, .f32⟩
  | 107 => ⟨S3200000x1, .i32⟩
  | 108 => ⟨S100000, .f32⟩
  | 109 => ⟨S100000x1, .f32⟩
  | 110 => ⟨S100000x32, .f32⟩
  | 111 => ⟨S100000x32, .f32⟩
  | 112 => ⟨S100000x32, .f32⟩
  | 113 => ⟨S_, .f32⟩
  | 114 => ⟨S100000, .f32⟩
  | 115 => ⟨S100000x1, .f32⟩
  | 116 => ⟨S_, .f32⟩
  | 117 => ⟨S100000x1, .f32⟩
  | 118 => ⟨S100000x1, .f32⟩
  | 119 => ⟨S100000x32, .f32⟩
  | 120 => ⟨S100000x32, .f32⟩
  | 121 => ⟨S_, .f32⟩
  | 122 => ⟨S100000, .f32⟩
  | 123 => ⟨S100000x1, .f32⟩
  | 124 => ⟨S_, .f32⟩
  | 125 => ⟨S100000x1, .f32⟩
  | 126 => ⟨S100000x1, .f32⟩
  | 127 => ⟨S100000x32, .f32⟩
  | _ => ⟨S100000x32, .f32⟩

abbrev hbmTy0_2 (i : Nat) : BufTy := match i % 128 with
  | 0 => ⟨S100000x32, .f32⟩
  | 1 => ⟨S_, .f32⟩
  | 2 => ⟨S100000, .f32⟩
  | 3 => ⟨S100000x1, .f32⟩
  | 4 => ⟨S_, .f32⟩
  | 5 => ⟨S100000x1, .f32⟩
  | 6 => ⟨S100000x1, .f32⟩
  | 7 => ⟨S100000x32, .f32⟩
  | 8 => ⟨S100000x32, .f32⟩
  | 9 => ⟨S_, .f32⟩
  | 10 => ⟨S100000, .f32⟩
  | 11 => ⟨S100000x1, .f32⟩
  | 12 => ⟨S_, .f32⟩
  | 13 => ⟨S100000x1, .f32⟩
  | 14 => ⟨S100000x1, .f32⟩
  | 15 => ⟨S100000x32, .f32⟩
  | 16 => ⟨S100000x32, .f32⟩
  | 17 => ⟨S_, .f32⟩
  | 18 => ⟨S100000, .f32⟩
  | 19 => ⟨S100000x1, .f32⟩
  | 20 => ⟨S_, .f32⟩
  | 21 => ⟨S100000x1, .f32⟩
  | 22 => ⟨S100000x1, .f32⟩
  | 23 => ⟨S100000x32, .f32⟩
  | 24 => ⟨S100000x32, .f32⟩
  | 25 => ⟨S_, .f32⟩
  | 26 => ⟨S100000, .f32⟩
  | 27 => ⟨S100000x1, .f32⟩
  | 28 => ⟨S_, .f32⟩
  | 29 => ⟨S100000x1, .f32⟩
  | 30 => ⟨S100000x1, .f32⟩
  | 31 => ⟨S100000x32, .f32⟩
  | 32 => ⟨S100000x32, .f32⟩
  | 33 => ⟨S100000x192, .f32⟩
  | _ => ⟨S100000x32, .f32⟩

abbrev hbmTy (i : Nat) : BufTy := match i / 128 with
  | 0 => hbmTy0_0 i
  | 1 => hbmTy0_1 i
  | 2 => hbmTy0_2 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_c_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_5 : Ref sig .tc := ⟨.hbm, 33, rfl⟩
abbrev main_v24 : Ref sig .tc := ⟨.hbm, 34, rfl⟩
abbrev main_v25 : Ref sig .tc := ⟨.hbm, 35, rfl⟩
abbrev main_c_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_cst_10 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_11 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_12 : Ref sig .tc := ⟨.hbm, 60, rfl⟩
abbrev main_v44 : Ref sig .tc := ⟨.hbm, 61, rfl⟩
abbrev main_v45 : Ref sig .tc := ⟨.hbm, 62, rfl⟩
abbrev main_c_13 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_14 : Ref sig .tc := ⟨.hbm, 70, rfl⟩
abbrev main_v52 : Ref sig .tc := ⟨.hbm, 71, rfl⟩
abbrev main_v53 : Ref sig .tc := ⟨.hbm, 72, rfl⟩
abbrev main_c_15 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_16 : Ref sig .tc := ⟨.hbm, 81, rfl⟩
abbrev main_v61 : Ref sig .tc := ⟨.hbm, 82, rfl⟩
abbrev main_v62 : Ref sig .tc := ⟨.hbm, 83, rfl⟩
abbrev main_c_17 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_18 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_c_19 : Ref sig .tc := ⟨.hbm, 97, rfl⟩
abbrev main_v74 : Ref sig .tc := ⟨.hbm, 98, rfl⟩
abbrev main_v75 : Ref sig .tc := ⟨.hbm, 99, rfl⟩
abbrev main_c_20 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_21 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_c_22 : Ref sig .tc := ⟨.hbm, 113, rfl⟩
abbrev main_v87 : Ref sig .tc := ⟨.hbm, 114, rfl⟩
abbrev main_v88 : Ref sig .tc := ⟨.hbm, 115, rfl⟩
abbrev main_c_23 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_24 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_25 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_c_26 : Ref sig .tc := ⟨.hbm, 138, rfl⟩
abbrev main_v108 : Ref sig .tc := ⟨.hbm, 139, rfl⟩
abbrev main_v109 : Ref sig .tc := ⟨.hbm, 140, rfl⟩
abbrev main_c_27 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_cst_28 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_cst_29 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_cst_30 : Ref sig .tc := ⟨.hbm, 163, rfl⟩
abbrev main_v129 : Ref sig .tc := ⟨.hbm, 164, rfl⟩
abbrev main_cst_31 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_cst_32 : Ref sig .tc := ⟨.hbm, 169, rfl⟩
abbrev main_v133 : Ref sig .tc := ⟨.hbm, 170, rfl⟩
abbrev main_v134 : Ref sig .tc := ⟨.hbm, 171, rfl⟩
abbrev main_cst_33 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_cst_34 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_c_35 : Ref sig .tc := ⟨.hbm, 180, rfl⟩
abbrev main_v141 : Ref sig .tc := ⟨.hbm, 181, rfl⟩
abbrev main_v142 : Ref sig .tc := ⟨.hbm, 182, rfl⟩
abbrev main_c_36 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_c_37 : Ref sig .tc := ⟨.hbm, 190, rfl⟩
abbrev main_v149 : Ref sig .tc := ⟨.hbm, 191, rfl⟩
abbrev main_v150 : Ref sig .tc := ⟨.hbm, 192, rfl⟩
abbrev main_c_38 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_c_39 : Ref sig .tc := ⟨.hbm, 201, rfl⟩
abbrev main_v158 : Ref sig .tc := ⟨.hbm, 202, rfl⟩
abbrev main_v159 : Ref sig .tc := ⟨.hbm, 203, rfl⟩
abbrev main_c_40 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_cst_41 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_c_42 : Ref sig .tc := ⟨.hbm, 217, rfl⟩
abbrev main_v171 : Ref sig .tc := ⟨.hbm, 218, rfl⟩
abbrev main_v172 : Ref sig .tc := ⟨.hbm, 219, rfl⟩
abbrev main_c_43 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_cst_44 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_cst_45 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_cst_46 : Ref sig .tc := ⟨.hbm, 241, rfl⟩
abbrev main_v191 : Ref sig .tc := ⟨.hbm, 242, rfl⟩
abbrev main_v192 : Ref sig .tc := ⟨.hbm, 243, rfl⟩
abbrev main_cst_47 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_cst_48 : Ref sig .tc := ⟨.hbm, 249, rfl⟩
abbrev main_v197 : Ref sig .tc := ⟨.hbm, 250, rfl⟩
abbrev main_v198 : Ref sig .tc := ⟨.hbm, 251, rfl⟩
abbrev main_cst_49 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_cst_50 : Ref sig .tc := ⟨.hbm, 257, rfl⟩
abbrev main_v203 : Ref sig .tc := ⟨.hbm, 258, rfl⟩
abbrev main_v204 : Ref sig .tc := ⟨.hbm, 259, rfl⟩
abbrev main_cst_51 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_cst_52 : Ref sig .tc := ⟨.hbm, 265, rfl⟩
abbrev main_v209 : Ref sig .tc := ⟨.hbm, 266, rfl⟩
abbrev main_v210 : Ref sig .tc := ⟨.hbm, 267, rfl⟩
abbrev main_cst_53 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_cst_54 : Ref sig .tc := ⟨.hbm, 273, rfl⟩
abbrev main_v215 : Ref sig .tc := ⟨.hbm, 274, rfl⟩
abbrev main_v216 : Ref sig .tc := ⟨.hbm, 275, rfl⟩
abbrev main_cst_55 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_cst_56 : Ref sig .tc := ⟨.hbm, 281, rfl⟩
abbrev main_v221 : Ref sig .tc := ⟨.hbm, 282, rfl⟩
abbrev main_v222 : Ref sig .tc := ⟨.hbm, 283, rfl⟩
abbrev main_cst_57 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  concatenates_S1600000_S1600000_S3200000_d0 : Shape.Concatenates [S1600000, S1600000] S3200000 0
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x32_0_1 : S3200000x1.BroadcastsInDim S3200000x32 (![0, 1] : Fin 2 → Fin S3200000x32.rank)
  reducesTo_S100000x32_S100000_d1 : S100000x32.ReducesTo [1] S100000
  h_S_ : 0 < S_.numel
  bcast_S_S100000x1 : S_.BroadcastsInDim S100000x1 (![] : Fin 0 → Fin S100000x1.rank)
  concatenates_S100000x32_S100000x32_S100000x32_S100000x32_S100000x32_S100000x32_S100000x192_d1 : Shape.Concatenates [S100000x32, S100000x32, S100000x32, S100000x32, S100000x32, S100000x32] S100000x192 1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf

class Facts : Prop extends Facts₀ where

variable [Facts]
-- ==== Proof.KernelFrame.lean ====
/-
  The frame of this program: every fair run of @main ends, nothing faults, and the two argument arrays end as they began.

  @main is a stretch of 181 host operations followed by ONE pipelined region over a grid of 50 points. At each point the
  region stages one block of each of eight input arrays (windows 0–6 in blocks of [2000, 32], window 7 in blocks of
  [2000, 3]); its body reads the eight staged blocks whole, computes six [2000, 32] panels from them and lays the panels
  side by side over the WHOLE staged block of the one output array (window 8, blocks of [2000, 192]), which is written
  back at every point. The body keeps nothing from one point to the next and touches nothing but the nine staged blocks.

  So what the body leaves in the output's staged block is a closed function (out8) of the eight input blocks at the
  point, each input block is left where it was, and the launch theorem for such a region gives the run: at its end every
  staged array holds what the proof data computes, and every other unscoped buffer what it held when the region was
  entered. The first argument is window 0's array, an input, hence unchanged by the region; the second is no window's
  array. Neither is the result of any of the 181 host operations, so each still holds what the launch put there.
-/
import proofs.«145359_j51866025066826_2_alg».proof.Proof.Gen.Kernel.Launch
import proofs.«145359_j51866025066826_2_alg».proof.Proof.Gen.Kernel.Skeleton
import proofs.«145359_j51866025066826_2_alg».proof.Proof.Gen.Kernel.Points
import Idealize.ShloMosaic.Lib.Pipeline.FrameBody
import Idealize.ShloMosaic.Lib.Ring
import Idealize.ShloMosaic.Lib.Tactic

-- a list of 181 operations, and rectangles with an axis of 2000 coordinates, are walked one element per level
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- A property of every element of a list, from the head's and the tail's. -/
theorem forall_cons_of {α : Type} {p : α → Prop} {x : α} {l : List α} (hx : p x) (hl : l.Forall p) : (x :: l).Forall p :=
  (List.forall_cons p x l).mpr ⟨hx, hl⟩

/-- What core `c`'s buffers hold when the region is entered: the launch contents carried through the 181 host
    operations in order, each replacing the contents of its one result buffer. -/
abbrev V (c : Dev nD) (b : Ref sig .tc) : Buf (Elt F) ((c : Thread nD τ).loc b) := StableHlo.after hostOps0 (fun b => m (c, b)) b

set_option maxHeartbeats 4000000 in
/-- None of the host operations allocates a buffer. -/
theorem hostOps0_fresh : (hostOps0 : List (HloOp τ sig (Elt F))).Forall fun op => op.fresh = ∅ := by
  repeat' first
    | exact rfl
    | exact trivial
    | refine forall_cons_of ?_ ?_

/-- @main, up to and including the call of its region: the host operations run over the unscoped buffers and hand the
    region the contents `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 4000000 in
/-- The first argument is the result of no host operation: each operation writes its one result buffer, a different
    reference. -/
theorem hostOps0_keep_arg0 : (hostOps0 : List (HloOp τ sig (Elt F))).Forall fun op => Proc.devRef (τ := τ) .tc main_arg0 ∉ op.writes := by
  repeat' first
    | exact Finset.notMem_singleton.mpr (StableHlo.devRef_ne_of_ne (by decide))
    | exact trivial
    | refine forall_cons_of ?_ ?_

set_option maxHeartbeats 4000000 in
/-- Nor is the second. -/
theorem hostOps0_keep_arg1 : (hostOps0 : List (HloOp τ sig (Elt F))).Forall fun op => Proc.devRef (τ := τ) .tc main_arg1 ∉ op.writes := by
  repeat' first
    | exact Finset.notMem_singleton.mpr (StableHlo.devRef_ne_of_ne (by decide))
    | exact trivial
    | refine forall_cons_of ?_ ?_

/-- So the region finds the first argument as launched, -/
theorem V_main_arg0 (c : Dev nD) : V m c main_arg0 = m ((c : Thread nD τ).loc main_arg0) :=
  StableHlo.after_of_forall_not_mem (b := Proc.devRef .tc main_arg0) _ _ (List.forall_iff_forall_mem.mp hostOps0_keep_arg0)

/-- and the second. -/
theorem V_main_arg1 (c : Dev nD) : V m c main_arg1 = m ((c : Thread nD τ).loc main_arg1) :=
  StableHlo.after_of_forall_not_mem (b := Proc.devRef .tc main_arg1) _ _ (List.forall_iff_forall_mem.mp hostOps0_keep_arg1)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: each staged block whole -/

abbrev r32 : Rect S2000x32 := Rect.unit (s := S2000x32) ![0, 0] S2000x32.size inb_S2000x32_S2000x32_0_0
abbrev r3 : Rect S2000x3 := Rect.unit (s := S2000x3) ![0, 0] S2000x3.size inb_S2000x3_S2000x3_0_0
abbrev r192 : Rect S2000x192 := Rect.unit (s := S2000x192) ![0, 0] S2000x192.size inb_S2000x192_S2000x192_0_0

/-! ## What the body leaves in the output's staged block -/

/-- The output's staged block after the body, from the eight input blocks `x0 … x7` (window by window): its one
    store, of the six panels side by side, over the whole block. -/
def out8 (x0 x1 x2 x3 x4 x5 x6 : Vec F S2000x32 .f32) (x7 : Vec F S2000x3 .f32) : Vec F S2000x192 .f32 :=
  View.canon [⟨r192, k0_pay1 (k0_pay2 (View.ld x4 r32)) (k0_pay3 (View.ld x5 r32)) (k0_pay5 (View.ld x0 r32) (View.ld x3 r32) (View.ld x7 r3))
    (k0_pay6 (View.ld x0 r32) (View.ld x6 r32) (View.ld x7 r3)) (k0_pay7 (View.ld x0 r32) (View.ld x1 r32) (View.ld x7 r3)) (k0_pay8 (View.ld x2 r32))⟩]

/-- The one store is of the whole block, so it covers it. -/
theorem cover8 (p : Vec F S2000x192 .f32) (y : S2000x192.Idx) :
    ∃ pc ∈ ([⟨r192, p⟩] : List (View.Piece (Elt F) S2000x192 .f32)), y ∈ pc.1.set :=
  View.cover_of_tiled [⟨r192, p⟩] S2000x192.size (by rfl) y

/-! ## The body's triple -/

set_option maxHeartbeats 4000000 in
/-- The body on whole staged memrefs — the inputs' reading `x0 … x7`, the output's holding anything — runs to the
    continuation with the inputs' as they were and the output's reading `out8` of the inputs: eight whole loads, a
    load of the output's block whose value is dropped, and one whole store. -/
theorem sound_kernel (c : Dev nD) (E : Set ℕ) (i : grid0.Coords)
    (arg1 : Memref sig .tc .vmem S2000x32 .f32) (harg1 : arg1.IsWhole) (arg2 : Memref sig .tc .vmem S2000x32 .f32) (harg2 : arg2.IsWhole)
    (arg3 : Memref sig .tc .vmem S2000x32 .f32) (harg3 : arg3.IsWhole) (arg4 : Memref sig .tc .vmem S2000x32 .f32) (harg4 : arg4.IsWhole)
    (arg5 : Memref sig .tc .vmem S2000x32 .f32) (harg5 : arg5.IsWhole) (arg6 : Memref sig .tc .vmem S2000x32 .f32) (harg6 : arg6.IsWhole)
    (arg7 : Memref sig .tc .vmem S2000x32 .f32) (harg7 : arg7.IsWhole) (arg8 : Memref sig .tc .vmem S2000x3 .f32) (harg8 : arg8.IsWhole)
    (arg9 : Memref sig .tc .vmem S2000x192 .f32) (harg9 : arg9.IsWhole)
    (x0 x1 x2 x3 x4 x5 x6 : Vec F S2000x32 .f32) (x7 : Vec F S2000x3 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out8 x0 x1 x2 x3 x4 x5 x6 x7)) -∗ K ⟨⟩))
      ⊢ wp frame (wpE (defs₀ (F := F)) Variants.none c none) E
          (cc0__finalize_kernel i arg1 harg1 arg2 harg2 arg3 harg3 arg4 harg4 arg5 harg5 arg6 harg6 arg7 harg7 arg8 harg8 arg9 harg9) K := by
  simp only [cc0__finalize_kernel_eq_skeleton]; unfold cc0__finalize_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover8 _)

/-! ## The pipeline's proof data -/

/-- The proof data of the pipeline on core `c`: the arrays as the region finds them; after the body at point `t` each
    input's staged block still its block and the output's `out8` of the eight input blocks; the invariant the untouched
    scoped rest and generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the region-entry contents (by projection: the fold over the host operations is never
    unfolded). -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t
    = out8 (iblk m c 0 t) (iblk m c 1 t) (iblk m c 2 t) (iblk m c 3 t) (iblk m c 4 t) (iblk m c 5 t) (iblk m c 6 t) (iblk m c 7 t) := by dsimp only [dats]

/-- Each input's current staged block is its block at every point, fetched there or not: the body leaves it in place, and
    where the pipeline fetches nothing the block index has not moved. (Here every input is fetched at every point.) -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl)
    (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl)
    (fun t => by rw [after7]; unfold Dat.blockOf iblk; rw [A_eq]; try rfl) t d).trans
    (by unfold Dat.fetched Dat.blockOf iblk; rw [A_eq]; try rfl)

/-! ## The body obligation, at a generic point -/

/-- What the body is called with at point `t`: the invariant, the core's debt, and each window's current staged block, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 4000000 in
/-- The body at any point: the inputs' staged blocks are their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the launch theorem, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which unfolds plain
-- definitions inside a type still to be determined
set_option backward.isDefEq.respectTransparency.types false in
/-- At the compiled mesh, for any values, from any memory with zero counters: every weakly fair execution of @main on the
    TensorCores terminates, and in every final state each array of the pipeline holds what the proof data computes and
    every other unscoped buffer what the region found in it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: the run, read at the two argument arrays. The first is window 0's array, an input: the pipeline leaves an
    input's array as the region found it, which is as launched. The second is no window's array and is unscoped: it
    bypasses the region, and the region found it as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩) (run_main m ρ)

end Cert.Kernel.Fr

end
-- ==== Proof.KernelIdealFrame.lean ====
/-
  The frame of this program: every fair run of @main ends, nothing faults, and the two argument arrays end as they began.

  @main is a stretch of 181 host operations followed by ONE pipelined region over a grid of 50 points. At each point the
  region stages one block of each of eight input arrays (windows 0–6 in blocks of [2000, 32], window 7 in blocks of
  [2000, 3]); its body reads the eight staged blocks whole, computes six [2000, 32] panels from them and lays the panels
  side by side over the WHOLE staged block of the one output array (window 8, blocks of [2000, 192]), which is written
  back at every point. The body keeps nothing from one point to the next and touches nothing but the nine staged blocks.

  So what the body leaves in the output's staged block is a closed function (out8) of the eight input blocks at the
  point, each input block is left where it was, and the launch theorem for such a region gives the run: at its end every
  staged array holds what the proof data computes, and every other unscoped buffer what it held when the region was
  entered. The first argument is window 0's array, an input, hence unchanged by the region; the second is no window's
  array. Neither is the result of any of the 181 host operations, so each still holds what the launch put there.
-/
import proofs.«145359_j51866025066826_2_alg».proof.Proof.Gen.KernelIdeal.Launch
import proofs.«145359_j51866025066826_2_alg».proof.Proof.Gen.KernelIdeal.Skeleton
import proofs.«145359_j51866025066826_2_alg».proof.Proof.Gen.KernelIdeal.Points
import Idealize.ShloMosaic.Lib.Pipeline.FrameBody
import Idealize.ShloMosaic.Lib.Ring
import Idealize.ShloMosaic.Lib.Tactic

-- a list of 181 operations, and rectangles with an axis of 2000 coordinates, are walked one element per level
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- A property of every element of a list, from the head's and the tail's. -/
theorem forall_cons_of {α : Type} {p : α → Prop} {x : α} {l : List α} (hx : p x) (hl : l.Forall p) : (x :: l).Forall p :=
  (List.forall_cons p x l).mpr ⟨hx, hl⟩

/-- What core `c`'s buffers hold when the region is entered: the launch contents carried through the 181 host
    operations in order, each replacing the contents of its one result buffer. -/
abbrev V (c : Dev nD) (b : Ref sig .tc) : Buf (Elt F) ((c : Thread nD τ).loc b) := StableHlo.after hostOps0 (fun b => m (c, b)) b

set_option maxHeartbeats 4000000 in
/-- None of the host operations allocates a buffer. -/
theorem hostOps0_fresh : (hostOps0 : List (HloOp τ sig (Elt F))).Forall fun op => op.fresh = ∅ := by
  repeat' first
    | exact rfl
    | exact trivial
    | refine forall_cons_of ?_ ?_

/-- @main, up to and including the call of its region: the host operations run over the unscoped buffers and hand the
    region the contents `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 4000000 in
/-- The first argument is the result of no host operation: each operation writes its one result buffer, a different
    reference. -/
theorem hostOps0_keep_arg0 : (hostOps0 : List (HloOp τ sig (Elt F))).Forall fun op => Proc.devRef (τ := τ) .tc main_arg0 ∉ op.writes := by
  repeat' first
    | exact Finset.notMem_singleton.mpr (StableHlo.devRef_ne_of_ne (by decide))
    | exact trivial
    | refine forall_cons_of ?_ ?_

set_option maxHeartbeats 4000000 in
/-- Nor is the second. -/
theorem hostOps0_keep_arg1 : (hostOps0 : List (HloOp τ sig (Elt F))).Forall fun op => Proc.devRef (τ := τ) .tc main_arg1 ∉ op.writes := by
  repeat' first
    | exact Finset.notMem_singleton.mpr (StableHlo.devRef_ne_of_ne (by decide))
    | exact trivial
    | refine forall_cons_of ?_ ?_

/-- So the region finds the first argument as launched, -/
theorem V_main_arg0 (c : Dev nD) : V m c main_arg0 = m ((c : Thread nD τ).loc main_arg0) :=
  StableHlo.after_of_forall_not_mem (b := Proc.devRef .tc main_arg0) _ _ (List.forall_iff_forall_mem.mp hostOps0_keep_arg0)

/-- and the second. -/
theorem V_main_arg1 (c : Dev nD) : V m c main_arg1 = m ((c : Thread nD τ).loc main_arg1) :=
  StableHlo.after_of_forall_not_mem (b := Proc.devRef .tc main_arg1) _ _ (List.forall_iff_forall_mem.mp hostOps0_keep_arg1)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: each staged block whole -/

abbrev r32 : Rect S2000x32 := Rect.unit (s := S2000x32) ![0, 0] S2000x32.size inb_S2000x32_S2000x32_0_0
abbrev r3 : Rect S2000x3 := Rect.unit (s := S2000x3) ![0, 0] S2000x3.size inb_S2000x3_S2000x3_0_0
abbrev r192 : Rect S2000x192 := Rect.unit (s := S2000x192) ![0, 0] S2000x192.size inb_S2000x192_S2000x192_0_0

/-! ## What the body leaves in the output's staged block -/

/-- The output's staged block after the body, from the eight input blocks `x0 … x7` (window by window): its one
    store, of the six panels side by side, over the whole block. -/
def out8 (x0 x1 x2 x3 x4 x5 x6 : Vec F S2000x32 .f32) (x7 : Vec F S2000x3 .f32) : Vec F S2000x192 .f32 :=
  View.canon [⟨r192, k0_pay1 (k0_pay2 (View.ld x4 r32)) (k0_pay3 (View.ld x5 r32)) (k0_pay5 (View.ld x0 r32) (View.ld x3 r32) (View.ld x7 r3))
    (k0_pay6 (View.ld x0 r32) (View.ld x6 r32) (View.ld x7 r3)) (k0_pay7 (View.ld x0 r32) (View.ld x1 r32) (View.ld x7 r3)) (k0_pay8 (View.ld x2 r32))⟩]

/-- The one store is of the whole block, so it covers it. -/
theorem cover8 (p : Vec F S2000x192 .f32) (y : S2000x192.Idx) :
    ∃ pc ∈ ([⟨r192, p⟩] : List (View.Piece (Elt F) S2000x192 .f32)), y ∈ pc.1.set :=
  View.cover_of_tiled [⟨r192, p⟩] S2000x192.size (by rfl) y

/-! ## The body's triple -/

set_option maxHeartbeats 4000000 in
/-- The body on whole staged memrefs — the inputs' reading `x0 … x7`, the output's holding anything — runs to the
    continuation with the inputs' as they were and the output's reading `out8` of the inputs: eight whole loads, a
    load of the output's block whose value is dropped, and one whole store. -/
theorem sound_kernel (c : Dev nD) (E : Set ℕ) (i : grid0.Coords)
    (arg1 : Memref sig .tc .vmem S2000x32 .f32) (harg1 : arg1.IsWhole) (arg2 : Memref sig .tc .vmem S2000x32 .f32) (harg2 : arg2.IsWhole)
    (arg3 : Memref sig .tc .vmem S2000x32 .f32) (harg3 : arg3.IsWhole) (arg4 : Memref sig .tc .vmem S2000x32 .f32) (harg4 : arg4.IsWhole)
    (arg5 : Memref sig .tc .vmem S2000x32 .f32) (harg5 : arg5.IsWhole) (arg6 : Memref sig .tc .vmem S2000x32 .f32) (harg6 : arg6.IsWhole)
    (arg7 : Memref sig .tc .vmem S2000x32 .f32) (harg7 : arg7.IsWhole) (arg8 : Memref sig .tc .vmem S2000x3 .f32) (harg8 : arg8.IsWhole)
    (arg9 : Memref sig .tc .vmem S2000x192 .f32) (harg9 : arg9.IsWhole)
    (x0 x1 x2 x3 x4 x5 x6 : Vec F S2000x32 .f32) (x7 : Vec F S2000x3 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out8 x0 x1 x2 x3 x4 x5 x6 x7)) -∗ K ⟨⟩))
      ⊢ wp frame (wpE (defs₀ (F := F)) Variants.none c none) E
          (cc0__finalize_kernel i arg1 harg1 arg2 harg2 arg3 harg3 arg4 harg4 arg5 harg5 arg6 harg6 arg7 harg7 arg8 harg8 arg9 harg9) K := by
  simp only [cc0__finalize_kernel_eq_skeleton]; unfold cc0__finalize_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover8 _)

/-! ## The pipeline's proof data -/

/-- The proof data of the pipeline on core `c`: the arrays as the region finds them; after the body at point `t` each
    input's staged block still its block and the output's `out8` of the eight input blocks; the invariant the untouched
    scoped rest and generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the region-entry contents (by projection: the fold over the host operations is never
    unfolded). -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t
    = out8 (iblk m c 0 t) (iblk m c 1 t) (iblk m c 2 t) (iblk m c 3 t) (iblk m c 4 t) (iblk m c 5 t) (iblk m c 6 t) (iblk m c 7 t) := by dsimp only [dats]

/-- Each input's current staged block is its block at every point, fetched there or not: the body leaves it in place, and
    where the pipeline fetches nothing the block index has not moved. (Here every input is fetched at every point.) -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl)
    (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl)
    (fun t => by rw [after7]; unfold Dat.blockOf iblk; rw [A_eq]; try rfl) t d).trans
    (by unfold Dat.fetched Dat.blockOf iblk; rw [A_eq]; try rfl)

/-! ## The body obligation, at a generic point -/

/-- What the body is called with at point `t`: the invariant, the core's debt, and each window's current staged block, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 4000000 in
/-- The body at any point: the inputs' staged blocks are their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the launch theorem, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which unfolds plain
-- definitions inside a type still to be determined
set_option backward.isDefEq.respectTransparency.types false in
/-- At the compiled mesh, for any values, from any memory with zero counters: every weakly fair execution of @main on the
    TensorCores terminates, and in every final state each array of the pipeline holds what the proof data computes and
    every other unscoped buffer what the region found in it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: the run, read at the two argument arrays. The first is window 0's array, an input: the pipeline leaves an
    input's array as the region found it, which is as launched. The second is no window's array and is unscoped: it
    bypasses the region, and the region found it as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩) (run_main m ρ)

end Cert.KernelIdeal.Fr

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.LibHostRows.lean ====
/-
  The host's keep-dimension broadcasts and its row sum, read at an entry, for any extents.

  `jnp` writes `v[:, None]` as a `broadcast_in_dim` of an `[a]` vector into an `[a, 1]` column (the vector's axis sent
  to axis 0), repeats such a column along `b` columns by a `broadcast_in_dim` with the identity axis map, writes a bias
  `[b]` as a `[1, b]` row (the vector's axis sent to axis 1) and repeats that row down `a` rows. Each, read at an
  entry, is the operand at the evident entry. A host sum over the second axis of an `[a, b]` matrix, read at row `r`
  on the extended reals, is the initial value plus the sum of that row's entries.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostRows

open Idealize.ShloMosaic Idealize.ShloMosaic.ValueIdx

variable {α : Type}

/-- An `[a]` vector broadcast into the column `[a, 1]` reads, at `(r, u)`, the vector at `r`. -/
theorem bcast_a_a1_at {a : ℕ} (dims : Fin (⟨1, ![a]⟩ : Shape).rank → Fin (⟨2, ![a, 1]⟩ : Shape).rank) (hd : dims 0 = 0)
    (h : (⟨1, ![a]⟩ : Shape).BroadcastsInDim ⟨2, ![a, 1]⟩ dims) (x : (⟨1, ![a]⟩ : Shape).Idx → α) (r : Fin a) (u : Fin 1) :
    broadcastInDim ⟨2, ![a, 1]⟩ dims h x (ix2 r u) = x (ix1 r) := by
  refine broadcastInDim_apply dims h x (ix2 r u) (ix1 r) fun ax => ?_
  match ax with
  | ⟨0, _⟩ =>
    show r.val = if a = 1 then 0 else (ix2 r u (dims 0)).val
    rw [hd]
    split
    · have := r.isLt; omega
    · rfl

/-- A column `[a, 1]` broadcast along `b` columns reads, at `(r, k)`, the column at `r`. -/
theorem bcast_a1_ab_at {a b : ℕ} (dims : Fin (⟨2, ![a, 1]⟩ : Shape).rank → Fin (⟨2, ![a, b]⟩ : Shape).rank)
    (hd0 : dims 0 = 0) (hd1 : dims 1 = 1)
    (h : (⟨2, ![a, 1]⟩ : Shape).BroadcastsInDim ⟨2, ![a, b]⟩ dims) (x : (⟨2, ![a, 1]⟩ : Shape).Idx → α) (r : Fin a) (k : Fin b) :
    broadcastInDim ⟨2, ![a, b]⟩ dims h x (ix2 r k) = x (ix2 r (0 : Fin 1)) := by
  refine broadcastInDim_apply dims h x (ix2 r k) (ix2 r (0 : Fin 1)) fun ax => ?_
  match ax with
  | ⟨0, _⟩ =>
    show r.val = if a = 1 then 0 else (ix2 r k (dims 0)).val
    rw [hd0]
    split
    · have := r.isLt; omega
    · rfl
  | ⟨1, _⟩ =>
    show (0 : ℕ) = if (1 : ℕ) = 1 then 0 else (ix2 r k (dims 1)).val
    rw [if_pos rfl]

/-- A vector `[b]` broadcast into the row `[1, b]` reads, at `(u, j)`, the vector at `j`. -/
theorem bcast_b_1b_at {b : ℕ} (dims : Fin (⟨1, ![b]⟩ : Shape).rank → Fin (⟨2, ![1, b]⟩ : Shape).rank) (hd : dims 0 = 1)
    (h : (⟨1, ![b]⟩ : Shape).BroadcastsInDim ⟨2, ![1, b]⟩ dims) (x : (⟨1, ![b]⟩ : Shape).Idx → α) (u : Fin 1) (j : Fin b) :
    broadcastInDim ⟨2, ![1, b]⟩ dims h x (ix2 u j) = x (ix1 j) := by
  refine broadcastInDim_apply dims h x (ix2 u j) (ix1 j) fun ax => ?_
  match ax with
  | ⟨0, _⟩ =>
    show j.val = if b = 1 then 0 else (ix2 u j (dims 0)).val
    rw [hd]
    split
    · have := j.isLt; omega
    · rfl

/-- A row `[1, b]` repeated down `a` rows reads, at `(r, j)`, the row at `j`. -/
theorem bcast_1b_ab_at {a b : ℕ} (dims : Fin (⟨2, ![1, b]⟩ : Shape).rank → Fin (⟨2, ![a, b]⟩ : Shape).rank)
    (hd0 : dims 0 = 0) (hd1 : dims 1 = 1)
    (h : (⟨2, ![1, b]⟩ : Shape).BroadcastsInDim ⟨2, ![a, b]⟩ dims) (x : (⟨2, ![1, b]⟩ : Shape).Idx → α) (r : Fin a) (j : Fin b) :
    broadcastInDim ⟨2, ![a, b]⟩ dims h x (ix2 r j) = x (ix2 (0 : Fin 1) j) := by
  refine broadcastInDim_apply dims h x (ix2 r j) (ix2 (0 : Fin 1) j) fun ax => ?_
  match ax with
  | ⟨0, _⟩ =>
    show (0 : ℕ) = if (1 : ℕ) = 1 then 0 else (ix2 r j (dims 0)).val
    rw [if_pos rfl]
  | ⟨1, _⟩ =>
    show j.val = if b = 1 then 0 else (ix2 r j (dims 1)).val
    rw [hd1]
    split
    · have := j.isLt; omega
    · rfl

/-- On the extended reals the host's sum over the second axis of an `[a, b]` matrix is, at row `r`, the initial value plus
    the sum of that row's entries. -/
theorem hostReduceAdd_rows {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ d : Fin b, x (ix2 r d) := by
  rw [hostReduceAdd_apply, Ideal.hostReduceAdd_single h' h]
  refine congrArg (init (Shape.Idx.first hu) + ·) (Finset.sum_congr rfl fun d _ => congrArg x (funext fun ax => Fin.ext ?_))
  match ax with
  | ⟨0, _⟩ => rfl
  | ⟨1, _⟩ => rfl

end Cert.LibHostRows

end
-- ==== Proof.LibRowNorm.lean ====
/-
  Row normalization h / (Σ_d h(r, d) + ε) of an [a, b] matrix over the extended reals, read at an entry in the two spellings a
  program may print it in: a lane sum cast to a column, shifted by a splat constant, broadcast along the columns and divided
  into the matrix (a kernel body's); and the host's reduce-add broadcast into a column, shifted by a broadcast scalar,
  broadcast along the columns and divided into the matrix. Both are one function of the matrix and of ε.
  Also: six pieces of one shape [a, K] laid side by side along axis 1, read at an entry.
-/
import Idealize.ShloMosaic.Lib.Pipeline.Value
import Idealize.ShloMosaic.Lib.ValueIdx
import Idealize.ShloMosaic.Lib.IdealHost
import Idealize.ShloMosaic.PureOps.Ideal.Laws
import proofs.«145359_j51866025066826_2_alg».proof.Proof.LibKeepdims
import proofs.«145359_j51866025066826_2_alg».proof.Proof.LibHostRows

noncomputable section

open scoped BigOperators

namespace Cert.LibRowNorm

open Idealize.ShloMosaic Idealize.ShloMosaic.ValueIdx

/-- Entry (r, c) of the row-normalized matrix: the entry over its row's sum shifted by `e`. -/
def rowNorm {a b : ℕ} (x : (⟨2, ![a, b]⟩ : Shape).Idx → EReal) (e : EReal) : (⟨2, ![a, b]⟩ : Shape).Idx → EReal :=
  fun i => Ideal.div (x i) ((∑ d : Fin b, x (ix2 (i 0) d)) + e)

theorem rowNorm_apply {a b : ℕ} (x : (⟨2, ![a, b]⟩ : Shape).Idx → EReal) (e : EReal) (r : Fin a) (c : Fin b) :
    rowNorm x e (ix2 r c) = Ideal.div (x (ix2 r c)) ((∑ d : Fin b, x (ix2 r d)) + e) := rfl

/-- The kernel body's spelling. -/
theorem kernel_rowNorm {a b : ℕ} (h : FVec Ideal ⟨2, ![a, b]⟩ .f32) (acc : BitVec (FTy.bits .f32))
    (hr : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩)
    (e : Ideal .f32) (r : Fin a) (c : Fin b) :
    divf h (broadcastTo ⟨2, ![a, b]⟩ (addf (shapeCast ⟨2, ![a, 1]⟩ (multiReduction .add [1] ⟨1, ![a]⟩ h acc hr hφ hacc) hc)
      (broadcast ⟨2, ![a, 1]⟩ e)) hb) (ix2 r c) = rowNorm h e (ix2 r c) := by
  rw [divf_apply, Cert.LibKeepdims.broadcastTo_a1_ab_apply, addf_apply, Cert.LibKeepdims.shapeCast_a_a1_apply,
    Cert.LibKeepdims.multiReduction_add_rows, broadcast_apply]
  rfl

/-- The host's spelling: the reduce-add starts from the zero word, which is the real zero. -/
theorem host_rowNorm {a b : ℕ} (x : FVec Ideal ⟨2, ![a, b]⟩ .f32) (ew : BitVec 32)
    (dims2 : Fin (⟨2, ![a, 1]⟩ : Shape).rank → Fin (⟨2, ![a, b]⟩ : Shape).rank) (hd20 : dims2 0 = 0) (hd21 : dims2 1 = 1)
    (h2 : (⟨2, ![a, 1]⟩ : Shape).BroadcastsInDim ⟨2, ![a, b]⟩ dims2)
    (dims1 : Fin (⟨1, ![a]⟩ : Shape).rank → Fin (⟨2, ![a, 1]⟩ : Shape).rank) (hd1 : dims1 0 = 0)
    (h1 : (⟨1, ![a]⟩ : Shape).BroadcastsInDim ⟨2, ![a, 1]⟩ dims1)
    (dims0 : Fin (⟨0, ![]⟩ : Shape).rank → Fin (⟨2, ![a, 1]⟩ : Shape).rank)
    (h0 : (⟨0, ![]⟩ : Shape).BroadcastsInDim ⟨2, ![a, 1]⟩ dims0)
    (h' : (⟨2, ![a, b]⟩ : Shape).ReducesTo [1] ⟨1, ![a]⟩) (hu : 0 < (⟨0, ![]⟩ : Shape).numel) (r : Fin a) (c : Fin b) :
    Host.divf x (broadcastInDim ⟨2, ![a, b]⟩ dims2 h2 (addf (broadcastInDim ⟨2, ![a, 1]⟩ dims1 h1
        (Host.reduceAdd x (constant (F := Ideal) ⟨0, ![]⟩ .f32 0x00000000#32) h' hu))
      (broadcastInDim ⟨2, ![a, 1]⟩ dims0 h0 (constant (F := Ideal) ⟨0, ![]⟩ .f32 ew)))) (ix2 r c)
      = rowNorm x (Ideal.ofBits .f32 ew) (ix2 r c) := by
  have hR : (⟨2, ![a, b]⟩ : Shape).Reduces [1] ⟨1, ![a]⟩ := by
    obtain ⟨g1, g2⟩ := h'; exact ⟨g1, Nat.one_pos, g2⟩
  have hc : broadcastInDim ⟨2, ![a, 1]⟩ dims0 h0 (constant (F := Ideal) ⟨0, ![]⟩ .f32 ew) (ix2 r (0 : Fin 1))
      = Ideal.ofBits .f32 ew :=
    broadcastInDim_apply dims0 h0 _ (ix2 r (0 : Fin 1)) ix0 (fun ax => ax.elim0)
  show Ideal.div (x (ix2 r c)) _ = _
  rw [Cert.LibHostRows.bcast_a1_ab_at dims2 hd20 hd21 h2, addf_apply, Cert.LibHostRows.bcast_a_a1_at dims1 hd1 h1,
    Cert.LibHostRows.hostReduceAdd_rows x _ h' hR hu, hc, constant_apply, Ideal.ofBits_zero_f32, zero_add]
  rfl

/-- Six pieces of one shape laid along axis `a`: entry `j` is piece `(j a) / K` at the index whose axis coordinate is
    `(j a) % K` and whose other coordinates are `j`'s, `K` the pieces' common extent on the axis. -/
theorem concat6_apply {α : Type} {t s₁ : Shape} (a : Fin t.rank) (x0 x1 x2 x3 x4 x5 : s₁.Idx → α)
    (h : Shape.Concatenates (([⟨s₁, x0⟩, ⟨s₁, x1⟩, ⟨s₁, x2⟩, ⟨s₁, x3⟩, ⟨s₁, x4⟩, ⟨s₁, x5⟩] :
      List ((s : Shape) × (s.Idx → α))).map (·.1)) t a)
    (hr : s₁.rank = t.rank) (K : Nat) (hK : s₁.size (a.cast hr.symm) = K) (j : t.Idx) (n : Fin 6)
    (hn : (j a).val / K = n.val) (i : s₁.Idx) (hia : (i (a.cast hr.symm)).val = (j a).val % K)
    (hi : ∀ b : Fin s₁.rank, b.cast hr ≠ a → (i b).val = (j (b.cast hr)).val) :
    concatenate t a [⟨s₁, x0⟩, ⟨s₁, x1⟩, ⟨s₁, x2⟩, ⟨s₁, x3⟩, ⟨s₁, x4⟩, ⟨s₁, x5⟩] h j
      = (![x0, x1, x2, x3, x4, x5] : Fin 6 → s₁.Idx → α) n i :=
  concatenate_ofFn_apply a (![x0, x1, x2, x3, x4, x5] : Fin 6 → s₁.Idx → α) h hr K hK j n hn i hia hi

/-- Two pieces of one shape laid along axis `a`, the same way. -/
theorem concat2_apply {α : Type} {t s₁ : Shape} (a : Fin t.rank) (x0 x1 : s₁.Idx → α)
    (h : Shape.Concatenates (([⟨s₁, x0⟩, ⟨s₁, x1⟩] : List ((s : Shape) × (s.Idx → α))).map (·.1)) t a)
    (hr : s₁.rank = t.rank) (K : Nat) (hK : s₁.size (a.cast hr.symm) = K) (j : t.Idx) (n : Fin 2)
    (hn : (j a).val / K = n.val) (i : s₁.Idx) (hia : (i (a.cast hr.symm)).val = (j a).val % K)
    (hi : ∀ b : Fin s₁.rank, b.cast hr ≠ a → (i b).val = (j (b.cast hr)).val) :
    concatenate t a [⟨s₁, x0⟩, ⟨s₁, x1⟩] h j = (![x0, x1] : Fin 2 → s₁.Idx → α) n i :=
  concatenate_ofFn_apply a (![x0, x1] : Fin 2 → s₁.Idx → α) h hr K hK j n hn i hia hi

/-- A propagated feature matrix with its self-return term removed: entry (r, c) is h(r, c) - l(r, c) · re(r, k), `re` holding one
    return weight per row in its column `k`. -/
def corr {a b n : ℕ} (h l : (⟨2, ![a, b]⟩ : Shape).Idx → EReal) (re : (⟨2, ![a, n]⟩ : Shape).Idx → EReal) (k : Fin n) :
    (⟨2, ![a, b]⟩ : Shape).Idx → EReal :=
  fun i => h i - l i * re (ix2 (i 0) k)

/-- Six `[a, 32]` matrices side by side: entry (r, q) is matrix `q / 32` at (r, q % 32). -/
def cat6 {a : ℕ} (p0 p1 p2 p3 p4 p5 : (⟨2, ![a, 32]⟩ : Shape).Idx → EReal) : (⟨2, ![a, 192]⟩ : Shape).Idx → EReal :=
  fun j => (![p0, p1, p2, p3, p4, p5] : Fin 6 → (⟨2, ![a, 32]⟩ : Shape).Idx → EReal)
    ⟨(j 1).val / 32, by have : (j 1).val < 192 := idx2_lt1 j; omega⟩ (ix2 (j 0) ⟨(j 1).val % 32, Nat.mod_lt _ (by decide)⟩)

end Cert.LibRowNorm

end
-- ==== Proof.KernelIdealPayload.lean ====
/-
  The body's store, read at an entry. The body builds six [2000, 32] panels from the eight staged blocks and stores them side
  by side as one [2000, 192] block. Three panels are row normalizations h / (Σ_d h(r, d) + ε) of a staged block as it
  stands; the other three first remove from a staged block the label block times one column of the three-column block of
  return weights, and normalize what is left. Read at entry (p, q), the store is panel q / 32 at (p, q % 32).
-/
import proofs.«145359_j51866025066826_2_alg».proof.Proof.Gen.KernelIdeal.Skeleton
import proofs.«145359_j51866025066826_2_alg».proof.Proof.LibRowNorm

noncomputable section

namespace Cert.KernelIdeal.Val

open Cert.KernelIdeal Cert.KernelIdeal.Gen Cert.LibRowNorm
open Idealize.ShloMosaic Idealize.ShloMosaic.ValueIdx

/-- The shift of every row sum: the single-precision word nearest 1e-5, as an extended real. -/
def eps : EReal := Ideal.ofBits .f32 0x3727C5AC#32

/-- A staged block cast to its own shape is itself. -/
theorem pay2_eq (x : Vec Ideal S2000x32 .f32) : k0_pay2 x = x := shapeCast_self x _
theorem pay3_eq (x : Vec Ideal S2000x32 .f32) : k0_pay3 x = x := shapeCast_self x _
theorem pay4_eq (x : Vec Ideal S2000x3 .f32) : k0_pay4 x = x := shapeCast_self x _

/-- Column `k` of the weights' block, repeated along the 32 columns, reads at (r, c) the weight of row r. -/
theorem col_at (re : Vec Ideal S2000x3 .f32) (k : Fin 3) (h : S2000x3.Slices ![0, k.val] S2000x1) (r : Fin 2000) (c : Fin 32) :
    broadcastTo S2000x32 (extractStridedSlice S2000x1 ![0, k.val] re h) broadcasts_S2000x1_S2000x32 (ix2 r c) = re (ix2 r k) := by
  rw [Cert.LibKeepdims.broadcastTo_a1_ab_apply]
  refine extractStridedSlice_apply _ _ _ _ _ fun a => ?_
  match a with
  | ⟨0, _⟩ => exact (Nat.zero_add _).symm
  | ⟨1, _⟩ => rfl

/-- The three corrected blocks. -/
theorem pay7_pre (l x : Vec Ideal S2000x32 .f32) (re : Vec Ideal S2000x3 .f32) :
    subf (shapeCast S2000x32 x shapeCasts_S2000x32_S2000x32) (mulf l (broadcastTo S2000x32 (extractStridedSlice S2000x1 ![0, 0] (k0_pay4 re) slices_S2000x3_o0_0_S2000x1) broadcasts_S2000x1_S2000x32))
      = corr x l re 0 := by
  funext i
  obtain ⟨r, c, rfl⟩ : ∃ (r : Fin 2000) (c : Fin 32), i = ix2 r c := ⟨i 0, i 1, eq_ix2 i⟩
  rw [subf_apply, mulf_apply, shapeCast_self, pay4_eq]
  exact congrArg (fun z => x (ix2 r c) - l (ix2 r c) * z) (col_at re 0 _ r c)

theorem pay5_eq (l x : Vec Ideal S2000x32 .f32) (re : Vec Ideal S2000x3 .f32) : k0_pay5 l x re = corr x l re 1 := by
  funext i
  obtain ⟨r, c, rfl⟩ : ∃ (r : Fin 2000) (c : Fin 32), i = ix2 r c := ⟨i 0, i 1, eq_ix2 i⟩
  unfold k0_pay5
  show subf (shapeCast S2000x32 x shapeCasts_S2000x32_S2000x32) (mulf l (broadcastTo S2000x32 (extractStridedSlice S2000x1 ![0, 1] (k0_pay4 re) slices_S2000x3_o0_1_S2000x1) broadcasts_S2000x1_S2000x32)) (ix2 r c) = _
  rw [subf_apply, mulf_apply, shapeCast_self, pay4_eq]
  exact congrArg (fun z => x (ix2 r c) - l (ix2 r c) * z) (col_at re 1 _ r c)

theorem pay6_eq (l x : Vec Ideal S2000x32 .f32) (re : Vec Ideal S2000x3 .f32) : k0_pay6 l x re = corr x l re 2 := by
  funext i
  obtain ⟨r, c, rfl⟩ : ∃ (r : Fin 2000) (c : Fin 32), i = ix2 r c := ⟨i 0, i 1, eq_ix2 i⟩
  unfold k0_pay6
  show subf (shapeCast S2000x32 x shapeCasts_S2000x32_S2000x32) (mulf l (broadcastTo S2000x32 (extractStridedSlice S2000x1 ![0, 2] (k0_pay4 re) slices_S2000x3_o0_2_S2000x1) broadcasts_S2000x1_S2000x32)) (ix2 r c) = _
  rw [subf_apply, mulf_apply, shapeCast_self, pay4_eq]
  exact congrArg (fun z => x (ix2 r c) - l (ix2 r c) * z) (col_at re 2 _ r c)

/-- The body's row normalization of a [2000, 32] block is `rowNorm` at the shift `eps`. -/
theorem norm_eq (h : FVec Ideal S2000x32 .f32) :
    divf h (broadcastTo S2000x32 (addf (shapeCast S2000x1 (multiReduction .add [1] S2000 h 0x00000000#32 reduces_S2000x32_S2000 (.inl rfl) rfl) shapeCasts_S2000_S2000x1)
      (broadcast S2000x1 (Scalar.ofBits (F := Ideal) .f32 0x3727C5AC#32))) broadcasts_S2000x1_S2000x32) = rowNorm h eps := by
  funext i
  obtain ⟨r, c, rfl⟩ : ∃ (r : Fin 2000) (c : Fin 32), i = ix2 r c := ⟨i 0, i 1, eq_ix2 i⟩
  exact kernel_rowNorm h _ _ _ rfl _ _ _ r c

theorem pay7_eq (l x : Vec Ideal S2000x32 .f32) (re : Vec Ideal S2000x3 .f32) : k0_pay7 l x re = rowNorm (corr x l re 0) eps := by
  unfold k0_pay7
  show divf (subf (shapeCast S2000x32 x shapeCasts_S2000x32_S2000x32) (mulf l (broadcastTo S2000x32 (extractStridedSlice S2000x1 ![0, 0] (k0_pay4 re) slices_S2000x3_o0_0_S2000x1) broadcasts_S2000x1_S2000x32))) _ = _
  rw [pay7_pre]
  exact norm_eq _

theorem pay8_eq (x : Vec Ideal S2000x32 .f32) : k0_pay8 x = rowNorm x eps := by
  unfold k0_pay8
  show divf (F := Ideal) (φ := .f32) (shapeCast S2000x32 x shapeCasts_S2000x32_S2000x32) _ = _
  rw [shapeCast_self]
  exact norm_eq _

/-- The store: the six panels side by side, the last four normalized on the way. -/
theorem pay1_at (v8 v10 v23 v26 v32 v38 : FVec Ideal S2000x32 .f32) (p : Fin 2000) (q : Fin 192) :
    k0_pay1 v8 v10 v23 v26 v32 v38 (ix2 p q)
      = cat6 v32 v38 (rowNorm v23 eps) (rowNorm v8 eps) (rowNorm v10 eps) (rowNorm v26 eps) (ix2 p q) := by
  unfold k0_pay1
  dsimp only
  rw [norm_eq, norm_eq, norm_eq, norm_eq]
  exact concat6_apply (t := S2000x192) (s₁ := S2000x32) 1 _ _ _ _ _ _ _ rfl 32 rfl (ix2 p q) ⟨q.val / 32, by have := q.isLt; omega⟩ rfl
    (ix2 p ⟨q.val % 32, Nat.mod_lt _ (by decide)⟩) rfl (fun b hb => by
      match b with
      | ⟨0, _⟩ => rfl
      | ⟨1, _⟩ => exact absurd rfl hb)

/-- THE BODY'S STORE AT AN ENTRY, from the eight staged blocks `x0 … x7` (window by window). -/
theorem pay_at (x0 x1 x2 x3 x4 x5 x6 : Vec Ideal S2000x32 .f32) (x7 : Vec Ideal S2000x3 .f32) (p : Fin 2000) (q : Fin 192) :
    k0_pay1 (k0_pay2 x4) (k0_pay3 x5) (k0_pay5 x0 x3 x7) (k0_pay6 x0 x6 x7) (k0_pay7 x0 x1 x7) (k0_pay8 x2) (ix2 p q)
      = cat6 (rowNorm (corr x1 x0 x7 0) eps) (rowNorm x2 eps) (rowNorm (corr x3 x0 x7 1) eps) (rowNorm x4 eps) (rowNorm x5 eps)
          (rowNorm (corr x6 x0 x7 2) eps) (ix2 p q) := by
  rw [pay1_at, pay2_eq, pay3_eq, pay5_eq, pay6_eq, pay7_eq, pay8_eq]

end Cert.KernelIdeal.Val

end
-- ==== Proof.KernelIdealValue.lean ====
/-
  What the region leaves in the result array, as one function of the eight arrays it reads.

  Point t of the grid stages rows 2000·t … 2000·t + 1999 of every array (each window's block index is (t, 0)), and writes
  back the same rows of the result. Every quantity the body forms at row p of the blocks is a function of row p of the
  blocks alone — a row sum runs over the 32 entries of ONE row — so the block it stores is rows 2000·t … of ONE function
  G of the whole arrays; and the fifty blocks of 2000 rows cover the 100000 rows. Hence the result array ends at G.
-/
import proofs.«145359_j51866025066826_2_alg».proof.Proof.KernelIdealFrame
import proofs.«145359_j51866025066826_2_alg».proof.Proof.KernelIdealPayload
import Idealize.ShloMosaic.Lib.Pipeline.Value

noncomputable section

open scoped BigOperators

namespace Cert.KernelIdeal.Val

open Cert.KernelIdeal Cert.KernelIdeal.Gen Cert.LibRowNorm
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The specification -/

/-- The whole result array as one function of the eight arrays the region finds: the label array `l`, the propagated
    feature arrays, and the three-column array `re` of return weights. Six row-normalized [100000, 32] panels side by side,
    three of them with the label array times a column of `re` removed first. -/
def G (l x2 x1 h3 h2 h1 h4 : S100000x32.Idx → EReal) (re : S100000x3.Idx → EReal) : S100000x192.Idx → EReal :=
  cat6 (rowNorm (corr x2 l re 0) eps) (rowNorm x1 eps) (rowNorm (corr h3 l re 1) eps) (rowNorm h2 eps) (rowNorm h1 eps)
    (rowNorm (corr h4 l re 2) eps)

/-! ## The body's store, from the staged blocks -/

theorem hz : (![0, 0] : Fin 2 → Nat) = fun _ => 0 := funext fun a => by fin_cases a <;> rfl

/-- What the body leaves in the output's staged block, at an entry: the whole-block rectangles read and write the blocks
    themselves. -/
theorem out8_at (x0 x1 x2 x3 x4 x5 x6 : Vec Ideal S2000x32 .f32) (x7 : Vec Ideal S2000x3 .f32) (p : Fin 2000) (q : Fin 192) :
    Fr.out8 x0 x1 x2 x3 x4 x5 x6 x7 (ix2 p q)
      = cat6 (rowNorm (corr x1 x0 x7 0) eps) (rowNorm x2 eps) (rowNorm (corr x3 x0 x7 1) eps) (rowNorm x4 eps) (rowNorm x5 eps)
          (rowNorm (corr x6 x0 x7 2) eps) (ix2 p q) := by
  unfold Fr.out8
  rw [View.canon_unit_zero hz]
  simp only [View.ld_unit_zero (S := S2000x32) hz, View.ld_unit_zero (S := S2000x3) hz]
  exact pay_at x0 x1 x2 x3 x4 x5 x6 x7 p q

/-! ## Rows of a block are rows of the array -/

/-- A row normalization reads one row: two matrices that agree along a row of each have equal normalized entries there. -/
theorem rowNorm_congr {a a' b : ℕ} (X : (⟨2, ![a, b]⟩ : Shape).Idx → EReal) (Y : (⟨2, ![a', b]⟩ : Shape).Idx → EReal) (e : EReal)
    (r : Fin a) (r' : Fin a') (h : ∀ d : Fin b, X (ix2 r d) = Y (ix2 r' d)) (c : Fin b) :
    rowNorm X e (ix2 r c) = rowNorm Y e (ix2 r' c) := by
  rw [rowNorm_apply, rowNorm_apply, h c, Finset.sum_congr rfl fun d _ => h d]

/-- Likewise the corrected matrix, whose entry (r, d) reads row r of its three operands. -/
theorem corr_congr {a a' b n : ℕ} (X L : (⟨2, ![a, b]⟩ : Shape).Idx → EReal) (W : (⟨2, ![a, n]⟩ : Shape).Idx → EReal)
    (X' L' : (⟨2, ![a', b]⟩ : Shape).Idx → EReal) (W' : (⟨2, ![a', n]⟩ : Shape).Idx → EReal) (k : Fin n)
    (r : Fin a) (r' : Fin a') (hX : ∀ d : Fin b, X (ix2 r d) = X' (ix2 r' d)) (hL : ∀ d : Fin b, L (ix2 r d) = L' (ix2 r' d))
    (hW : W (ix2 r k) = W' (ix2 r' k)) (d : Fin b) :
    corr X L W k (ix2 r d) = corr X' L' W' k (ix2 r' d) := by
  show X (ix2 r d) - L (ix2 r d) * W (ix2 r k) = X' (ix2 r' d) - L' (ix2 r' d) * W' (ix2 r' k)
  rw [hX d, hL d, hW]

/-- THE STORED BLOCK IS A BLOCK OF `G`: if the eight staged blocks `x0 … x7` are rows `base …` of the arrays `A0 … A7`, then entry
    `j` of what the body stores is `G` of the arrays at row `base + j 0`, column `j 1`. -/
theorem block_of_G (A0 A1 A2 A3 A4 A5 A6 : S100000x32.Idx → EReal) (A7 : S100000x3.Idx → EReal)
    (x0 x1 x2 x3 x4 x5 x6 : Vec Ideal S2000x32 .f32) (x7 : Vec Ideal S2000x3 .f32) (base : ℕ)
    (h0 : ∀ (y : S2000x32.Idx) (k : S100000x32.Idx), (k 0).val = base + (y 0).val → (k 1).val = (y 1).val → x0 y = A0 k)
    (h1 : ∀ (y : S2000x32.Idx) (k : S100000x32.Idx), (k 0).val = base + (y 0).val → (k 1).val = (y 1).val → x1 y = A1 k)
    (h2 : ∀ (y : S2000x32.Idx) (k : S100000x32.Idx), (k 0).val = base + (y 0).val → (k 1).val = (y 1).val → x2 y = A2 k)
    (h3 : ∀ (y : S2000x32.Idx) (k : S100000x32.Idx), (k 0).val = base + (y 0).val → (k 1).val = (y 1).val → x3 y = A3 k)
    (h4 : ∀ (y : S2000x32.Idx) (k : S100000x32.Idx), (k 0).val = base + (y 0).val → (k 1).val = (y 1).val → x4 y = A4 k)
    (h5 : ∀ (y : S2000x32.Idx) (k : S100000x32.Idx), (k 0).val = base + (y 0).val → (k 1).val = (y 1).val → x5 y = A5 k)
    (h6 : ∀ (y : S2000x32.Idx) (k : S100000x32.Idx), (k 0).val = base + (y 0).val → (k 1).val = (y 1).val → x6 y = A6 k)
    (h7 : ∀ (y : S2000x3.Idx) (k : S100000x3.Idx), (k 0).val = base + (y 0).val → (k 1).val = (y 1).val → x7 y = A7 k)
    (j : S2000x192.Idx) (i : S100000x192.Idx) (hi0 : (i 0).val = base + (j 0).val) (hi1 : (i 1).val = (j 1).val) :
    Fr.out8 x0 x1 x2 x3 x4 x5 x6 x7 j = G A0 A1 A2 A3 A4 A5 A6 A7 i := by
  obtain ⟨p, q, rfl⟩ : ∃ (p : Fin 2000) (q : Fin 192), j = ix2 p q := ⟨j 0, j 1, eq_ix2 j⟩
  obtain ⟨R, Q, rfl⟩ : ∃ (R : Fin 100000) (Q : Fin 192), i = ix2 R Q := ⟨i 0, i 1, eq_ix2 i⟩
  have hR : R.val = base + p.val := hi0
  obtain rfl : q = Q := (Fin.ext hi1).symm
  rw [out8_at]
  have e0 : ∀ d : Fin 32, x0 (ix2 p d) = A0 (ix2 R d) := fun d => h0 (ix2 p d) (ix2 R d) hR rfl
  have e1 : ∀ d : Fin 32, x1 (ix2 p d) = A1 (ix2 R d) := fun d => h1 (ix2 p d) (ix2 R d) hR rfl
  have e2 : ∀ d : Fin 32, x2 (ix2 p d) = A2 (ix2 R d) := fun d => h2 (ix2 p d) (ix2 R d) hR rfl
  have e3 : ∀ d : Fin 32, x3 (ix2 p d) = A3 (ix2 R d) := fun d => h3 (ix2 p d) (ix2 R d) hR rfl
  have e4 : ∀ d : Fin 32, x4 (ix2 p d) = A4 (ix2 R d) := fun d => h4 (ix2 p d) (ix2 R d) hR rfl
  have e5 : ∀ d : Fin 32, x5 (ix2 p d) = A5 (ix2 R d) := fun d => h5 (ix2 p d) (ix2 R d) hR rfl
  have e6 : ∀ d : Fin 32, x6 (ix2 p d) = A6 (ix2 R d) := fun d => h6 (ix2 p d) (ix2 R d) hR rfl
  have e7 : ∀ k : Fin 3, x7 (ix2 p k) = A7 (ix2 R k) := fun k => h7 (ix2 p k) (ix2 R k) hR rfl
  have key : ∀ (n : Fin 6) (c : Fin 32),
      (![rowNorm (corr x1 x0 x7 0) eps, rowNorm x2 eps, rowNorm (corr x3 x0 x7 1) eps, rowNorm x4 eps, rowNorm x5 eps,
          rowNorm (corr x6 x0 x7 2) eps] : Fin 6 → (⟨2, ![2000, 32]⟩ : Shape).Idx → EReal) n (ix2 p c)
        = (![rowNorm (corr A1 A0 A7 0) eps, rowNorm A2 eps, rowNorm (corr A3 A0 A7 1) eps, rowNorm A4 eps, rowNorm A5 eps,
          rowNorm (corr A6 A0 A7 2) eps] : Fin 6 → (⟨2, ![100000, 32]⟩ : Shape).Idx → EReal) n (ix2 R c) := by
    intro n c
    match n with
    | ⟨0, _⟩ => exact rowNorm_congr _ _ eps p R (corr_congr x1 x0 x7 A1 A0 A7 0 p R e1 e0 (e7 0)) c
    | ⟨1, _⟩ => exact rowNorm_congr _ _ eps p R e2 c
    | ⟨2, _⟩ => exact rowNorm_congr _ _ eps p R (corr_congr x3 x0 x7 A3 A0 A7 1 p R e3 e0 (e7 1)) c
    | ⟨3, _⟩ => exact rowNorm_congr _ _ eps p R e4 c
    | ⟨4, _⟩ => exact rowNorm_congr _ _ eps p R e5 c
    | ⟨5, _⟩ => exact rowNorm_congr _ _ eps p R (corr_congr x6 x0 x7 A6 A0 A7 2 p R e6 e0 (e7 2)) c
  exact key ⟨q.val / 32, by have := q.isLt; omega⟩ ⟨q.val % 32, Nat.mod_lt _ (by decide)⟩

/-! ## The windows' block indices, decided over the grid: (t, 0) -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)

/-! ## Each staged block is 2000 rows of its array -/

/- Stated first for ANY contents `A` of the window's array, then read at what the region finds there. -/
theorem blk0_read (c : Dev nD) (t : Fin cfg0.N) (A : Buf (Elt Ideal) ((c : Thread nD τ).loc main_arg0)) (y : S2000x32.Idx) (k : S100000x32.Idx)
    (hk0 : (k 0).val = t.val * 2000 + (y 0).val) (hk1 : (k 1).val = (y 1).val) :
    (((cfg0.win 0).blk t).view.read (Elt Ideal) A : Vec Ideal S2000x32 .f32) y = (A : S100000x32.Idx → EReal) k := by
  obtain ⟨e0, e1⟩ := idx0 t
  have h : ((cfg0.win 0).blk t).view.emb y = k := by
    funext a; apply Fin.ext
    match a with
    | ⟨0, _⟩ => show win0_0.index t (0 : Fin 2) * 2000 + 1 * (y 0).val = (k 0).val; rw [e0, hk0]; omega
    | ⟨1, _⟩ => show win0_0.index t (1 : Fin 2) * 32 + 1 * (y 1).val = (k 1).val; rw [e1, hk1]; omega
  show A (((cfg0.win 0).blk t).view.emb y) = A k
  rw [h]
theorem iblk0_at (c : Dev nD) (t : Fin cfg0.N) (y : S2000x32.Idx) (k : S100000x32.Idx)
    (hk0 : (k 0).val = t.val * 2000 + (y 0).val) (hk1 : (k 1).val = (y 1).val) :
    (Fr.iblk m c 0 t : Vec Ideal S2000x32 .f32) y = (Fr.V m c main_arg0 : S100000x32.Idx → EReal) k :=
  blk0_read c t (Fr.V m c main_arg0) y k hk0 hk1
theorem blk1_read (c : Dev nD) (t : Fin cfg0.N) (A : Buf (Elt Ideal) ((c : Thread nD τ).loc main_v139)) (y : S2000x32.Idx) (k : S100000x32.Idx)
    (hk0 : (k 0).val = t.val * 2000 + (y 0).val) (hk1 : (k 1).val = (y 1).val) :
    (((cfg0.win 1).blk t).view.read (Elt Ideal) A : Vec Ideal S2000x32 .f32) y = (A : S100000x32.Idx → EReal) k := by
  obtain ⟨e0, e1⟩ := idx1 t
  have h : ((cfg0.win 1).blk t).view.emb y = k := by
    funext a; apply Fin.ext
    match a with
    | ⟨0, _⟩ => show win0_1.index t (0 : Fin 2) * 2000 + 1 * (y 0).val = (k 0).val; rw [e0, hk0]; omega
    | ⟨1, _⟩ => show win0_1.index t (1 : Fin 2) * 32 + 1 * (y 1).val = (k 1).val; rw [e1, hk1]; omega
  show A (((cfg0.win 1).blk t).view.emb y) = A k
  rw [h]
theorem iblk1_at (c : Dev nD) (t : Fin cfg0.N) (y : S2000x32.Idx) (k : S100000x32.Idx)
    (hk0 : (k 0).val = t.val * 2000 + (y 0).val) (hk1 : (k 1).val = (y 1).val) :
    (Fr.iblk m c 1 t : Vec Ideal S2000x32 .f32) y = (Fr.V m c main_v139 : S100000x32.Idx → EReal) k :=
  blk1_read c t (Fr.V m c main_v139) y k hk0 hk1
theorem blk2_read (c : Dev nD) (t : Fin cfg0.N) (A : Buf (Elt Ideal) ((c : Thread nD τ).loc main_v126)) (y : S2000x32.Idx) (k : S100000x32.Idx)
    (hk0 : (k 0).val = t.val * 2000 + (y 0).val) (hk1 : (k 1).val = (y 1).val) :
    (((cfg0.win 2).blk t).view.read (Elt Ideal) A : Vec Ideal S2000x32 .f32) y = (A : S100000x32.Idx → EReal) k := by
  obtain ⟨e0, e1⟩ := idx2 t
  have h : ((cfg0.win 2).blk t).view.emb y = k := by
    funext a; apply Fin.ext
    match a with
    | ⟨0, _⟩ => show win0_2.index t (0 : Fin 2) * 2000 + 1 * (y 0).val = (k 0).val; rw [e0, hk0]; omega
    | ⟨1, _⟩ => show win0_2.index t (1 : Fin 2) * 32 + 1 * (y 1).val = (k 1).val; rw [e1, hk1]; omega
  show A (((cfg0.win 2).blk t).view.emb y) = A k
  rw [h]
theorem iblk2_at (c : Dev nD) (t : Fin cfg0.N) (y : S2000x32.Idx) (k : S100000x32.Idx)
    (hk0 : (k 0).val = t.val * 2000 + (y 0).val) (hk1 : (k 1).val = (y 1).val) :
    (Fr.iblk m c 2 t : Vec Ideal S2000x32 .f32) y = (Fr.V m c main_v126 : S100000x32.Idx → EReal) k :=
  blk2_read c t (Fr.V m c main_v126) y k hk0 hk1
theorem blk3_read (c : Dev nD) (t : Fin cfg0.N) (A : Buf (Elt Ideal) ((c : Thread nD τ).loc main_v70)) (y : S2000x32.Idx) (k : S100000x32.Idx)
    (hk0 : (k 0).val = t.val * 2000 + (y 0).val) (hk1 : (k 1).val = (y 1).val) :
    (((cfg0.win 3).blk t).view.read (Elt Ideal) A : Vec Ideal S2000x32 .f32) y = (A : S100000x32.Idx → EReal) k := by
  obtain ⟨e0, e1⟩ := idx3 t
  have h : ((cfg0.win 3).blk t).view.emb y = k := by
    funext a; apply Fin.ext
    match a with
    | ⟨0, _⟩ => show win0_3.index t (0 : Fin 2) * 2000 + 1 * (y 0).val = (k 0).val; rw [e0, hk0]; omega
    | ⟨1, _⟩ => show win0_3.index t (1 : Fin 2) * 32 + 1 * (y 1).val = (k 1).val; rw [e1, hk1]; omega
  show A (((cfg0.win 3).blk t).view.emb y) = A k
  rw [h]
theorem iblk3_at (c : Dev nD) (t : Fin cfg0.N) (y : S2000x32.Idx) (k : S100000x32.Idx)
    (hk0 : (k 0).val = t.val * 2000 + (y 0).val) (hk1 : (k 1).val = (y 1).val) :
    (Fr.iblk m c 3 t : Vec Ideal S2000x32 .f32) y = (Fr.V m c main_v70 : S100000x32.Idx → EReal) k :=
  blk3_read c t (Fr.V m c main_v70) y k hk0 hk1
theorem blk4_read (c : Dev nD) (t : Fin cfg0.N) (A : Buf (Elt Ideal) ((c : Thread nD τ).loc main_v57)) (y : S2000x32.Idx) (k : S100000x32.Idx)
    (hk0 : (k 0).val = t.val * 2000 + (y 0).val) (hk1 : (k 1).val = (y 1).val) :
    (((cfg0.win 4).blk t).view.read (Elt Ideal) A : Vec Ideal S2000x32 .f32) y = (A : S100000x32.Idx → EReal) k := by
  obtain ⟨e0, e1⟩ := idx4 t
  have h : ((cfg0.win 4).blk t).view.emb y = k := by
    funext a; apply Fin.ext
    match a with
    | ⟨0, _⟩ => show win0_4.index t (0 : Fin 2) * 2000 + 1 * (y 0).val = (k 0).val; rw [e0, hk0]; omega
    | ⟨1, _⟩ => show win0_4.index t (1 : Fin 2) * 32 + 1 * (y 1).val = (k 1).val; rw [e1, hk1]; omega
  show A (((cfg0.win 4).blk t).view.emb y) = A k
  rw [h]
theorem iblk4_at (c : Dev nD) (t : Fin cfg0.N) (y : S2000x32.Idx) (k : S100000x32.Idx)
    (hk0 : (k 0).val = t.val * 2000 + (y 0).val) (hk1 : (k 1).val = (y 1).val) :
    (Fr.iblk m c 4 t : Vec Ideal S2000x32 .f32) y = (Fr.V m c main_v57 : S100000x32.Idx → EReal) k :=
  blk4_read c t (Fr.V m c main_v57) y k hk0 hk1
theorem blk5_read (c : Dev nD) (t : Fin cfg0.N) (A : Buf (Elt Ideal) ((c : Thread nD τ).loc main_v44)) (y : S2000x32.Idx) (k : S100000x32.Idx)
    (hk0 : (k 0).val = t.val * 2000 + (y 0).val) (hk1 : (k 1).val = (y 1).val) :
    (((cfg0.win 5).blk t).view.read (Elt Ideal) A : Vec Ideal S2000x32 .f32) y = (A : S100000x32.Idx → EReal) k := by
  obtain ⟨e0, e1⟩ := idx5 t
  have h : ((cfg0.win 5).blk t).view.emb y = k := by
    funext a; apply Fin.ext
    match a with
    | ⟨0, _⟩ => show win0_5.index t (0 : Fin 2) * 2000 + 1 * (y 0).val = (k 0).val; rw [e0, hk0]; omega
    | ⟨1, _⟩ => show win0_5.index t (1 : Fin 2) * 32 + 1 * (y 1).val = (k 1).val; rw [e1, hk1]; omega
  show A (((cfg0.win 5).blk t).view.emb y) = A k
  rw [h]
theorem iblk5_at (c : Dev nD) (t : Fin cfg0.N) (y : S2000x32.Idx) (k : S100000x32.Idx)
    (hk0 : (k 0).val = t.val * 2000 + (y 0).val) (hk1 : (k 1).val = (y 1).val) :
    (Fr.iblk m c 5 t : Vec Ideal S2000x32 .f32) y = (Fr.V m c main_v44 : S100000x32.Idx → EReal) k :=
  blk5_read c t (Fr.V m c main_v44) y k hk0 hk1
theorem blk6_read (c : Dev nD) (t : Fin cfg0.N) (A : Buf (Elt Ideal) ((c : Thread nD τ).loc main_v88)) (y : S2000x32.Idx) (k : S100000x32.Idx)
    (hk0 : (k 0).val = t.val * 2000 + (y 0).val) (hk1 : (k 1).val = (y 1).val) :
    (((cfg0.win 6).blk t).view.read (Elt Ideal) A : Vec Ideal S2000x32 .f32) y = (A : S100000x32.Idx → EReal) k := by
  obtain ⟨e0, e1⟩ := idx6 t
  have h : ((cfg0.win 6).blk t).view.emb y = k := by
    funext a; apply Fin.ext
    match a with
    | ⟨0, _⟩ => show win0_6.index t (0 : Fin 2) * 2000 + 1 * (y 0).val = (k 0).val; rw [e0, hk0]; omega
    | ⟨1, _⟩ => show win0_6.index t (1 : Fin 2) * 32 + 1 * (y 1).val = (k 1).val; rw [e1, hk1]; omega
  show A (((cfg0.win 6).blk t).view.emb y) = A k
  rw [h]
theorem iblk6_at (c : Dev nD) (t : Fin cfg0.N) (y : S2000x32.Idx) (k : S100000x32.Idx)
    (hk0 : (k 0).val = t.val * 2000 + (y 0).val) (hk1 : (k 1).val = (y 1).val) :
    (Fr.iblk m c 6 t : Vec Ideal S2000x32 .f32) y = (Fr.V m c main_v88 : S100000x32.Idx → EReal) k :=
  blk6_read c t (Fr.V m c main_v88) y k hk0 hk1
theorem blk7_read (c : Dev nD) (t : Fin cfg0.N) (A : Buf (Elt Ideal) ((c : Thread nD τ).loc main_v145)) (y : S2000x3.Idx) (k : S100000x3.Idx)
    (hk0 : (k 0).val = t.val * 2000 + (y 0).val) (hk1 : (k 1).val = (y 1).val) :
    (((cfg0.win 7).blk t).view.read (Elt Ideal) A : Vec Ideal S2000x3 .f32) y = (A : S100000x3.Idx → EReal) k := by
  obtain ⟨e0, e1⟩ := idx7 t
  have h : ((cfg0.win 7).blk t).view.emb y = k := by
    funext a; apply Fin.ext
    match a with
    | ⟨0, _⟩ => show win0_7.index t (0 : Fin 2) * 2000 + 1 * (y 0).val = (k 0).val; rw [e0, hk0]; omega
    | ⟨1, _⟩ => show win0_7.index t (1 : Fin 2) * 3 + 1 * (y 1).val = (k 1).val; rw [e1, hk1]; omega
  show A (((cfg0.win 7).blk t).view.emb y) = A k
  rw [h]
theorem iblk7_at (c : Dev nD) (t : Fin cfg0.N) (y : S2000x3.Idx) (k : S100000x3.Idx)
    (hk0 : (k 0).val = t.val * 2000 + (y 0).val) (hk1 : (k 1).val = (y 1).val) :
    (Fr.iblk m c 7 t : Vec Ideal S2000x3 .f32) y = (Fr.V m c main_v145 : S100000x3.Idx → EReal) k :=
  blk7_read c t (Fr.V m c main_v145) y k hk0 hk1

/-- Reading the output window's block of any array contents, and cutting a full block, by definition. -/
theorem blk8_read (c : Dev nD) (t : Fin cfg0.N) (A : Buf (Elt Ideal) ((c : Thread nD τ).loc main_v146)) (j : S2000x192.Idx) :
    (((cfg0.win 8).blk t).view.read (Elt Ideal) A : Vec Ideal S2000x192 .f32) j
      = (A : S100000x192.Idx → EReal) (((cfg0.win 8).blk t).view.emb j) := rfl
theorem cut8 (t : Fin cfg0.N) (X : Vec Ideal S2000x192 .f32) : (cfg0.win 8).cut (grid0.coords t) X = X := rfl

/-! ## What each point writes back, the cover, and the array -/

/-- WHAT POINT `t` WRITES BACK is block `t` of `G` of the arrays as the region finds them. -/
theorem flushed8_eq (c : Dev nD) (t : Fin cfg0.N) :
    (Fr.dats m 0 c).flushed 8 t = ((cfg0.win 8).blk t).view.read (Elt Ideal)
      (G (Fr.V m c main_arg0) (Fr.V m c main_v139) (Fr.V m c main_v126) (Fr.V m c main_v70) (Fr.V m c main_v57) (Fr.V m c main_v44)
        (Fr.V m c main_v88) (Fr.V m c main_v145)) := by
  show (cfg0.win 8).cut (grid0.coords t) ((Fr.dats m 0 c).after 8 t) = _
  rw [Fr.after8]
  obtain ⟨e0, e1⟩ := idx8 t
  funext j
  refine ((congrFun (cut8 t _) j).trans ?_).trans (blk8_read c t _ j).symm
  refine block_of_G _ _ _ _ _ _ _ _ _ _ _ _ _ _ _ _ (t.val * 2000)
    (iblk0_at m c t) (iblk1_at m c t) (iblk2_at m c t) (iblk3_at m c t) (iblk4_at m c t) (iblk5_at m c t) (iblk6_at m c t) (iblk7_at m c t)
    j _ ?_ ?_
  · show win0_8.index t (0 : Fin 2) * 2000 + 1 * (j 0).val = t.val * 2000 + (j 0).val
    rw [e0]; omega
  · show win0_8.index t (1 : Fin 2) * 192 + 1 * (j 1).val = (j 1).val
    rw [e1]; omega

/-- An index of the result array is in point `t`'s block iff each coordinate is in the block's range on its axis. -/
theorem mem_blk8 (t : Fin cfg0.N) (i : S100000x192.Idx) :
    i ∈ ((cfg0.win 8).blk t).view.set ↔ ∀ a : Fin 2, win0_8.index t a * S2000x192.size a ≤ (i a).val ∧ (i a).val < win0_8.index t a * S2000x192.size a + S2000x192.size a := by
  show i ∈ ((View.whole main_v146).slice (win0_8.rect t)).set ↔ _
  rw [View.set_slice_whole, Rect.mem_set_unit]
  exact Iff.rfl

/-- Row `r` of the result array is in the block of point `r / 2000`: the fifty blocks cover the array. -/
theorem covered8 (i : S100000x192.Idx) : ∃ t : Fin cfg0.N, (cfg0.win 8).flush t = true ∧ i ∈ ((cfg0.win 8).blk t).view.set := by
  have hi0 : (i 0).val < 100000 := (i 0).isLt
  have hi1 : (i 1).val < 192 := (i 1).isLt
  have hN : cfg0.N = 50 := N_0
  have ht : (i 0).val / 2000 < cfg0.N := by rw [hN]; omega
  obtain ⟨e0, e1⟩ := idx8 ⟨(i 0).val / 2000, ht⟩
  refine ⟨⟨(i 0).val / 2000, ht⟩, flush0_8 _, ?_⟩
  rw [mem_blk8]
  intro a
  match a with
  | ⟨0, _⟩ =>
    show win0_8.index ⟨(i 0).val / 2000, ht⟩ (0 : Fin 2) * 2000 ≤ (i 0).val ∧ (i 0).val < win0_8.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_8.index ⟨(i 0).val / 2000, ht⟩ (1 : Fin 2) * 192 ≤ (i 1).val ∧ (i 1).val < win0_8.index ⟨(i 0).val / 2000, ht⟩ (1 : Fin 2) * 192 + 192
    rw [e1]; omega

/-- THE RESULT ARRAY after the run is `G` of the eight arrays the region finds. -/
theorem final8 (c : Dev nD) : ((Fr.dats (F := Ideal) m 0 c).arrAt 8 cfg0.N : S100000x192.Idx → EReal)
    = G (Fr.V m c main_arg0) (Fr.V m c main_v139) (Fr.V m c main_v126) (Fr.V m c main_v70) (Fr.V m c main_v57) (Fr.V m c main_v44)
        (Fr.V m c main_v88) (Fr.V m c main_v145) :=
  (Fr.dats m 0 c).arrAt_eq_of_cover 8
    (G (Fr.V m c main_arg0) (Fr.V m c main_v139) (Fr.V m c main_v126) (Fr.V m c main_v70) (Fr.V m c main_v57) (Fr.V m c main_v44)
      (Fr.V m c main_v88) (Fr.V m c main_v145))
    (fun t _ => flushed8_eq m c t) covered8

/-! ## The run, read -/

/-- After the frame run the first argument is as launched: window 0 stages it and never writes it back. -/
theorem kept_arg0 (r : PUnit × MemSt nD τ sig (Elt Ideal)) (h : Pipeline.FramePost cfgs (Fr.dats m) 0 (Fr.V m) r) (c : Dev nD) :
    r.2.mem ((c.tc : Thread nD τ).loc main_arg0) = m ((c.tc : Thread nD τ).loc main_arg0) :=
  ((h c).1 0).trans (((Fr.dats m 0 c).arrAt_in 0 rfl _).trans ((Fr.A_eq m c 0).trans (Fr.V_main_arg0 m c)))

/-- The second is no window's array: it bypasses the region, which found it as launched. -/
theorem kept_arg1 (r : PUnit × MemSt nD τ sig (Elt Ideal)) (h : Pipeline.FramePost cfgs (Fr.dats m) 0 (Fr.V m) r) (c : Dev nD) :
    r.2.mem ((c.tc : Thread nD τ).loc main_arg1) = m ((c.tc : Thread nD τ).loc main_arg1) :=
  ((h c).2 main_arg1 (Pipeline.mem_restRefs_of main_arg1 (by decide) (by decide))).trans (Fr.V_main_arg1 m c)

/-- THE RUN: every fair execution ends with the result array at `G` of the eight arrays the region finds and both arguments
    as launched. -/
theorem run : θ_run (defs (F := Ideal)) (onTc (τ := τ) (main (F := Ideal))) ⟨m, fun _ => 0, ρ⟩ (fun r => ∀ c : Dev nD,
      r.2.mem ((c.tc : Thread nD τ).loc main_v146)
        = G (Fr.V m c main_arg0) (Fr.V m c main_v139) (Fr.V m c main_v126) (Fr.V m c main_v70) (Fr.V m c main_v57) (Fr.V m c main_v44)
            (Fr.V m c main_v88) (Fr.V m c main_v145)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h c).1 8).trans (final8 m c), kept_arg0 m r h c, kept_arg1 m r h c⟩) (Fr.run_main m ρ)

end Cert.KernelIdeal.Val

end
-- ==== Proof.LibNary3.lean ====
/-
  A host operation over a LITERAL family of three operands (a concatenation of three arrays): after it the result
  buffer holds the operation's function of the three operands' contents, each read AT ITS OWN REFERENCE, so that
  what each operand held can be read in turn. General in the references and the function.
-/
import Idealize.ShloMosaic.Lib.StableHlo.Run

noncomputable section

namespace Cert.LibNary3

open Idealize.ShloMosaic Idealize.ShloMosaic.StableHlo

variable {τ : Topo} {sig : RefSig} {Val : EltTy → Type}

/-- The result of a three-operand host operation at its result buffer: its function of the operands' contents, the
    family spelt operand by operand. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.LibNary3

end
-- ==== Proof.KernelIdealHost.lean ====
/-
  The host stretch of the kernel program before its one region, read back: what its 181 array operations leave in
  the buffers the region and the result use, each as a pure term of the two argument arrays.

  The arguments are a node-feature matrix x : [100000, 32] and an edge list e : [2, 1600000] (row 0 the edges'
  sources "row", row 1 their targets "col"). The stretch computes, with a zero-initialised scatter-add as the sum
  over the edges at a node and a gather as the read of a node's value at an edge (an index below zero counted from
  the end):
    * the out- and in-degrees of the nodes (the ones summed at row, at col) and the edge weight
        w(k) = rsqrt (in(col k) + ε) * rsqrt (out(row k) + ε);
    * the weighted sums over edges  H1 = Σ_row w·x[col],  H2 = Σ_col w·x[row],  H3 = Σ_row w·H2[col],
      H4 = Σ_col w·H1[row], and the sums of the squared weights at row and at col;
    * over the symmetrised edge list (row ++ col, col ++ row; 3200000 edges) the weight
        wU(k) = d(dst k) * d(src k),  d = rsqrt (out + in + ε),
      the sums  X1 = Σ_dst wU·x[src],  X2 = Σ_dst wU·X1[src]  and the sum of wU² at dst;
    * the three sums of squared weights side by side, a [100000, 3] array.
  The operations are read in four consecutive stretches; a buffer a stretch does not write keeps its contents.
-/
import proofs.«145359_j51866025066826_2_alg».proof.Proof.Gen.KernelIdeal.Launch
import Idealize.ShloMosaic.Lib.StableHlo.Run
import Idealize.ShloMosaic.Lib.Pipeline.Frame
import proofs.«145359_j51866025066826_2_alg».proof.Proof.LibNary3

set_option Elab.async false

noncomputable section

namespace Cert.KernelIdeal.HostVal

open Cert.KernelIdeal Cert.KernelIdeal.Gen Idealize.ShloMosaic Idealize.ShloMosaic.TcCoe Idealize.SL.Sem Idealize.ShloMosaic.StableHlo

variable {F : FTy → Type} [FloatOps F]

/-! ## The values, as terms of the arguments -/

set_option maxRecDepth 8192 in
/-- The edges' sources: row 0 of the edge list, as a vector. -/
def kRow (V0 : Valuation τ sig (Elt F)) : (Proc.devRef .tc main_v1 : DevRef τ sig).ty.Contents (Elt F) :=
  shapeCast _ (extractStridedSlice S1x1600000 ![0, 0] (V0 (Proc.devRef .tc main_arg1)) slices_S2x1600000_S1x1600000_0_0) shapeCasts_S1x1600000_S1600000

set_option maxRecDepth 8192 in
/-- The edges' targets: row 1 of the edge list, as a vector. -/
def kCol (V0 : Valuation τ sig (Elt F)) : (Proc.devRef .tc main_v3 : DevRef τ sig).ty.Contents (Elt F) :=
  shapeCast _ (extractStridedSlice S1x1600000 ![1, 0] (V0 (Proc.devRef .tc main_arg1)) slices_S2x1600000_S1x1600000_1_0) shapeCasts_S1x1600000_S1600000

set_option maxRecDepth 8192 in
/-- One per edge. -/
def kOnes (V0 : Valuation τ sig (Elt F)) : (Proc.devRef .tc main_v4 : DevRef τ sig).ty.Contents (Elt F) :=
  broadcastInDim S1600000 ![] bcast_S_S1600000 (constant S_ .f32 0x3F800000#32)

set_option maxRecDepth 8192 in
/-- The out-degrees: the ones summed, from zero, at the edges' sources. -/
def kRawOut (V0 : Valuation τ sig (Elt F)) : (Proc.devRef .tc main_v7 : DevRef τ sig).ty.Contents (Elt F) :=
  Host.scatterAdd scatter_S100000_S1600000x1_S1600000_n_0_0_1 (broadcastInDim S100000 ![] bcast_S_S100000 (constant S_ .f32 0x00000000#32)) (broadcastInDim S1600000x1 ![0] bcast_S1600000_S1600000x1_0 (kRow V0)) (kOnes V0)

set_option maxRecDepth 8192 in
/-- The in-degrees: the ones summed, from zero, at the edges' targets. -/
def kRawIn (V0 : Valuation τ sig (Elt F)) : (Proc.devRef .tc main_v10 : DevRef τ sig).ty.Contents (Elt F) :=
  Host.scatterAdd scatter_S100000_S1600000x1_S1600000_n_0_0_1 (broadcastInDim S100000 ![] bcast_S_S100000 (constant S_ .f32 0x00000000#32)) (broadcastInDim S1600000x1 ![0] bcast_S1600000_S1600000x1_0 (kCol V0)) (kOnes V0)

set_option maxRecDepth 8192 in
/-- The edge weight w = rsqrt (in + ε) at the target times rsqrt (out + ε) at the source. -/
def kNorm (V0 : Valuation τ sig (Elt F)) : (Proc.devRef .tc main_v31 : DevRef τ sig).ty.Contents (Elt F) :=
  mulf (Host.gather gather_S100000_S1600000x1_S1600000_n_0_n_n_0_1_1 (Host.rsqrt (addf (kRawIn V0) (broadcastInDim S100000 ![] bcast_S_S100000 (constant S_ .f32 0x3089705F#32)))) (broadcastInDim S1600000x1 ![0] bcast_S1600000_S1600000x1_0 (select (cmpi .slt (kCol V0) (broadcastInDim S1600000 ![] bcast_S_S1600000 (constantI S_ 32 0#32))) (addi (kCol V0) (broadcastInDim S1600000 ![] bcast_S_S1600000 (constantI S_ 32 100000#32))) (kCol V0)))) (Host.gather gather_S100000_S1600000x1_S1600000_n_0_n_n_0_1_1 (Host.rsqrt (addf (kRawOut V0) (broadcastInDim S100000 ![] bcast_S_S100000 (constant S_ .f32 0x3089705F#32)))) (broadcastInDim S1600000x1 ![0] bcast_S1600000_S1600000x1_0 (select (cmpi .slt (kRow V0) (broadcastInDim S1600000 ![] bcast_S_S1600000 (constantI S_ 32 0#32))) (addi (kRow V0) (broadcastInDim S1600000 ![] bcast_S_S1600000 (constantI S_ 32 100000#32))) (kRow V0))))

set_option maxRecDepth 8192 in
/-- H1 = Σ at the source of w · x[target]. -/
def kH1 (V0 : Valuation τ sig (Elt F)) : (Proc.devRef .tc main_v44 : DevRef τ sig).ty.Contents (Elt F) :=
  Host.scatterAdd scatter_S100000x32_S1600000x1_S1600000x32_1_0_0_1 (broadcastInDim S100000x32 ![] bcast_S_S100000x32 (constant S_ .f32 0x00000000#32)) (broadcastInDim S1600000x1 ![0] bcast_S1600000_S1600000x1_0 (kRow V0)) (mulf (broadcastInDim S1600000x32 ![0, 1] bcast_S1600000x1_S1600000x32_0_1 (broadcastInDim S1600000x1 ![0] bcast_S1600000_S1600000x1_0 (kNorm V0))) (Host.gather gather_S100000x32_S1600000x1_S1600000x32_1_0_n_n_0_1_132 (V0 (Proc.devRef .tc main_arg0)) (broadcastInDim S1600000x1 ![0] bcast_S1600000_S1600000x1_0 (select (cmpi .slt (kCol V0) (broadcastInDim S1600000 ![] bcast_S_S1600000 (constantI S_ 32 0#32))) (addi (kCol V0) (broadcastInDim S1600000 ![] bcast_S_S1600000 (constantI S_ 32 100000#32))) (kCol V0)))))

set_option maxRecDepth 8192 in
/-- H2 = Σ at the target of w · x[source]. -/
def kH2 (V0 : Valuation τ sig (Elt F)) : (Proc.devRef .tc main_v57 : DevRef τ sig).ty.Contents (Elt F) :=
  Host.scatterAdd scatter_S100000x32_S1600000x1_S1600000x32_1_0_0_1 (broadcastInDim S100000x32 ![] bcast_S_S100000x32 (constant S_ .f32 0x00000000#32)) (broadcastInDim S1600000x1 ![0] bcast_S1600000_S1600000x1_0 (kCol V0)) (mulf (broadcastInDim S1600000x32 ![0, 1] bcast_S1600000x1_S1600000x32_0_1 (broadcastInDim S1600000x1 ![0] bcast_S1600000_S1600000x1_0 (kNorm V0))) (Host.gather gather_S100000x32_S1600000x1_S1600000x32_1_0_n_n_0_1_132 (V0 (Proc.devRef .tc main_arg0)) (broadcastInDim S1600000x1 ![0] bcast_S1600000_S1600000x1_0 (select (cmpi .slt (kRow V0) (broadcastInDim S1600000 ![] bcast_S_S1600000 (constantI S_ 32 0#32))) (addi (kRow V0) (broadcastInDim S1600000 ![] bcast_S_S1600000 (constantI S_ 32 100000#32))) (kRow V0)))))

set_option maxRecDepth 8192 in
/-- H3 = Σ at the source of w · H2[target]. -/
def kH3raw (V0 : Valuation τ sig (Elt F)) : (Proc.devRef .tc main_v70 : DevRef τ sig).ty.Contents (Elt F) :=
  Host.scatterAdd scatter_S100000x32_S1600000x1_S1600000x32_1_0_0_1 (broadcastInDim S100000x32 ![] bcast_S_S100000x32 (constant S_ .f32 0x00000000#32)) (broadcastInDim S1600000x1 ![0] bcast_S1600000_S1600000x1_0 (kRow V0)) (mulf (broadcastInDim S1600000x32 ![0, 1] bcast_S1600000x1_S1600000x32_0_1 (broadcastInDim S1600000x1 ![0] bcast_S1600000_S1600000x1_0 (kNorm V0))) (Host.gather gather_S100000x32_S1600000x1_S1600000x32_1_0_n_n_0_1_132 (kH2 V0) (broadcastInDim S1600000x1 ![0] bcast_S1600000_S1600000x1_0 (select (cmpi .slt (kCol V0) (broadcastInDim S1600000 ![] bcast_S_S1600000 (constantI S_ 32 0#32))) (addi (kCol V0) (broadcastInDim S1600000 ![] bcast_S_S1600000 (constantI S_ 32 100000#32))) (kCol V0)))))

set_option maxRecDepth 8192 in
/-- The squared edge weight w². -/
def kNorm2 (V0 : Valuation τ sig (Elt F)) : (Proc.devRef .tc main_v71 : DevRef τ sig).ty.Contents (Elt F) :=
  mulf (kNorm V0) (kNorm V0)

set_option maxRecDepth 8192 in
/-- Σ at the source of w². -/
def kReH3 (V0 : Valuation τ sig (Elt F)) : (Proc.devRef .tc main_v74 : DevRef τ sig).ty.Contents (Elt F) :=
  Host.scatterAdd scatter_S100000_S1600000x1_S1600000_n_0_0_1 (broadcastInDim S100000 ![] bcast_S_S100000 (constant S_ .f32 0x00000000#32)) (broadcastInDim S1600000x1 ![0] bcast_S1600000_S1600000x1_0 (kRow V0)) (kNorm2 V0)

set_option maxRecDepth 8192 in
/-- H4 = Σ at the target of w · H1[source]. -/
def kH4raw (V0 : Valuation τ sig (Elt F)) : (Proc.devRef .tc main_v88 : DevRef τ sig).ty.Contents (Elt F) :=
  Host.scatterAdd scatter_S100000x32_S1600000x1_S1600000x32_1_0_0_1 (broadcastInDim S100000x32 ![] bcast_S_S100000x32 (constant S_ .f32 0x00000000#32)) (broadcastInDim S1600000x1 ![0] bcast_S1600000_S1600000x1_0 (kCol V0)) (mulf (broadcastInDim S1600000x32 ![0, 1] bcast_S1600000x1_S1600000x32_0_1 (broadcastInDim S1600000x1 ![0] bcast_S1600000_S1600000x1_0 (kNorm V0))) (Host.gather gather_S100000x32_S1600000x1_S1600000x32_1_0_n_n_0_1_132 (kH1 V0) (broadcastInDim S1600000x1 ![0] bcast_S1600000_S1600000x1_0 (select (cmpi .slt (kRow V0) (broadcastInDim S1600000 ![] bcast_S_S1600000 (constantI S_ 32 0#32))) (addi (kRow V0) (broadcastInDim S1600000 ![] bcast_S_S1600000 (constantI S_ 32 100000#32))) (kRow V0)))))

set_option maxRecDepth 8192 in
/-- Σ at the target of w². -/
def kReH4 (V0 : Valuation τ sig (Elt F)) : (Proc.devRef .tc main_v91 : DevRef τ sig).ty.Contents (Elt F) :=
  Host.scatterAdd scatter_S100000_S1600000x1_S1600000_n_0_0_1 (broadcastInDim S100000 ![] bcast_S_S100000 (constant S_ .f32 0x00000000#32)) (broadcastInDim S1600000x1 ![0] bcast_S1600000_S1600000x1_0 (kCol V0)) (kNorm2 V0)

set_option maxRecDepth 8192 in
/-- d = rsqrt (out + in + ε), the undirected degree's inverse root. -/
def kInvU (V0 : Valuation τ sig (Elt F)) : (Proc.devRef .tc main_v96 : DevRef τ sig).ty.Contents (Elt F) :=
  Host.rsqrt (addf (addf (kRawOut V0) (kRawIn V0)) (broadcastInDim S100000 ![] bcast_S_S100000 (constant S_ .f32 0x3089705F#32)))

set_option maxRecDepth 8192 in
/-- The symmetrised edges' sources: row, then col. -/
def kSrcU (V0 : Valuation τ sig (Elt F)) : (Proc.devRef .tc main_v97 : DevRef τ sig).ty.Contents (Elt F) :=
  concatenate S3200000 0 [⟨S1600000, kRow V0⟩, ⟨S1600000, kCol V0⟩] concatenates_S1600000_S1600000_S3200000_d0

set_option maxRecDepth 8192 in
/-- The symmetrised edges' targets: col, then row. -/
def kDstU (V0 : Valuation τ sig (Elt F)) : (Proc.devRef .tc main_v98 : DevRef τ sig).ty.Contents (Elt F) :=
  concatenate S3200000 0 [⟨S1600000, kCol V0⟩, ⟨S1600000, kRow V0⟩] concatenates_S1600000_S1600000_S3200000_d0

set_option maxRecDepth 8192 in
/-- The symmetrised edge weight wU = d at the target times d at the source. -/
def kNormU (V0 : Valuation τ sig (Elt F)) : (Proc.devRef .tc main_v113 : DevRef τ sig).ty.Contents (Elt F) :=
  mulf (Host.gather gather_S100000_S3200000x1_S3200000_n_0_n_n_0_1_1 (kInvU V0) (broadcastInDim S3200000x1 ![0] bcast_S3200000_S3200000x1_0 (select (cmpi .slt (kDstU V0) (broadcastInDim S3200000 ![] bcast_S_S3200000 (constantI S_ 32 0#32))) (addi (kDstU V0) (broadcastInDim S3200000 ![] bcast_S_S3200000 (constantI S_ 32 100000#32))) (kDstU V0)))) (Host.gather gather_S100000_S3200000x1_S3200000_n_0_n_n_0_1_1 (kInvU V0) (broadcastInDim S3200000x1 ![0] bcast_S3200000_S3200000x1_0 (select (cmpi .slt (kSrcU V0) (broadcastInDim S3200000 ![] bcast_S_S3200000 (constantI S_ 32 0#32))) (addi (kSrcU V0) (broadcastInDim S3200000 ![] bcast_S_S3200000 (constantI S_ 32 100000#32))) (kSrcU V0))))

set_option maxRecDepth 8192 in
/-- X1 = Σ at the symmetrised target of wU · x[source]. -/
def kX1 (V0 : Valuation τ sig (Elt F)) : (Proc.devRef .tc main_v126 : DevRef τ sig).ty.Contents (Elt F) :=
  Host.scatterAdd scatter_S100000x32_S3200000x1_S3200000x32_1_0_0_1 (broadcastInDim S100000x32 ![] bcast_S_S100000x32 (constant S_ .f32 0x00000000#32)) (broadcastInDim S3200000x1 ![0] bcast_S3200000_S3200000x1_0 (kDstU V0)) (mulf (broadcastInDim S3200000x32 ![0, 1] bcast_S3200000x1_S3200000x32_0_1 (broadcastInDim S3200000x1 ![0] bcast_S3200000_S3200000x1_0 (kNormU V0))) (Host.gather gather_S100000x32_S3200000x1_S3200000x32_1_0_n_n_0_1_132 (V0 (Proc.devRef .tc main_arg0)) (broadcastInDim S3200000x1 ![0] bcast_S3200000_S3200000x1_0 (select (cmpi .slt (kSrcU V0) (broadcastInDim S3200000 ![] bcast_S_S3200000 (constantI S_ 32 0#32))) (addi (kSrcU V0) (broadcastInDim S3200000 ![] bcast_S_S3200000 (constantI S_ 32 100000#32))) (kSrcU V0)))))

set_option maxRecDepth 8192 in
/-- X2 = Σ at the symmetrised target of wU · X1[source]. -/
def kX2raw (V0 : Valuation τ sig (Elt F)) : (Proc.devRef .tc main_v139 : DevRef τ sig).ty.Contents (Elt F) :=
  Host.scatterAdd scatter_S100000x32_S3200000x1_S3200000x32_1_0_0_1 (broadcastInDim S100000x32 ![] bcast_S_S100000x32 (constant S_ .f32 0x00000000#32)) (broadcastInDim S3200000x1 ![0] bcast_S3200000_S3200000x1_0 (kDstU V0)) (mulf (broadcastInDim S3200000x32 ![0, 1] bcast_S3200000x1_S3200000x32_0_1 (broadcastInDim S3200000x1 ![0] bcast_S3200000_S3200000x1_0 (kNormU V0))) (Host.gather gather_S100000x32_S3200000x1_S3200000x32_1_0_n_n_0_1_132 (kX1 V0) (broadcastInDim S3200000x1 ![0] bcast_S3200000_S3200000x1_0 (select (cmpi .slt (kSrcU V0) (broadcastInDim S3200000 ![] bcast_S_S3200000 (constantI S_ 32 0#32))) (addi (kSrcU V0) (broadcastInDim S3200000 ![] bcast_S_S3200000 (constantI S_ 32 100000#32))) (kSrcU V0)))))

set_option maxRecDepth 8192 in
/-- Σ at the symmetrised target of wU². -/
def kReX2 (V0 : Valuation τ sig (Elt F)) : (Proc.devRef .tc main_v143 : DevRef τ sig).ty.Contents (Elt F) :=
  Host.scatterAdd scatter_S100000_S3200000x1_S3200000_n_0_0_1 (broadcastInDim S100000 ![] bcast_S_S100000 (constant S_ .f32 0x00000000#32)) (broadcastInDim S3200000x1 ![0] bcast_S3200000_S3200000x1_0 (kDstU V0)) (mulf (kNormU V0) (kNormU V0))

set_option maxRecDepth 8192 in
/-- The three sums of squared weights as the columns of one [100000, 3] array: wU² at the symmetrised target, w² at
    the source, w² at the target. -/
def kReCat (V0 : Valuation τ sig (Elt F)) : (Proc.devRef .tc main_v145 : DevRef τ sig).ty.Contents (Elt F) :=
  concatenate S100000x3 1 [⟨S100000x1, broadcastInDim S100000x1 ![0] bcast_S100000_S100000x1_0 (kReX2 V0)⟩, ⟨S100000x1, broadcastInDim S100000x1 ![0] bcast_S100000_S100000x1_0 (kReH3 V0)⟩, ⟨S100000x1, broadcastInDim S100000x1 ![0] bcast_S100000_S100000x1_0 (kReH4 V0)⟩] concatenates_S100000x1_S100000x1_S100000x1_S100000x3_d1

/-! ## The four stretches

  Each stretch's effect on the device's contents is the fold of its operations. For each the buffers it writes are
  listed once; a buffer outside the list is read after the stretch as it was before. -/

/-- Closes one operation's "what it writes lies in the list": an operation writes its result buffer alone. -/
local macro "one_write" : tactic =>
  `(tactic| (simp only [nullary_writes, unary_writes, binary_writes, ternary_writes, reshape_writes, nary_writes,
      Finset.singleton_subset_iff, List.mem_toFinset]; exact List.mem_map_of_mem (by decide)))

/-- The contents after operations 1 … 60. -/
def hv1 (V0 : Valuation τ sig (Elt F)) : Valuation τ sig (Elt F) := after main_part0_ops0 V0
/-- The buffers operations 1 … 60 write. -/
abbrev W0 : List (Ref sig .tc) := [main_v0, main_v1, main_v2, main_v3, main_cst, main_v4, main_cst_0, main_v5, main_v6, main_v7, main_cst_1, main_v8, main_v9, main_v10, main_cst_2, main_v11, main_v12, main_v13, main_cst_3, main_v14, main_v15, main_v16, main_c, main_v17, main_v18, main_c_4, main_v19, main_v20, main_v21, main_v22, main_v23, main_c_5, main_v24, main_v25, main_c_6, main_v26, main_v27, main_v28, main_v29, main_v30, main_v31, main_v32, main_c_7, main_v33, main_v34, main_c_8, main_v35, main_v36, main_v37, main_v38, main_v39, main_v40, main_v41, main_cst_9, main_v42, main_v43, main_v44, main_v45, main_c_10, main_v46]
set_option maxRecDepth 8192 in
theorem W0_writes : (main_part0_ops0 : List (HloOp τ sig (Elt F))).Forall fun op => op.writes ⊆ (W0.map (Proc.devRef (τ := τ) .tc)).toFinset := by
  simp only [List.Forall]
  repeat' apply And.intro
  all_goals one_write
theorem hv1_keep (V0 : Valuation τ sig (Elt F)) (r : Ref sig .tc) (h : r ∉ W0) :
    hv1 V0 (Proc.devRef .tc r) = V0 (Proc.devRef .tc r) :=
  after_of_writes_sub main_part0_ops0 _ W0_writes h
theorem hv1_main_arg0 (V0 : Valuation τ sig (Elt F)) : hv1 V0 (no_index (Proc.devRef .tc main_arg0)) = V0 (Proc.devRef .tc main_arg0) :=
  hv1_keep V0 main_arg0 (by decide)
theorem hv1_main_arg1 (V0 : Valuation τ sig (Elt F)) : hv1 V0 (no_index (Proc.devRef .tc main_arg1)) = V0 (Proc.devRef .tc main_arg1) :=
  hv1_keep V0 main_arg1 (by decide)
set_option maxRecDepth 8192 in
set_option maxHeartbeats 2000000 in
theorem hv1_main_v1 (V0 : Valuation τ sig (Elt F)) : hv1 V0 (no_index (Proc.devRef .tc main_v1)) = kRow V0 := by
  unfold hv1
  simp only [main_part0_ops0]
  after_results_simp
  all_goals rfl
set_option maxRecDepth 8192 in
set_option maxHeartbeats 2000000 in
theorem hv1_main_v3 (V0 : Valuation τ sig (Elt F)) : hv1 V0 (no_index (Proc.devRef .tc main_v3)) = kCol V0 := by
  unfold hv1
  simp only [main_part0_ops0]
  after_results_simp
  all_goals rfl
set_option maxRecDepth 8192 in
set_option maxHeartbeats 2000000 in
theorem hv1_main_v7 (V0 : Valuation τ sig (Elt F)) : hv1 V0 (no_index (Proc.devRef .tc main_v7)) = kRawOut V0 := by
  unfold hv1
  simp only [main_part0_ops0]
  after_results_simp
  all_goals rfl
set_option maxRecDepth 8192 in
set_option maxHeartbeats 2000000 in
theorem hv1_main_v10 (V0 : Valuation τ sig (Elt F)) : hv1 V0 (no_index (Proc.devRef .tc main_v10)) = kRawIn V0 := by
  unfold hv1
  simp only [main_part0_ops0]
  after_results_simp
  all_goals rfl
set_option maxRecDepth 8192 in
set_option maxHeartbeats 2000000 in
theorem hv1_main_v31 (V0 : Valuation τ sig (Elt F)) : hv1 V0 (no_index (Proc.devRef .tc main_v31)) = kNorm V0 := by
  unfold hv1
  simp only [main_part0_ops0]
  after_results_simp
  all_goals rfl
set_option maxRecDepth 8192 in
set_option maxHeartbeats 2000000 in
theorem hv1_main_v44 (V0 : Valuation τ sig (Elt F)) : hv1 V0 (no_index (Proc.devRef .tc main_v44)) = kH1 V0 := by
  unfold hv1
  simp only [main_part0_ops0]
  after_results_simp
  all_goals rfl
set_option maxRecDepth 8192 in
set_option maxHeartbeats 2000000 in
theorem hv1_main_v45 (V0 : Valuation τ sig (Elt F)) : hv1 V0 (no_index (Proc.devRef .tc main_v45)) = broadcastInDim S1600000x1 ![0] bcast_S1600000_S1600000x1_0 (kNorm V0) := by
  unfold hv1
  simp only [main_part0_ops0]
  after_results_simp
  all_goals rfl
set_option maxRecDepth 8192 in
set_option maxHeartbeats 2000000 in
theorem hv1_main_v46 (V0 : Valuation τ sig (Elt F)) : hv1 V0 (no_index (Proc.devRef .tc main_v46)) = broadcastInDim S1600000 ![] bcast_S_S1600000 (constantI S_ 32 0#32) := by
  unfold hv1
  simp only [main_part0_ops0]
  after_results_simp
  all_goals rfl

/-- The contents after operations 1 … 120. -/
def hv2 (V0 : Valuation τ sig (Elt F)) : Valuation τ sig (Elt F) := after main_part1_ops0 (hv1 V0)
/-- The buffers operations 61 … 120 write. -/
abbrev W1 : List (Ref sig .tc) := [main_v47, main_c_11, main_v48, main_v49, main_v50, main_v51, main_v52, main_v53, main_v54, main_cst_12, main_v55, main_v56, main_v57, main_v58, main_c_13, main_v59, main_v60, main_c_14, main_v61, main_v62, main_v63, main_v64, main_v65, main_v66, main_v67, main_cst_15, main_v68, main_v69, main_v70, main_v71, main_cst_16, main_v72, main_v73, main_v74, main_v75, main_v76, main_c_17, main_v77, main_v78, main_c_18, main_v79, main_v80, main_v81, main_v82, main_v83, main_v84, main_v85, main_cst_19, main_v86, main_v87, main_v88, main_cst_20, main_v89, main_v90, main_v91, main_v92, main_v93, main_cst_21, main_v94, main_v95]
set_option maxRecDepth 8192 in
theorem W1_writes : (main_part1_ops0 : List (HloOp τ sig (Elt F))).Forall fun op => op.writes ⊆ (W1.map (Proc.devRef (τ := τ) .tc)).toFinset := by
  simp only [List.Forall]
  repeat' apply And.intro
  all_goals one_write
theorem hv2_keep (V0 : Valuation τ sig (Elt F)) (r : Ref sig .tc) (h : r ∉ W1) :
    hv2 V0 (Proc.devRef .tc r) = hv1 V0 (Proc.devRef .tc r) :=
  after_of_writes_sub main_part1_ops0 _ W1_writes h
theorem hv2_main_arg0 (V0 : Valuation τ sig (Elt F)) : hv2 V0 (no_index (Proc.devRef .tc main_arg0)) = V0 (Proc.devRef .tc main_arg0) :=
  (hv2_keep V0 main_arg0 (by decide)).trans (hv1_main_arg0 V0)
theorem hv2_main_arg1 (V0 : Valuation τ sig (Elt F)) : hv2 V0 (no_index (Proc.devRef .tc main_arg1)) = V0 (Proc.devRef .tc main_arg1) :=
  (hv2_keep V0 main_arg1 (by decide)).trans (hv1_main_arg1 V0)
theorem hv2_main_v1 (V0 : Valuation τ sig (Elt F)) : hv2 V0 (no_index (Proc.devRef .tc main_v1)) = kRow V0 :=
  (hv2_keep V0 main_v1 (by decide)).trans (hv1_main_v1 V0)
theorem hv2_main_v3 (V0 : Valuation τ sig (Elt F)) : hv2 V0 (no_index (Proc.devRef .tc main_v3)) = kCol V0 :=
  (hv2_keep V0 main_v3 (by decide)).trans (hv1_main_v3 V0)
theorem hv2_main_v44 (V0 : Valuation τ sig (Elt F)) : hv2 V0 (no_index (Proc.devRef .tc main_v44)) = kH1 V0 :=
  (hv2_keep V0 main_v44 (by decide)).trans (hv1_main_v44 V0)
set_option maxRecDepth 8192 in
set_option maxHeartbeats 2000000 in
theorem hv2_main_v57 (V0 : Valuation τ sig (Elt F)) : hv2 V0 (no_index (Proc.devRef .tc main_v57)) = kH2 V0 := by
  unfold hv2
  simp only [main_part1_ops0]
  after_results_simp
  simp only [hv1_main_arg0, hv1_main_v1, hv1_main_v3, hv1_main_v45, hv1_main_v46] <;> rfl
set_option maxRecDepth 8192 in
set_option maxHeartbeats 2000000 in
theorem hv2_main_v70 (V0 : Valuation τ sig (Elt F)) : hv2 V0 (no_index (Proc.devRef .tc main_v70)) = kH3raw V0 := by
  unfold hv2
  simp only [main_part1_ops0]
  after_results_simp
  simp only [hv1_main_arg0, hv1_main_v1, hv1_main_v3, hv1_main_v31, hv1_main_v45, hv1_main_v46] <;> rfl
set_option maxRecDepth 8192 in
set_option maxHeartbeats 2000000 in
theorem hv2_main_v75 (V0 : Valuation τ sig (Elt F)) : hv2 V0 (no_index (Proc.devRef .tc main_v75)) = broadcastInDim S100000x1 ![0] bcast_S100000_S100000x1_0 (kReH3 V0) := by
  unfold hv2
  simp only [main_part1_ops0]
  after_results_simp
  simp only [hv1_main_v1, hv1_main_v31] <;> rfl
set_option maxRecDepth 8192 in
set_option maxHeartbeats 2000000 in
theorem hv2_main_v88 (V0 : Valuation τ sig (Elt F)) : hv2 V0 (no_index (Proc.devRef .tc main_v88)) = kH4raw V0 := by
  unfold hv2
  simp only [main_part1_ops0]
  after_results_simp
  simp only [hv1_main_v1, hv1_main_v3, hv1_main_v31, hv1_main_v44] <;> rfl
set_option maxRecDepth 8192 in
set_option maxHeartbeats 2000000 in
theorem hv2_main_v92 (V0 : Valuation τ sig (Elt F)) : hv2 V0 (no_index (Proc.devRef .tc main_v92)) = broadcastInDim S100000x1 ![0] bcast_S100000_S100000x1_0 (kReH4 V0) := by
  unfold hv2
  simp only [main_part1_ops0]
  after_results_simp
  simp only [hv1_main_v3, hv1_main_v31] <;> rfl
set_option maxRecDepth 8192 in
set_option maxHeartbeats 2000000 in
theorem hv2_main_v95 (V0 : Valuation τ sig (Elt F)) : hv2 V0 (no_index (Proc.devRef .tc main_v95)) = addf (addf (kRawOut V0) (kRawIn V0)) (broadcastInDim S100000 ![] bcast_S_S100000 (constant S_ .f32 0x3089705F#32)) := by
  unfold hv2
  simp only [main_part1_ops0]
  after_results_simp
  simp only [hv1_main_v7, hv1_main_v10] <;> rfl

/-- The contents after operations 1 … 180. -/
def hv3 (V0 : Valuation τ sig (Elt F)) : Valuation τ sig (Elt F) := after main_part2_ops0 (hv2 V0)
/-- The buffers operations 121 … 180 write. -/
abbrev W2 : List (Ref sig .tc) := [main_v96, main_v97, main_v98, main_c_22, main_v99, main_v100, main_c_23, main_v101, main_v102, main_v103, main_v104, main_v105, main_c_24, main_v106, main_v107, main_c_25, main_v108, main_v109, main_v110, main_v111, main_v112, main_v113, main_v114, main_c_26, main_v115, main_v116, main_c_27, main_v117, main_v118, main_v119, main_v120, main_v121, main_v122, main_v123, main_cst_28, main_v124, main_v125, main_v126, main_v127, main_c_29, main_v128, main_v129, main_c_30, main_v130, main_v131, main_v132, main_v133, main_v134, main_v135, main_v136, main_cst_31, main_v137, main_v138, main_v139, main_v140, main_cst_32, main_v141, main_v142, main_v143, main_v144]
set_option maxRecDepth 8192 in
theorem W2_writes : (main_part2_ops0 : List (HloOp τ sig (Elt F))).Forall fun op => op.writes ⊆ (W2.map (Proc.devRef (τ := τ) .tc)).toFinset := by
  simp only [List.Forall]
  repeat' apply And.intro
  all_goals one_write
theorem hv3_keep (V0 : Valuation τ sig (Elt F)) (r : Ref sig .tc) (h : r ∉ W2) :
    hv3 V0 (Proc.devRef .tc r) = hv2 V0 (Proc.devRef .tc r) :=
  after_of_writes_sub main_part2_ops0 _ W2_writes h
theorem hv3_main_arg0 (V0 : Valuation τ sig (Elt F)) : hv3 V0 (no_index (Proc.devRef .tc main_arg0)) = V0 (Proc.devRef .tc main_arg0) :=
  (hv3_keep V0 main_arg0 (by decide)).trans (hv2_main_arg0 V0)
theorem hv3_main_arg1 (V0 : Valuation τ sig (Elt F)) : hv3 V0 (no_index (Proc.devRef .tc main_arg1)) = V0 (Proc.devRef .tc main_arg1) :=
  (hv3_keep V0 main_arg1 (by decide)).trans (hv2_main_arg1 V0)
theorem hv3_main_v44 (V0 : Valuation τ sig (Elt F)) : hv3 V0 (no_index (Proc.devRef .tc main_v44)) = kH1 V0 :=
  (hv3_keep V0 main_v44 (by decide)).trans (hv2_main_v44 V0)
theorem hv3_main_v57 (V0 : Valuation τ sig (Elt F)) : hv3 V0 (no_index (Proc.devRef .tc main_v57)) = kH2 V0 :=
  (hv3_keep V0 main_v57 (by decide)).trans (hv2_main_v57 V0)
theorem hv3_main_v70 (V0 : Valuation τ sig (Elt F)) : hv3 V0 (no_index (Proc.devRef .tc main_v70)) = kH3raw V0 :=
  (hv3_keep V0 main_v70 (by decide)).trans (hv2_main_v70 V0)
theorem hv3_main_v88 (V0 : Valuation τ sig (Elt F)) : hv3 V0 (no_index (Proc.devRef .tc main_v88)) = kH4raw V0 :=
  (hv3_keep V0 main_v88 (by decide)).trans (hv2_main_v88 V0)
theorem hv3_main_v75 (V0 : Valuation τ sig (Elt F)) : hv3 V0 (no_index (Proc.devRef .tc main_v75)) = broadcastInDim S100000x1 ![0] bcast_S100000_S100000x1_0 (kReH3 V0) :=
  (hv3_keep V0 main_v75 (by decide)).trans (hv2_main_v75 V0)
theorem hv3_main_v92 (V0 : Valuation τ sig (Elt F)) : hv3 V0 (no_index (Proc.devRef .tc main_v92)) = broadcastInDim S100000x1 ![0] bcast_S100000_S100000x1_0 (kReH4 V0) :=
  (hv3_keep V0 main_v92 (by decide)).trans (hv2_main_v92 V0)

/-- The symmetrised sources, read where the two halves still stand as the contents after operation 120. -/
theorem hv2_srcU (V0 : Valuation τ sig (Elt F)) :
    (concatenate S3200000 0 [⟨S1600000, hv2 V0 (Proc.devRef .tc main_v1)⟩, ⟨S1600000, hv2 V0 (Proc.devRef .tc main_v3)⟩] concatenates_S1600000_S1600000_S3200000_d0
      : (Proc.devRef .tc main_v97 : DevRef τ sig).ty.Contents (Elt F)) = kSrcU V0 := by
  rw [hv2_main_v1, hv2_main_v3]; rfl
/-- The symmetrised targets, likewise. -/
theorem hv2_dstU (V0 : Valuation τ sig (Elt F)) :
    (concatenate S3200000 0 [⟨S1600000, hv2 V0 (Proc.devRef .tc main_v3)⟩, ⟨S1600000, hv2 V0 (Proc.devRef .tc main_v1)⟩] concatenates_S1600000_S1600000_S3200000_d0
      : (Proc.devRef .tc main_v98 : DevRef τ sig).ty.Contents (Elt F)) = kDstU V0 := by
  rw [hv2_main_v3, hv2_main_v1]; rfl

set_option maxRecDepth 8192 in
set_option maxHeartbeats 2000000 in
theorem hv3_main_v126 (V0 : Valuation τ sig (Elt F)) : hv3 V0 (no_index (Proc.devRef .tc main_v126)) = kX1 V0 := by
  unfold hv3
  simp only [main_part2_ops0]
  after_results_simp
  simp only [hv2_srcU, hv2_dstU, hv2_main_arg0, hv2_main_v1, hv2_main_v3, hv2_main_v95] <;> rfl
set_option maxRecDepth 8192 in
set_option maxHeartbeats 2000000 in
theorem hv3_main_v139 (V0 : Valuation τ sig (Elt F)) : hv3 V0 (no_index (Proc.devRef .tc main_v139)) = kX2raw V0 := by
  unfold hv3
  simp only [main_part2_ops0]
  after_results_simp
  simp only [hv2_srcU, hv2_dstU, hv2_main_arg0, hv2_main_v1, hv2_main_v3, hv2_main_v95] <;> rfl
set_option maxRecDepth 8192 in
set_option maxHeartbeats 2000000 in
theorem hv3_main_v144 (V0 : Valuation τ sig (Elt F)) : hv3 V0 (no_index (Proc.devRef .tc main_v144)) = broadcastInDim S100000x1 ![0] bcast_S100000_S100000x1_0 (kReX2 V0) := by
  unfold hv3
  simp only [main_part2_ops0]
  after_results_simp
  simp only [hv2_srcU, hv2_dstU, hv2_main_v1, hv2_main_v3, hv2_main_v95] <;> rfl

/-- The contents after all 181 operations. -/
def hv4 (V0 : Valuation τ sig (Elt F)) : Valuation τ sig (Elt F) := after main_part3_ops0 (hv3 V0)
/-- The buffer operation 181 writes. -/
abbrev W3 : List (Ref sig .tc) := [main_v145]
set_option maxRecDepth 8192 in
theorem W3_writes : (main_part3_ops0 : List (HloOp τ sig (Elt F))).Forall fun op => op.writes ⊆ (W3.map (Proc.devRef (τ := τ) .tc)).toFinset := by
  simp only [List.Forall]
  one_write
theorem hv4_keep (V0 : Valuation τ sig (Elt F)) (r : Ref sig .tc) (h : r ∉ W3) :
    hv4 V0 (Proc.devRef .tc r) = hv3 V0 (Proc.devRef .tc r) :=
  after_of_writes_sub main_part3_ops0 _ W3_writes h
theorem hv4_main_arg0 (V0 : Valuation τ sig (Elt F)) : hv4 V0 (no_index (Proc.devRef .tc main_arg0)) = V0 (Proc.devRef .tc main_arg0) :=
  (hv4_keep V0 main_arg0 (by decide)).trans (hv3_main_arg0 V0)
theorem hv4_main_arg1 (V0 : Valuation τ sig (Elt F)) : hv4 V0 (no_index (Proc.devRef .tc main_arg1)) = V0 (Proc.devRef .tc main_arg1) :=
  (hv4_keep V0 main_arg1 (by decide)).trans (hv3_main_arg1 V0)
theorem hv4_main_v44 (V0 : Valuation τ sig (Elt F)) : hv4 V0 (no_index (Proc.devRef .tc main_v44)) = kH1 V0 :=
  (hv4_keep V0 main_v44 (by decide)).trans (hv3_main_v44 V0)
theorem hv4_main_v57 (V0 : Valuation τ sig (Elt F)) : hv4 V0 (no_index (Proc.devRef .tc main_v57)) = kH2 V0 :=
  (hv4_keep V0 main_v57 (by decide)).trans (hv3_main_v57 V0)
theorem hv4_main_v70 (V0 : Valuation τ sig (Elt F)) : hv4 V0 (no_index (Proc.devRef .tc main_v70)) = kH3raw V0 :=
  (hv4_keep V0 main_v70 (by decide)).trans (hv3_main_v70 V0)
theorem hv4_main_v88 (V0 : Valuation τ sig (Elt F)) : hv4 V0 (no_index (Proc.devRef .tc main_v88)) = kH4raw V0 :=
  (hv4_keep V0 main_v88 (by decide)).trans (hv3_main_v88 V0)
theorem hv4_main_v126 (V0 : Valuation τ sig (Elt F)) : hv4 V0 (no_index (Proc.devRef .tc main_v126)) = kX1 V0 :=
  (hv4_keep V0 main_v126 (by decide)).trans (hv3_main_v126 V0)
theorem hv4_main_v139 (V0 : Valuation τ sig (Elt F)) : hv4 V0 (no_index (Proc.devRef .tc main_v139)) = kX2raw V0 :=
  (hv4_keep V0 main_v139 (by decide)).trans (hv3_main_v139 V0)

/-- A concatenation of three [100000, 1] columns is a function of its columns. -/
theorem cat3_congr {α : Type} {a a' b b' c c' : S100000x1.Idx → α} (ha : a = a') (hb : b = b') (hc : c = c') :
    concatenate S100000x3 1 [⟨S100000x1, a⟩, ⟨S100000x1, b⟩, ⟨S100000x1, c⟩] concatenates_S100000x1_S100000x1_S100000x1_S100000x3_d1
      = concatenate S100000x3 1 [⟨S100000x1, a'⟩, ⟨S100000x1, b'⟩, ⟨S100000x1, c'⟩] concatenates_S100000x1_S100000x1_S100000x1_S100000x3_d1 := by
  subst ha hb hc; rfl

set_option maxRecDepth 8192 in
set_option maxHeartbeats 2000000 in
theorem hv4_main_v145 (V0 : Valuation τ sig (Elt F)) : hv4 V0 (no_index (Proc.devRef .tc main_v145)) = kReCat V0 := by
  unfold hv4
  simp only [main_part3_ops0, after_cons, after_nil]
  rw [Cert.LibNary3.nary3_result]
  exact cat3_congr (hv3_main_v144 V0) (hv3_main_v75 V0) (hv3_main_v92 V0)

/-! ## All 181 operations -/

set_option maxRecDepth 8192 in
/-- The 181 operations are the four stretches one after the other. -/
theorem hostOps0_eq : (hostOps0 : List (HloOp τ sig (Elt F))) = main_part0_ops0 ++ (main_part1_ops0 ++ (main_part2_ops0 ++ main_part3_ops0)) := rfl

set_option maxRecDepth 8192 in
theorem after_hostOps0 (V0 : Valuation τ sig (Elt F)) : after hostOps0 V0 = hv4 V0 := by
  rw [hostOps0_eq]
  simp only [StableHlo.after_append]
  rfl

theorem host_main_arg0 (V0 : Valuation τ sig (Elt F)) : StableHlo.after hostOps0 V0 (Proc.devRef .tc main_arg0) = V0 (Proc.devRef .tc main_arg0) := by
  rw [after_hostOps0]; exact hv4_main_arg0 V0
theorem host_main_arg1 (V0 : Valuation τ sig (Elt F)) : StableHlo.after hostOps0 V0 (Proc.devRef .tc main_arg1) = V0 (Proc.devRef .tc main_arg1) := by
  rw [after_hostOps0]; exact hv4_main_arg1 V0
theorem host_main_v44 (V0 : Valuation τ sig (Elt F)) : StableHlo.after hostOps0 V0 (Proc.devRef .tc main_v44) = kH1 V0 := by
  rw [after_hostOps0]; exact hv4_main_v44 V0
theorem host_main_v57 (V0 : Valuation τ sig (Elt F)) : StableHlo.after hostOps0 V0 (Proc.devRef .tc main_v57) = kH2 V0 := by
  rw [after_hostOps0]; exact hv4_main_v57 V0
theorem host_main_v70 (V0 : Valuation τ sig (Elt F)) : StableHlo.after hostOps0 V0 (Proc.devRef .tc main_v70) = kH3raw V0 := by
  rw [after_hostOps0]; exact hv4_main_v70 V0
theorem host_main_v88 (V0 : Valuation τ sig (Elt F)) : StableHlo.after hostOps0 V0 (Proc.devRef .tc main_v88) = kH4raw V0 := by
  rw [after_hostOps0]; exact hv4_main_v88 V0
theorem host_main_v126 (V0 : Valuation τ sig (Elt F)) : StableHlo.after hostOps0 V0 (Proc.devRef .tc main_v126) = kX1 V0 := by
  rw [after_hostOps0]; exact hv4_main_v126 V0
theorem host_main_v139 (V0 : Valuation τ sig (Elt F)) : StableHlo.after hostOps0 V0 (Proc.devRef .tc main_v139) = kX2raw V0 := by
  rw [after_hostOps0]; exact hv4_main_v139 V0
theorem host_main_v145 (V0 : Valuation τ sig (Elt F)) : StableHlo.after hostOps0 V0 (Proc.devRef .tc main_v145) = kReCat V0 := by
  rw [after_hostOps0]; exact hv4_main_v145 V0

end Cert.KernelIdeal.HostVal

end
-- ==== Proof.RefValue.lean ====
/-
  The reference's result array as one function of its six feature matrices: each is divided, row by row, by its row sum shifted
  by ε (the host's spelling of the row normalization), and the six quotients lie side by side along the columns.
-/
import proofs.«145359_j51866025066826_2_alg».proof.Proof.Gen.ReferenceIdeal.Run
import proofs.«145359_j51866025066826_2_alg».proof.Proof.LibRowNorm

noncomputable section

namespace Cert.ReferenceIdeal.RefVal

open Cert.ReferenceIdeal Cert.ReferenceIdeal.Gen Idealize.ShloMosaic Idealize.ShloMosaic.TcCoe Idealize.SL.Sem
open Idealize.ShloMosaic.StableHlo Idealize.ShloMosaic.ValueIdx Cert.LibRowNorm

/-- The shift of the row sums: the float nearest 1e-5, as the real it denotes. -/
def eps : EReal := Ideal.ofBits .f32 0x3727C5AC#32

/-- One matrix over its shifted row sums, as the host program spells it. -/
def hostRN (X : FVec Ideal S100000x32 .f32) : FVec Ideal S100000x32 .f32 :=
  Host.divf X (broadcastInDim S100000x32 ![0, 1] bcast_S100000x1_S100000x32_0_1 (addf (broadcastInDim S100000x1 ![0] bcast_S100000_S100000x1_0 (Host.reduceAdd X (constant S_ .f32 0x00000000#32) reducesTo_S100000x32_S100000_d1 h_S_)) (broadcastInDim S100000x1 ![] bcast_S_S100000x1 (constant S_ .f32 0x3727C5AC#32))))

theorem hostRN_eq (X : FVec Ideal S100000x32 .f32) : hostRN X = rowNorm X eps := by
  funext i
  obtain ⟨r, c, rfl⟩ : ∃ (r : Fin 100000) (c : Fin 32), i = ix2 r c := ⟨i 0, i 1, eq_ix2 i⟩
  exact host_rowNorm X 0x3727C5AC#32 ![0, 1] rfl rfl bcast_S100000x1_S100000x32_0_1 ![0] rfl bcast_S100000_S100000x1_0 ![]
    bcast_S_S100000x1 reducesTo_S100000x32_S100000_d1 h_S_ r c

/-- Entry `n` of a family of six functions depends only on the six functions' values. -/
theorem vec6_congr {β γ : Type} (a0 a1 a2 a3 a4 a5 b0 b1 b2 b3 b4 b5 : β → γ) (i : β)
    (h0 : a0 i = b0 i) (h1 : a1 i = b1 i) (h2 : a2 i = b2 i) (h3 : a3 i = b3 i) (h4 : a4 i = b4 i) (h5 : a5 i = b5 i)
    (n : Fin 6) : (![a0, a1, a2, a3, a4, a5] : Fin 6 → β → γ) n i = (![b0, b1, b2, b3, b4, b5] : Fin 6 → β → γ) n i := by
  match n with
  | ⟨0, _⟩ => exact h0
  | ⟨1, _⟩ => exact h1
  | ⟨2, _⟩ => exact h2
  | ⟨3, _⟩ => exact h3
  | ⟨4, _⟩ => exact h4
  | ⟨5, _⟩ => exact h5

/-- The six normalized matrices side by side. -/
theorem ref_cat (X0 X1 X2 X3 X4 X5 : FVec Ideal S100000x32 .f32) :
    concatenate S100000x192 1 [⟨S100000x32, hostRN X0⟩, ⟨S100000x32, hostRN X1⟩, ⟨S100000x32, hostRN X2⟩, ⟨S100000x32, hostRN X3⟩, ⟨S100000x32, hostRN X4⟩, ⟨S100000x32, hostRN X5⟩] concatenates_S100000x32_S100000x32_S100000x32_S100000x32_S100000x32_S100000x32_S100000x192_d1
      = cat6 (rowNorm X0 eps) (rowNorm X1 eps) (rowNorm X2 eps) (rowNorm X3 eps) (rowNorm X4 eps) (rowNorm X5 eps) := by
  funext j
  obtain ⟨r, q, rfl⟩ : ∃ (r : Fin 100000) (q : Fin 192), j = ix2 r q := ⟨j 0, j 1, eq_ix2 j⟩
  have hq : q.val / 32 < 6 := by have := q.isLt; omega
  refine (concat6_apply (t := S100000x192) (s₁ := S100000x32) (1 : Fin 2) (hostRN X0) (hostRN X1) (hostRN X2) (hostRN X3) (hostRN X4) (hostRN X5) _ rfl 32 rfl (ix2 r q)
    ⟨q.val / 32, hq⟩ rfl (ix2 r ⟨q.val % 32, Nat.mod_lt _ (by decide)⟩) rfl (fun b hb => ?_)).trans ?_
  · match b with
    | ⟨0, _⟩ => rfl
    | ⟨1, _⟩ => exact absurd rfl hb
  · simp only [hostRN_eq]
    rfl

end Cert.ReferenceIdeal.RefVal

end
-- ==== Proof.LibHistogram.lean ====
/- A histogram computed as a scatter of additions.

   The host's scatter with an adding body leaves, at each place of the operand, the operand's entry plus the sum of
   the updates that land on that place: the left fold over the updates changes one place per update, and addition
   of words is associative, so the place's final value does not depend on the order.  For a rank-1 operand of
   `N` places and a column `[E, 1]` of start indices (one scalar update per index: what `x.at[idx].add(u)` lowers
   to) update `n` lands on place `k` exactly when its index word, read as a signed integer, is `k`; an index
   outside `[0, N)` is dropped.  With every update one this is the histogram of the indices. -/
import Idealize.ShloMosaic.PureOps
import Idealize.ShloMosaic.Lib.ValueIdx
import Mathlib.Algebra.BigOperators.Fin
import Mathlib.Data.BitVec

noncomputable section

open scoped BigOperators

namespace Cert.LibHistogram

open Idealize.ShloMosaic Idealize.ShloMosaic.ValueIdx

section Fold
variable {s si u : Shape} {w wi : Nat}

/-- The fold of the adding scatter step over a list of update positions, read at one place `i0`: the start
    contents there plus the updates of the list that land there. -/
theorem scatter_foldl (d : ScatterDims s si u) (idx : IVec si wi) (upd : u.Idx → BitVec w) (i0 : s.Idx)
    (L : List (Fin u.numel)) (r : s.Idx → BitVec w) :
    (L.foldl (fun r n =>
        match d.resultIdx? (u.rowMajor.symm n) idx with
        | some i => fun i' => if i' = i then IntOp.addi (r i) (upd (u.rowMajor.symm n)) else r i'
        | none => r) r) i0
      = r i0 + (L.map fun n => if d.resultIdx? (u.rowMajor.symm n) idx = some i0 then upd (u.rowMajor.symm n) else 0).sum := by
  induction L generalizing r with
  | nil => simp
  | cons n L ih =>
    rw [List.foldl_cons, ih, List.map_cons, List.sum_cons, ← BitVec.add_assoc]
    congr 1
    cases hres : d.resultIdx? (u.rowMajor.symm n) idx with
    | none => simp
    | some i =>
      by_cases hi : i0 = i
      · subst hi
        simp [IntOp.addi]
      · have hne : ¬ (some i = some i0) := fun h => hi (Option.some.inj h).symm
        simp [hi, hne]

/-- THE ADDING SCATTER AT A PLACE: the operand's entry plus the sum of the updates landing there. -/
theorem scatter_add_apply (d : ScatterDims s si u) (x : s.Idx → BitVec w) (idx : IVec si wi) (upd : u.Idx → BitVec w)
    (i0 : s.Idx) :
    Host.scatter d IntOp.addi x idx upd i0 = x i0 + ∑ j : u.Idx, if d.resultIdx? j idx = some i0 then upd j else 0 := by
  unfold Host.scatter
  refine (scatter_foldl d idx upd i0 (List.finRange u.numel) x).trans ?_
  rw [← Fin.sum_univ_def]
  congr 1
  exact Equiv.sum_comp u.rowMajor.symm fun j => if d.resultIdx? j idx = some i0 then upd j else 0

end Fold

section Column
variable {w wi : Nat}

/-- The dimension numbers: a rank-1 operand of `N` places, a column `[E, 1]` of start indices (the index vector
    along axis 1, its one component naming the operand's axis), `E` scalar updates. -/
abbrev colDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

private theorem zero_mem : (0 : Fin 1) ∈ ([0] : List (Fin 1)) := by decide

/-- Update `n`'s window starts at its index word read signed … -/
theorem start_col {N E : Nat} (wf : ScatterDims.WF ⟨1, ![N]⟩ ⟨2, ![E, 1]⟩ ⟨1, ![E]⟩ [] [0] [0] 1)
    (idx : IVec ⟨2, ![E, 1]⟩ wi) (n : Fin E) :
    (colDims N E wf).start (ix1 n) idx 0 = (idx (ix2 n (0 : Fin 1))).toInt := by
  unfold ScatterDims.start
  rw [dif_pos (show (0 : Fin 1) ∈ (colDims N E wf).scatterDimsToOperandDims from zero_mem)]
  have hsi : (colDims N E wf).siIdx (ix1 n) ⟨List.idxOf (0 : Fin 1) (colDims N E wf).scatterDimsToOperandDims,
      List.idxOf_lt_length_iff.2 zero_mem⟩ = ix2 n (0 : Fin 1) := by
    funext c; refine Fin.ext ?_
    match c with
    | ⟨0, _⟩ => rfl
    | ⟨1, _⟩ => rfl
  rw [hsi]

/-- … and has no window coordinate: the operand's one axis is an inserted one. -/
theorem window_col {N E : Nat} (wf : ScatterDims.WF ⟨1, ![N]⟩ ⟨2, ![E, 1]⟩ ⟨1, ![E]⟩ [] [0] [0] 1) (n : Fin E) :
    (colDims N E wf).window (ix1 n) 0 = 0 := by
  unfold ScatterDims.window
  rw [dif_neg]
  show (0 : Fin 1) ∉ (List.finRange 1).filter (· ∉ ([0] : List (Fin 1)))
  decide

/-- Update `n` lands on place `k` exactly when its index word, read signed, is `k`. -/
theorem resultIdx_col {N E : Nat} (wf : ScatterDims.WF ⟨1, ![N]⟩ ⟨2, ![E, 1]⟩ ⟨1, ![E]⟩ [] [0] [0] 1)
    (idx : IVec ⟨2, ![E, 1]⟩ wi) (n : Fin E) (k : Fin N) :
    (colDims N E wf).resultIdx? (ix1 n) idx = some (ix1 k) ↔ (idx (ix2 n (0 : Fin 1))).toInt = (k.val : Int) := by
  unfold ScatterDims.resultIdx?
  have hone : ∀ a : Fin 1, a = 0 := fun a => Subsingleton.elim _ _
  by_cases h : ∀ a, 0 ≤ (colDims N E wf).start (ix1 n) idx a + (colDims N E wf).window (ix1 n) a
      ∧ (colDims N E wf).start (ix1 n) idx a + (colDims N E wf).window (ix1 n) a < ((⟨1, ![N]⟩ : Shape).size a : Int)
  · rw [dif_pos h]
    have h0 := h 0
    rw [start_col, window_col] at h0
    constructor
    · intro he
      have := congrFun (Option.some.inj he) 0
      have hv := congrArg Fin.val this
      simp only [start_col, window_col] at hv
      have hv' : ((idx (ix2 n (0 : Fin 1))).toInt + ((0 : Nat) : Int)).toNat = k.val := hv
      omega
    · intro he
      refine congrArg some (funext fun a => Fin.ext ?_)
      rw [hone a]
      show ((colDims N E wf).start (ix1 n) idx 0 + ((colDims N E wf).window (ix1 n) 0 : Int)).toNat = k.val
      rw [start_col, window_col, he]
      simp
  · rw [dif_neg h]
    constructor
    · intro he; exact absurd he (by simp)
    · intro he
      exfalso
      apply h
      intro a
      rw [hone a, start_col, window_col, he]
      have := k.isLt
      constructor
      · simp
      · show ((k.val : Int) + ((0 : Nat) : Int)) < ((N : Nat) : Int)
        omega

end Column

end Cert.LibHistogram

end
-- ==== Proof.LibDegree.lean ====
/-
  Degree counts. Over the extended reals a float scatter-add into a rank-1 array [N] at a column [E, 1] of indices reads, at
  place k, the operand's entry plus the sum of the updates whose index word, read signed, is k. When the column is the
  concatenation of two index vectors a ++ b, the sum splits into the two vectors' sums: scattering into zeros over a ++ b is
  the entrywise sum of scattering over a and over b.
-/
import Idealize.ShloMosaic.Lib.Pipeline.Value
import Idealize.ShloMosaic.Lib.ValueIdx
import Idealize.ShloMosaic.PureOps.Ideal.Laws
import proofs.«145359_j51866025066826_2_alg».proof.Proof.LibHistogram
import proofs.«145359_j51866025066826_2_alg».proof.Proof.LibHostRows
import proofs.«145359_j51866025066826_2_alg».proof.Proof.LibRowNorm

noncomputable section

open scoped BigOperators

namespace Cert.LibDegree

open Idealize.ShloMosaic Idealize.ShloMosaic.ValueIdx Cert.LibHistogram

/-- Place `k` of a float scatter-add into a rank-1 array. -/
theorem scatterAdd_col_apply {N E wi : ℕ} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ wi) (upd : (⟨1, ![E]⟩ : Shape).Idx → EReal) (k : Fin N) :
    Ideal.hostScatterAdd (colDims N E wf) x idx upd (ix1 k)
      = x (ix1 k) + ∑ n : Fin E, if (idx (ix2 n (0 : Fin 1))).toInt = (k.val : Int) then upd (ix1 n) else 0 := by
  unfold Ideal.hostScatterAdd
  congr 1
  rw [Finset.sum_filter]
  let e : Fin E ≃ (⟨1, ![E]⟩ : Shape).Idx := ⟨ix1, fun j => j 0, fun _ => rfl, fun j => (eq_ix1 j).symm⟩
  rw [← Equiv.sum_comp e]
  refine Finset.sum_congr rfl fun n _ => ?_
  show (if (colDims N E wf).resultIdx? (ix1 n) idx = some (ix1 k) then upd (ix1 n) else 0) = _
  by_cases h : (idx (ix2 n (0 : Fin 1))).toInt = (k.val : Int)
  · rw [if_pos ((resultIdx_col wf idx n k).mpr h), if_pos h]
  · rw [if_neg (fun h' => h ((resultIdx_col wf idx n k).mp h')), if_neg h]

/-- The column made of `a ++ b`, read at row `n`: `a`'s word below `E`, `b`'s from `E` on. -/
theorem col_concat_at {α : Type} {E E2 : ℕ} (hE : E2 = E + E) (a b : (⟨1, ![E]⟩ : Shape).Idx → α)
    (hc : Shape.Concatenates (([⟨⟨1, ![E]⟩, a⟩, ⟨⟨1, ![E]⟩, b⟩] : List ((s : Shape) × (s.Idx → α))).map (·.1)) ⟨1, ![E2]⟩ 0)
    (dims : Fin (⟨1, ![E2]⟩ : Shape).rank → Fin (⟨2, ![E2, 1]⟩ : Shape).rank) (hd : dims 0 = 0)
    (hb : (⟨1, ![E2]⟩ : Shape).BroadcastsInDim ⟨2, ![E2, 1]⟩ dims) (n : Fin E2) :
    broadcastInDim ⟨2, ![E2, 1]⟩ dims hb (concatenate ⟨1, ![E2]⟩ 0 [⟨⟨1, ![E]⟩, a⟩, ⟨⟨1, ![E]⟩, b⟩] hc) (ix2 n (0 : Fin 1))
      = if h : n.val < E then a (ix1 ⟨n.val, h⟩) else b (ix1 ⟨n.val - E, by have := n.isLt; omega⟩) := by
  rw [Cert.LibHostRows.bcast_a_a1_at dims hd hb]
  have hn := n.isLt
  by_cases h : n.val < E
  · rw [dif_pos h]
    exact Cert.LibRowNorm.concat2_apply (t := ⟨1, ![E2]⟩) (s₁ := ⟨1, ![E]⟩) (0 : Fin 1) a b hc rfl E rfl (ix1 n) 0 (Nat.div_eq_of_lt h) (ix1 ⟨n.val, h⟩)
      (Nat.mod_eq_of_lt h).symm (fun c hcne => absurd (Subsingleton.elim _ _) hcne)
  · rw [dif_neg h]
    have h1 : n.val / E = 1 := by
      have hpos : 0 < E := by omega
      rw [Nat.div_eq_iff hpos]; omega
    have h2 : n.val % E = n.val - E := by
      rw [Nat.mod_eq_sub_mod (by omega)]; exact Nat.mod_eq_of_lt (by omega)
    exact Cert.LibRowNorm.concat2_apply (t := ⟨1, ![E2]⟩) (s₁ := ⟨1, ![E]⟩) (0 : Fin 1) a b hc rfl E rfl (ix1 n) 1 h1 (ix1 ⟨n.val - E, by omega⟩)
      h2.symm (fun c hcne => absurd (Subsingleton.elim _ _) hcne)

/-- A sum over `E + E` rows of a column `a ++ b` is the sum over `a`'s rows plus the sum over `b`'s. -/
theorem sum_concat {E E2 : ℕ} (hE : E2 = E + E) (f : Fin E2 → EReal) (g₁ g₂ : Fin E → EReal)
    (h₁ : ∀ (n : Fin E), f ⟨n.val, by have := n.isLt; omega⟩ = g₁ n)
    (h₂ : ∀ (n : Fin E), f ⟨E + n.val, by have := n.isLt; omega⟩ = g₂ n) :
    ∑ n : Fin E2, f n = ∑ n : Fin E, g₁ n + ∑ n : Fin E, g₂ n := by
  subst hE
  rw [Fin.sum_univ_add]
  refine congrArg₂ (· + ·) (Finset.sum_congr rfl fun n _ => ?_) (Finset.sum_congr rfl fun n _ => ?_)
  · exact h₁ n
  · exact h₂ n

/-- Scattering the constant `o` into zeros at the column `a ++ b` is, at each place, the sum of scattering it at `a`'s
    column and at `b`'s. -/
theorem degree_concat {N E E2 wi : ℕ} (hE : E2 = E + E)
    (wf2 : ScatterDims.WF ⟨1, ![N]⟩ ⟨2, ![E2, 1]⟩ ⟨1, ![E2]⟩ [] [0] [0] 1)
    (wf : ScatterDims.WF ⟨1, ![N]⟩ ⟨2, ![E, 1]⟩ ⟨1, ![E]⟩ [] [0] [0] 1)
    (z2 z : (⟨1, ![N]⟩ : Shape).Idx → EReal) (hz2 : ∀ i, z2 i = 0) (hz : ∀ i, z i = 0)
    (u2 : (⟨1, ![E2]⟩ : Shape).Idx → EReal) (u : (⟨1, ![E]⟩ : Shape).Idx → EReal) (o : EReal) (hu2 : ∀ i, u2 i = o) (hu : ∀ i, u i = o)
    (idx2 : IVec ⟨2, ![E2, 1]⟩ wi) (ia ib : IVec ⟨2, ![E, 1]⟩ wi)
    (hidx : ∀ n : Fin E2, idx2 (ix2 n (0 : Fin 1))
      = if h : n.val < E then ia (ix2 ⟨n.val, h⟩ (0 : Fin 1)) else ib (ix2 ⟨n.val - E, by have := n.isLt; omega⟩ (0 : Fin 1)))
    (k : Fin N) :
    Ideal.hostScatterAdd (colDims N E2 wf2) z2 idx2 u2 (ix1 k)
      = Ideal.hostScatterAdd (colDims N E wf) z ia u (ix1 k) + Ideal.hostScatterAdd (colDims N E wf) z ib u (ix1 k) := by
  rw [scatterAdd_col_apply, scatterAdd_col_apply, scatterAdd_col_apply, hz2, hz, zero_add, zero_add, zero_add]
  refine sum_concat hE _ _ _ (fun n => ?_) (fun n => ?_)
  · have hn := n.isLt
    rw [hidx, dif_pos (show (⟨n.val, by omega⟩ : Fin E2).val < E from hn), hu2, hu]
  · have hn := n.isLt
    rw [hidx, dif_neg (show ¬ (⟨E + n.val, by omega⟩ : Fin E2).val < E from by simp), hu2, hu]
    have : (⟨(⟨E + n.val, by omega⟩ : Fin E2).val - E, by simp⟩ : Fin E) = n := Fin.ext (by simp)
    rw [this]

end Cert.LibDegree

end
-- ==== Proof.LibConcatSame.lean ====
/-
  A concatenation of three or of four pieces of ONE shape along an axis, read at an index: the piece is the one the
  axis coordinate names when divided by the pieces' common extent on that axis, read at the index whose axis
  coordinate is the remainder and whose other coordinates are unchanged. The pieces are given as a literal list, the
  way a program prints a concatenation of three or four operands; the general statement for a family of pieces is
  the library's.
-/
import Idealize.ShloMosaic.Lib.Pipeline.Value
import Idealize.ShloMosaic.Lib.ValueIdx

noncomputable section

namespace Cert.LibConcatSame

open Idealize.ShloMosaic

variable {α : Type} {t s₁ : Shape}

/-- Three pieces of one shape: entry `j` is piece `(j a) / K` at `j` with its axis coordinate reduced modulo `K`. -/
theorem concat3_apply (a : Fin t.rank) (x0 x1 x2 : s₁.Idx → α)
    (h : Shape.Concatenates (([⟨s₁, x0⟩, ⟨s₁, x1⟩, ⟨s₁, x2⟩] : List ((s : Shape) × (s.Idx → α))).map (·.1)) t a)
    (hr : s₁.rank = t.rank) (K : Nat) (hK : s₁.size (a.cast hr.symm) = K) (j : t.Idx) (n : Fin 3)
    (hn : (j a).val / K = n.val) (i : s₁.Idx) (hia : (i (a.cast hr.symm)).val = (j a).val % K)
    (hi : ∀ b : Fin s₁.rank, b.cast hr ≠ a → (i b).val = (j (b.cast hr)).val) :
    concatenate t a [⟨s₁, x0⟩, ⟨s₁, x1⟩, ⟨s₁, x2⟩] h j = (![x0, x1, x2] : Fin 3 → s₁.Idx → α) n i :=
  concatenate_ofFn_apply a (![x0, x1, x2] : Fin 3 → s₁.Idx → α) h hr K hK j n hn i hia hi

/-- Four pieces of one shape, the same way. -/
theorem concat4_apply (a : Fin t.rank) (x0 x1 x2 x3 : s₁.Idx → α)
    (h : Shape.Concatenates (([⟨s₁, x0⟩, ⟨s₁, x1⟩, ⟨s₁, x2⟩, ⟨s₁, x3⟩] : List ((s : Shape) × (s.Idx → α))).map (·.1)) t a)
    (hr : s₁.rank = t.rank) (K : Nat) (hK : s₁.size (a.cast hr.symm) = K) (j : t.Idx) (n : Fin 4)
    (hn : (j a).val / K = n.val) (i : s₁.Idx) (hia : (i (a.cast hr.symm)).val = (j a).val % K)
    (hi : ∀ b : Fin s₁.rank, b.cast hr ≠ a → (i b).val = (j (b.cast hr)).val) :
    concatenate t a [⟨s₁, x0⟩, ⟨s₁, x1⟩, ⟨s₁, x2⟩, ⟨s₁, x3⟩] h j = (![x0, x1, x2, x3] : Fin 4 → s₁.Idx → α) n i :=
  concatenate_ofFn_apply a (![x0, x1, x2, x3] : Fin 4 → s₁.Idx → α) h hr K hK j n hn i hia hi

end Cert.LibConcatSame

end
-- ==== Proof.Bridge.lean ====
/-
  The two programs compute their eight feature arrays by the same chain of gathers, products and scatter-adds over the edge list,
  with two differences. The reference builds the reversed edges' weight rsqrt(in')[row] · rsqrt(out')[col] from degree counts of
  the swapped list, which are the same two counts: it is the forward weight with its two factors exchanged, and a product of
  extended reals commutes. And it counts the undirected degrees by scattering ones over row ++ col and over col ++ row, where the
  kernel adds the two directed counts: a scatter-add over a concatenated index column is the sum of the two columns' scatter-adds,
  and a sum of extended reals commutes. Everything else is the same operations of equal operands.
-/
import proofs.«145359_j51866025066826_2_alg».proof.Proof.KernelIdealHost
import proofs.«145359_j51866025066826_2_alg».proof.Proof.Gen.ReferenceIdeal.Run
import proofs.«145359_j51866025066826_2_alg».proof.Proof.LibDegree
import proofs.«145359_j51866025066826_2_alg».proof.Proof.LibRowNorm
import proofs.«145359_j51866025066826_2_alg».proof.Proof.LibConcatSame
import proofs.«145359_j51866025066826_2_alg».proof.Proof.LibHostRows

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal.HostVal Cert.ReferenceIdeal.Value Cert.LibRowNorm Cert.LibHostRows

variable (vk : Valuation Cert.KernelIdeal.τ Cert.KernelIdeal.sig (Elt Ideal)) (vr : Valuation Cert.ReferenceIdeal.τ Cert.ReferenceIdeal.sig (Elt Ideal))
  (h0 : vr (Proc.devRef .tc Cert.ReferenceIdeal.main_arg0) = vk (Proc.devRef .tc Cert.KernelIdeal.main_arg0))
  (h1 : vr (Proc.devRef .tc Cert.ReferenceIdeal.main_arg1) = vk (Proc.devRef .tc Cert.KernelIdeal.main_arg1))

include h1 in
/-- The edges' sources are the same vector in both programs. -/
theorem row_eq : res_main_v1 vr = kRow vk := by
  unfold res_main_v1 kRow; rw [h1]; rfl

include h1 in
/-- The edges' targets likewise. -/
theorem col_eq : res_main_v3 vr = kCol vk := by
  unfold res_main_v3 kCol; rw [h1]; rfl

theorem ones4_eq : res_main_v4 vr = kOnes vk := rfl
theorem ones32_eq : res_main_v32 vr = kOnes vk := rfl

include h1 in
/-- The forward edge weight. -/
theorem norm_eq : res_main_v31 vr = kNorm vk := by
  unfold res_main_v31 kNorm kRawIn kRawOut
  rw [row_eq vk vr h1, col_eq vk vr h1, ones4_eq vk vr]; rfl

include h1 in
/-- The reversed edges' weight is the forward weight: its two factors exchanged. -/
theorem norm1_eq : res_main_v59 vr = kNorm vk := by
  unfold res_main_v59 kNorm kRawIn kRawOut
  rw [row_eq vk vr h1, col_eq vk vr h1, ones32_eq vk vr]
  funext i
  rw [mulf_apply, mulf_apply, mul_comm]; rfl

/-! ## The undirected degrees -/

/-- The host's zero vector reads zero. -/
theorem zerosK_at (i : Cert.KernelIdeal.S100000.Idx) :
    (broadcastInDim Cert.KernelIdeal.S100000 ![] Cert.KernelIdeal.Facts₀.bcast_S_S100000 (constant (F := Ideal) Cert.KernelIdeal.S_ .f32 0x00000000#32) : Cert.KernelIdeal.S100000.Idx → EReal) i = 0 := by
  rw [broadcastInDim_apply _ _ _ i ix0 (fun ax => ax.elim0), constant_apply, Ideal.ofBits_zero_f32]

theorem zerosR_at (i : Cert.ReferenceIdeal.S100000.Idx) :
    (broadcastInDim Cert.ReferenceIdeal.S100000 ![] Cert.ReferenceIdeal.Facts₀.bcast_S_S100000 (constant (F := Ideal) Cert.ReferenceIdeal.S_ .f32 0x00000000#32) : Cert.ReferenceIdeal.S100000.Idx → EReal) i = 0 := by
  rw [broadcastInDim_apply _ _ _ i ix0 (fun ax => ax.elim0), constant_apply, Ideal.ofBits_zero_f32]

/-- The unit weight of an edge. -/
def one : EReal := Ideal.ofBits .f32 0x3F800000#32

theorem onesK_at (i : Cert.KernelIdeal.S1600000.Idx) : (kOnes vk : Cert.KernelIdeal.S1600000.Idx → EReal) i = one := by
  unfold kOnes
  rw [broadcastInDim_apply _ _ _ i ix0 (fun ax => ax.elim0), constant_apply]; rfl

theorem ones2R_at (i : Cert.ReferenceIdeal.S3200000.Idx) : (res_main_v129 vr : Cert.ReferenceIdeal.S3200000.Idx → EReal) i = one := by
  unfold res_main_v129
  rw [broadcastInDim_apply _ _ _ i ix0 (fun ax => ax.elim0), constant_apply]; rfl

/-- The host's accumulating scatter at the extended reals is the exact sum. -/
theorem hsa_eq {s si su : Shape} {w : ℕ} (d : ScatterDims s si su) (x : FVec Ideal s .f32) (idx : IVec si w)
    (upd : FVec Ideal su .f32) (i : s.Idx) :
    Host.scatterAdd (F := Ideal) d x idx upd i = Ideal.hostScatterAdd d x idx upd i := rfl

theorem dR2_eq : Cert.ReferenceIdeal.scatter_S100000_S3200000x1_S3200000_n_0_0_1
    = Cert.LibHistogram.colDims 100000 3200000 (Cert.ReferenceIdeal.scatter_S100000_S3200000x1_S3200000_n_0_0_1).wf := rfl
theorem dK1_eq : Cert.KernelIdeal.scatter_S100000_S1600000x1_S1600000_n_0_0_1
    = Cert.LibHistogram.colDims 100000 1600000 (Cert.KernelIdeal.scatter_S100000_S1600000x1_S1600000_n_0_0_1).wf := rfl

/-- Equal dimension numbers, operands, indices and updates give equal scatters. -/
theorem hsa_congr {s si su : Shape} {w : ℕ} {d d' : ScatterDims s si su} (hd : d = d') {x x' : s.Idx → EReal} (hx : x = x')
    {idx idx' : IVec si w} (hi : idx = idx') {upd upd' : su.Idx → EReal} (hu : upd = upd') (i : s.Idx) :
    Ideal.hostScatterAdd d x idx upd i = Ideal.hostScatterAdd d' x' idx' upd' i := by
  subst hd hx hi hu; rfl

include h1 in
/-- Counting the ones over col ++ row: the in-count plus the out-count. -/
theorem degU_dst :
    (Host.scatterAdd (F := Ideal) Cert.ReferenceIdeal.scatter_S100000_S3200000x1_S3200000_n_0_0_1
      (broadcastInDim Cert.ReferenceIdeal.S100000 ![] Cert.ReferenceIdeal.Facts₀.bcast_S_S100000 (constant (F := Ideal) Cert.ReferenceIdeal.S_ .f32 0x00000000#32))
      (broadcastInDim Cert.ReferenceIdeal.S3200000x1 ![0] Cert.ReferenceIdeal.Facts₀.bcast_S3200000_S3200000x1_0 (res_main_v128 vr)) (res_main_v129 vr)
        : Cert.ReferenceIdeal.S100000.Idx → EReal)
    = addf (kRawOut vk) (kRawIn vk) := by
  funext i
  obtain ⟨k, rfl⟩ : ∃ k : Fin 100000, i = ix1 k := ⟨i 0, eq_ix1 i⟩
  rw [addf_apply, hsa_eq, dR2_eq]
  refine (Cert.LibDegree.degree_concat (N := 100000) (E := 1600000) (E2 := 3200000) rfl
    (Cert.ReferenceIdeal.scatter_S100000_S3200000x1_S3200000_n_0_0_1).wf (Cert.KernelIdeal.scatter_S100000_S1600000x1_S1600000_n_0_0_1).wf
    _ (broadcastInDim Cert.ReferenceIdeal.S100000 ![] Cert.ReferenceIdeal.Facts₀.bcast_S_S100000 (constant (F := Ideal) Cert.ReferenceIdeal.S_ .f32 0x00000000#32))
    zerosR_at zerosR_at _ (res_main_v32 vr) one (ones2R_at vr) (fun i => (congrFun (ones32_eq vk vr) i).trans (onesK_at vk i)) _
    (broadcastInDim Cert.ReferenceIdeal.S1600000x1 ![0] Cert.ReferenceIdeal.Facts₀.bcast_S1600000_S1600000x1_0 (res_main_v3 vr))
    (broadcastInDim Cert.ReferenceIdeal.S1600000x1 ![0] Cert.ReferenceIdeal.Facts₀.bcast_S1600000_S1600000x1_0 (res_main_v1 vr)) (fun n => ?_) k).trans ?_
  · unfold res_main_v128
    refine (Cert.LibDegree.col_concat_at (E := 1600000) (E2 := 3200000) rfl (res_main_v3 vr) (res_main_v1 vr) _ ![0] rfl _ n).trans ?_
    split
    · exact (bcast_a_a1_at ![0] rfl _ (res_main_v3 vr) _ 0).symm
    · exact (bcast_a_a1_at ![0] rfl _ (res_main_v1 vr) _ 0).symm
  · rw [add_comm]
    unfold kRawOut kRawIn
    rw [hsa_eq, hsa_eq, ← row_eq vk vr h1, ← col_eq vk vr h1, ← ones32_eq vk vr]
    exact congrArg₂ (· + ·) (hsa_congr dK1_eq.symm rfl rfl rfl _) (hsa_congr dK1_eq.symm rfl rfl rfl _)

include h1 in
/-- Counting the ones over row ++ col: the out-count plus the in-count. -/
theorem degU_src :
    (Host.scatterAdd (F := Ideal) Cert.ReferenceIdeal.scatter_S100000_S3200000x1_S3200000_n_0_0_1
      (broadcastInDim Cert.ReferenceIdeal.S100000 ![] Cert.ReferenceIdeal.Facts₀.bcast_S_S100000 (constant (F := Ideal) Cert.ReferenceIdeal.S_ .f32 0x00000000#32))
      (broadcastInDim Cert.ReferenceIdeal.S3200000x1 ![0] Cert.ReferenceIdeal.Facts₀.bcast_S3200000_S3200000x1_0 (res_main_v127 vr)) (res_main_v129 vr)
        : Cert.ReferenceIdeal.S100000.Idx → EReal)
    = addf (kRawOut vk) (kRawIn vk) := by
  funext i
  obtain ⟨k, rfl⟩ : ∃ k : Fin 100000, i = ix1 k := ⟨i 0, eq_ix1 i⟩
  rw [addf_apply, hsa_eq, dR2_eq]
  refine (Cert.LibDegree.degree_concat (N := 100000) (E := 1600000) (E2 := 3200000) rfl
    (Cert.ReferenceIdeal.scatter_S100000_S3200000x1_S3200000_n_0_0_1).wf (Cert.KernelIdeal.scatter_S100000_S1600000x1_S1600000_n_0_0_1).wf
    _ (broadcastInDim Cert.ReferenceIdeal.S100000 ![] Cert.ReferenceIdeal.Facts₀.bcast_S_S100000 (constant (F := Ideal) Cert.ReferenceIdeal.S_ .f32 0x00000000#32))
    zerosR_at zerosR_at _ (res_main_v32 vr) one (ones2R_at vr) (fun i => (congrFun (ones32_eq vk vr) i).trans (onesK_at vk i)) _
    (broadcastInDim Cert.ReferenceIdeal.S1600000x1 ![0] Cert.ReferenceIdeal.Facts₀.bcast_S1600000_S1600000x1_0 (res_main_v1 vr))
    (broadcastInDim Cert.ReferenceIdeal.S1600000x1 ![0] Cert.ReferenceIdeal.Facts₀.bcast_S1600000_S1600000x1_0 (res_main_v3 vr)) (fun n => ?_) k).trans ?_
  · unfold res_main_v127
    refine (Cert.LibDegree.col_concat_at (E := 1600000) (E2 := 3200000) rfl (res_main_v1 vr) (res_main_v3 vr) _ ![0] rfl _ n).trans ?_
    split
    · exact (bcast_a_a1_at ![0] rfl _ (res_main_v1 vr) _ 0).symm
    · exact (bcast_a_a1_at ![0] rfl _ (res_main_v3 vr) _ 0).symm
  · unfold kRawOut kRawIn
    rw [hsa_eq, hsa_eq, ← row_eq vk vr h1, ← col_eq vk vr h1, ← ones32_eq vk vr]
    exact congrArg₂ (· + ·) (hsa_congr dK1_eq.symm rfl rfl rfl _) (hsa_congr dK1_eq.symm rfl rfl rfl _)

/-! ## The propagated features -/

/-- Two index vectors laid end to end: equal pieces give equal columns. -/
theorem cat2_congr {a a' b b' : Cert.ReferenceIdeal.S1600000.Idx → BitVec 32} (ha : a = a') (hb : b = b') :
    concatenate Cert.ReferenceIdeal.S3200000 0 [⟨Cert.ReferenceIdeal.S1600000, a⟩, ⟨Cert.ReferenceIdeal.S1600000, b⟩] Cert.ReferenceIdeal.Facts₀.concatenates_S1600000_S1600000_S3200000_d0
      = concatenate Cert.KernelIdeal.S3200000 0 [⟨Cert.KernelIdeal.S1600000, a'⟩, ⟨Cert.KernelIdeal.S1600000, b'⟩] Cert.KernelIdeal.Facts₀.concatenates_S1600000_S1600000_S3200000_d0 := by
  subst ha hb; rfl

include h1 in
theorem srcU_eq : res_main_v127 vr = kSrcU vk := by
  unfold res_main_v127 kSrcU; exact cat2_congr (row_eq vk vr h1) (col_eq vk vr h1)

include h1 in
theorem dstU_eq : res_main_v128 vr = kDstU vk := by
  unfold res_main_v128 kDstU; exact cat2_congr (col_eq vk vr h1) (row_eq vk vr h1)

include h1 in
/-- The undirected edge weight. -/
theorem normU_eq : res_main_v156 vr = kNormU vk := by
  unfold res_main_v156 kNormU kInvU
  rw [degU_dst vk vr h1, degU_src vk vr h1, dstU_eq vk vr h1, srcU_eq vk vr h1]; rfl

include h0 h1 in
theorem h1_eq : res_main_v72 vr = kH1 vk := by
  unfold res_main_v72 kH1
  rw [norm1_eq vk vr h1, row_eq vk vr h1, col_eq vk vr h1, h0]; rfl

include h0 h1 in
theorem h2_eq : res_main_v85 vr = kH2 vk := by
  unfold res_main_v85 kH2
  rw [norm_eq vk vr h1, row_eq vk vr h1, col_eq vk vr h1, h0]; rfl

include h1 in
theorem norm2_eq : res_main_v99 vr = kNorm2 vk := by
  unfold res_main_v99 kNorm2
  rw [norm_eq vk vr h1, norm1_eq vk vr h1]

include h0 h1 in
theorem x1_eq : res_main_v169 vr = kX1 vk := by
  unfold res_main_v169 kX1
  rw [normU_eq vk vr h1, dstU_eq vk vr h1, srcU_eq vk vr h1, h0]; rfl

/-! ## The return weights: the three columns of the kernel's packed operand -/

/-- Three columns side by side, read at column `k`. -/
theorem cat3_col_at {α : Type} {a : ℕ} (x0 x1 x2 : (⟨2, ![a, 1]⟩ : Shape).Idx → α)
    (h : Shape.Concatenates (([⟨⟨2, ![a, 1]⟩, x0⟩, ⟨⟨2, ![a, 1]⟩, x1⟩, ⟨⟨2, ![a, 1]⟩, x2⟩] : List ((s : Shape) × (s.Idx → α))).map (·.1)) ⟨2, ![a, 3]⟩ 1)
    (r : Fin a) (k : Fin 3) :
    concatenate ⟨2, ![a, 3]⟩ 1 [⟨⟨2, ![a, 1]⟩, x0⟩, ⟨⟨2, ![a, 1]⟩, x1⟩, ⟨⟨2, ![a, 1]⟩, x2⟩] h (ix2 r k)
      = (![x0, x1, x2] : Fin 3 → (⟨2, ![a, 1]⟩ : Shape).Idx → α) k (ix2 r (0 : Fin 1)) :=
  Cert.LibConcatSame.concat3_apply (t := ⟨2, ![a, 3]⟩) (s₁ := ⟨2, ![a, 1]⟩) (1 : Fin 2) x0 x1 x2 h rfl 1 rfl (ix2 r k) k (Nat.div_one _)
    (ix2 r (0 : Fin 1)) (Nat.mod_one _).symm (fun b hb => by
      match b with
      | ⟨0, _⟩ => rfl
      | ⟨1, _⟩ => exact absurd rfl hb)

theorem cat3_col0 {α : Type} {a : ℕ} (x0 x1 x2 : (⟨2, ![a, 1]⟩ : Shape).Idx → α) (h) (r : Fin a) :
    concatenate ⟨2, ![a, 3]⟩ 1 [⟨⟨2, ![a, 1]⟩, x0⟩, ⟨⟨2, ![a, 1]⟩, x1⟩, ⟨⟨2, ![a, 1]⟩, x2⟩] h (ix2 r (0 : Fin 3)) = x0 (ix2 r (0 : Fin 1)) :=
  cat3_col_at x0 x1 x2 h r 0
theorem cat3_col1 {α : Type} {a : ℕ} (x0 x1 x2 : (⟨2, ![a, 1]⟩ : Shape).Idx → α) (h) (r : Fin a) :
    concatenate ⟨2, ![a, 3]⟩ 1 [⟨⟨2, ![a, 1]⟩, x0⟩, ⟨⟨2, ![a, 1]⟩, x1⟩, ⟨⟨2, ![a, 1]⟩, x2⟩] h (ix2 r (1 : Fin 3)) = x1 (ix2 r (0 : Fin 1)) :=
  cat3_col_at x0 x1 x2 h r 1
theorem cat3_col2 {α : Type} {a : ℕ} (x0 x1 x2 : (⟨2, ![a, 1]⟩ : Shape).Idx → α) (h) (r : Fin a) :
    concatenate ⟨2, ![a, 3]⟩ 1 [⟨⟨2, ![a, 1]⟩, x0⟩, ⟨⟨2, ![a, 1]⟩, x1⟩, ⟨⟨2, ![a, 1]⟩, x2⟩] h (ix2 r (2 : Fin 3)) = x2 (ix2 r (0 : Fin 1)) :=
  cat3_col_at x0 x1 x2 h r 2

theorem reCat_at0 (r : Fin 100000) : (kReCat vk : Cert.KernelIdeal.S100000x3.Idx → EReal) (ix2 r (0 : Fin 3)) = (kReX2 vk : Cert.KernelIdeal.S100000.Idx → EReal) (ix1 r) := by
  unfold kReCat
  rw [cat3_col0, bcast_a_a1_at ![0] rfl]

theorem reCat_at1 (r : Fin 100000) : (kReCat vk : Cert.KernelIdeal.S100000x3.Idx → EReal) (ix2 r (1 : Fin 3)) = (kReH3 vk : Cert.KernelIdeal.S100000.Idx → EReal) (ix1 r) := by
  unfold kReCat
  rw [cat3_col1, bcast_a_a1_at ![0] rfl]

theorem reCat_at2 (r : Fin 100000) : (kReCat vk : Cert.KernelIdeal.S100000x3.Idx → EReal) (ix2 r (2 : Fin 3)) = (kReH4 vk : Cert.KernelIdeal.S100000.Idx → EReal) (ix1 r) := by
  unfold kReCat
  rw [cat3_col2, bcast_a_a1_at ![0] rfl]

theorem corr_apply {a b n : ℕ} (h l : (⟨2, ![a, b]⟩ : Shape).Idx → EReal) (re : (⟨2, ![a, n]⟩ : Shape).Idx → EReal) (k : Fin n)
    (r : Fin a) (c : Fin b) : corr h l re k (ix2 r c) = h (ix2 r c) - l (ix2 r c) * re (ix2 r k) := rfl

/-! ## The corrected features: the reference subtracts on the host what the kernel subtracts in its body -/

include h0 h1 in
theorem x2_eq : (res_main_v190 vr : Cert.ReferenceIdeal.S100000x32.Idx → EReal)
    = corr (a := 100000) (b := 32) (n := 3) (kX2raw vk) (vk (Proc.devRef .tc Cert.KernelIdeal.main_arg0)) (kReCat vk) 0 := by
  unfold res_main_v190
  rw [normU_eq vk vr h1, x1_eq vk vr h0 h1, dstU_eq vk vr h1, srcU_eq vk vr h1, h0]
  funext i
  obtain ⟨r, c, rfl⟩ : ∃ (r : Fin 100000) (c : Fin 32), i = ix2 r c := ⟨i 0, i 1, eq_ix2 i⟩
  rw [subf_apply, mulf_apply, bcast_a1_ab_at ![0, 1] rfl rfl, bcast_a_a1_at ![0] rfl]
  rw [corr_apply, reCat_at0]; unfold kX2raw kReX2; rfl

include h0 h1 in
theorem h3_eq : (res_main_v106 vr : Cert.ReferenceIdeal.S100000x32.Idx → EReal)
    = corr (a := 100000) (b := 32) (n := 3) (kH3raw vk) (vk (Proc.devRef .tc Cert.KernelIdeal.main_arg0)) (kReCat vk) 1 := by
  unfold res_main_v106
  rw [norm1_eq vk vr h1, h2_eq vk vr h0 h1, norm2_eq vk vr h1, row_eq vk vr h1, col_eq vk vr h1, h0]
  funext i
  obtain ⟨r, c, rfl⟩ : ∃ (r : Fin 100000) (c : Fin 32), i = ix2 r c := ⟨i 0, i 1, eq_ix2 i⟩
  rw [subf_apply, mulf_apply, bcast_a1_ab_at ![0, 1] rfl rfl, bcast_a_a1_at ![0] rfl]
  rw [corr_apply, reCat_at1]; unfold kH3raw kReH3; rfl

include h0 h1 in
theorem h4_eq : (res_main_v126 vr : Cert.ReferenceIdeal.S100000x32.Idx → EReal)
    = corr (a := 100000) (b := 32) (n := 3) (kH4raw vk) (vk (Proc.devRef .tc Cert.KernelIdeal.main_arg0)) (kReCat vk) 2 := by
  unfold res_main_v126
  rw [norm_eq vk vr h1, h1_eq vk vr h0 h1, norm2_eq vk vr h1, row_eq vk vr h1, col_eq vk vr h1, h0]
  funext i
  obtain ⟨r, c, rfl⟩ : ∃ (r : Fin 100000) (c : Fin 32), i = ix2 r c := ⟨i 0, i 1, eq_ix2 i⟩
  rw [subf_apply, mulf_apply, bcast_a1_ab_at ![0, 1] rfl rfl, bcast_a_a1_at ![0] rfl]
  rw [corr_apply, reCat_at2]; unfold kH4raw kReH4; rfl

end Cert.Bridge

end
-- ==== Proof.Result.lean ====
/-
  The two results are one array. The kernel's result is, row by row, six row-normalized [100000, 32] matrices side by side
  (its value leg), three of them with the self-return term label · re removed inside the body; the reference's result is the
  same arrangement of its six matrices, the term removed on the host. The matrices and return weights are equal functions of
  the two arguments (the bridge).
-/
import proofs.«145359_j51866025066826_2_alg».proof.Proof.KernelIdealValue
import proofs.«145359_j51866025066826_2_alg».proof.Proof.KernelIdealHost
import proofs.«145359_j51866025066826_2_alg».proof.Proof.RefValue
import proofs.«145359_j51866025066826_2_alg».proof.Proof.Bridge

set_option maxRecDepth 16384

noncomputable section

namespace Cert.Result

open Idealize.ShloMosaic Idealize.ShloMosaic.TcCoe Idealize.SL.Sem Idealize.ShloMosaic.StableHlo Idealize.ShloMosaic.ValueIdx
open Cert.KernelIdeal.HostVal Cert.ReferenceIdeal.Value Cert.LibRowNorm

theorem eps_eq : Cert.ReferenceIdeal.RefVal.eps = Cert.KernelIdeal.Val.eps := rfl

/-- The reference's result array, its six pieces in the host's spelling, over a device's contents. -/
def refResult (V : Valuation Cert.ReferenceIdeal.τ Cert.ReferenceIdeal.sig (Elt Ideal)) : Cert.ReferenceIdeal.S100000x192.Idx → EReal :=
  concatenate Cert.ReferenceIdeal.S100000x192 1 [⟨Cert.ReferenceIdeal.S100000x32, Cert.ReferenceIdeal.RefVal.hostRN (res_main_v190 V)⟩, ⟨Cert.ReferenceIdeal.S100000x32, Cert.ReferenceIdeal.RefVal.hostRN (res_main_v169 V)⟩, ⟨Cert.ReferenceIdeal.S100000x32, Cert.ReferenceIdeal.RefVal.hostRN (res_main_v106 V)⟩, ⟨Cert.ReferenceIdeal.S100000x32, Cert.ReferenceIdeal.RefVal.hostRN (res_main_v85 V)⟩, ⟨Cert.ReferenceIdeal.S100000x32, Cert.ReferenceIdeal.RefVal.hostRN (res_main_v72 V)⟩, ⟨Cert.ReferenceIdeal.S100000x32, Cert.ReferenceIdeal.RefVal.hostRN (res_main_v126 V)⟩] Cert.ReferenceIdeal.Facts₀.concatenates_S100000x32_S100000x32_S100000x32_S100000x32_S100000x32_S100000x32_S100000x192_d1

/-- From memories that agree on the two arguments, the reference's result is the kernel's function of what the region finds. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    refResult (launchContents m' c)
      = Cert.KernelIdeal.Val.G (Cert.KernelIdeal.Fr.V m c Cert.KernelIdeal.main_arg0) (Cert.KernelIdeal.Fr.V m c Cert.KernelIdeal.main_v139)
          (Cert.KernelIdeal.Fr.V m c Cert.KernelIdeal.main_v126) (Cert.KernelIdeal.Fr.V m c Cert.KernelIdeal.main_v70) (Cert.KernelIdeal.Fr.V m c Cert.KernelIdeal.main_v57)
          (Cert.KernelIdeal.Fr.V m c Cert.KernelIdeal.main_v44) (Cert.KernelIdeal.Fr.V m c Cert.KernelIdeal.main_v88) (Cert.KernelIdeal.Fr.V m c Cert.KernelIdeal.main_v145) := by
  have a0 : Cert.KernelIdeal.Fr.V m c Cert.KernelIdeal.main_arg0 = launchContents m c (Proc.devRef .tc Cert.KernelIdeal.main_arg0) := host_main_arg0 (launchContents m c)
  have a1 : Cert.KernelIdeal.Fr.V m c Cert.KernelIdeal.main_v139 = kX2raw (launchContents m c) := host_main_v139 (launchContents m c)
  have a2 : Cert.KernelIdeal.Fr.V m c Cert.KernelIdeal.main_v126 = kX1 (launchContents m c) := host_main_v126 (launchContents m c)
  have a3 : Cert.KernelIdeal.Fr.V m c Cert.KernelIdeal.main_v70 = kH3raw (launchContents m c) := host_main_v70 (launchContents m c)
  have a4 : Cert.KernelIdeal.Fr.V m c Cert.KernelIdeal.main_v57 = kH2 (launchContents m c) := host_main_v57 (launchContents m c)
  have a5 : Cert.KernelIdeal.Fr.V m c Cert.KernelIdeal.main_v44 = kH1 (launchContents m c) := host_main_v44 (launchContents m c)
  have a6 : Cert.KernelIdeal.Fr.V m c Cert.KernelIdeal.main_v88 = kH4raw (launchContents m c) := host_main_v88 (launchContents m c)
  have a7 : Cert.KernelIdeal.Fr.V m c Cert.KernelIdeal.main_v145 = kReCat (launchContents m c) := host_main_v145 (launchContents m c)
  rw [a0, a1, a2, a3, a4, a5, a6, a7]
  unfold refResult Cert.KernelIdeal.Val.G
  rw [Cert.ReferenceIdeal.RefVal.ref_cat, eps_eq,
    Cert.Bridge.x2_eq (launchContents m c) (launchContents m' c) h0 h1,
    Cert.Bridge.x1_eq (launchContents m c) (launchContents m' c) h0 h1,
    Cert.Bridge.h3_eq (launchContents m c) (launchContents m' c) h0 h1,
    Cert.Bridge.h2_eq (launchContents m c) (launchContents m' c) h0 h1,
    Cert.Bridge.h1_eq (launchContents m c) (launchContents m' c) h0 h1,
    Cert.Bridge.h4_eq (launchContents m c) (launchContents m' c) h0 h1]

end Cert.Result

end
-- ==== Proof.lean ====
/-
  A six-way concatenation of row-normalized graph features, computed by a tiled kernel after a host chain of gathers and
  scatter-adds over the edge list, against a plain reference.

  Both programs propagate the labels over the directed edges, the reversed edges and the symmetrized edges, weighted by
  rsqrt(degree + ε) at both ends (ε the float nearest 1e-9), remove the two-hop self-return term label · re from three of the six propagated matrices,
  divide every matrix by its row sums shifted by the float nearest 1e-5, and lay the six quotients side by side into a [100000, 192] array.
  The kernel does the last stage (the removal, the normalization, the concatenation) in a body over blocks of 2000 rows; the
  reference does it on the host. Upstream they differ twice: the kernel reuses the forward edge weight for the reversed edges
  (the reference recomputes it with its two factors exchanged), and it adds the two directed degree counts where the reference
  counts over the concatenated edge lists. Over the extended reals both are identities of commutative sums and products, so the
  claim holds at every input and the precondition is not used.

  The frames of the two kernel programs are the launch theorem of a pipeline of the plainest class applied to the body's run;
  the reference's frame is its host run. The value: the kernel's result array is one function G of the eight arrays the region
  finds (the blocks are rows of G), those arrays are named terms of the two arguments, the reference's result is the same G of
  its own terms, and the terms are equal.
-/
import proofs.«145359_j51866025066826_2_alg».proof.Defs
import proofs.«145359_j51866025066826_2_alg».proof.Proof.Gen.Kernel
import proofs.«145359_j51866025066826_2_alg».proof.Proof.Gen.Kernel.Skeleton
import proofs.«145359_j51866025066826_2_alg».proof.Proof.Gen.Kernel.Launch
import proofs.«145359_j51866025066826_2_alg».proof.Proof.Gen.Kernel.Points
import proofs.«145359_j51866025066826_2_alg».proof.Proof.Gen.KernelIdeal
import proofs.«145359_j51866025066826_2_alg».proof.Proof.Gen.KernelIdeal.Skeleton
import proofs.«145359_j51866025066826_2_alg».proof.Proof.Gen.KernelIdeal.Launch
import proofs.«145359_j51866025066826_2_alg».proof.Proof.Gen.KernelIdeal.Points
import proofs.«145359_j51866025066826_2_alg».proof.Proof.Gen.ReferenceIdeal
import proofs.«145359_j51866025066826_2_alg».proof.Proof.Gen.ReferenceIdeal.Run
import proofs.«145359_j51866025066826_2_alg».proof.Proof.Gen.Pre_finite_inputs
import proofs.«145359_j51866025066826_2_alg».proof.Proof.KernelFrame
import proofs.«145359_j51866025066826_2_alg».proof.Proof.KernelIdealFrame
import proofs.«145359_j51866025066826_2_alg».proof.Proof.KernelIdealValue
import proofs.«145359_j51866025066826_2_alg».proof.Proof.Result
import Idealize.ShloMosaic.Adequacy
import Idealize.ShloMosaic.Init

noncomputable section

namespace Cert.Proof

open Idealize.ShloMosaic Idealize.SL.Sem

/-- The kernel as printed runs to the end, faults nowhere and leaves its two arguments as they were. -/
theorem frame_k : Cert.frame_Kernel := fun m ρ _ => Cert.Kernel.Fr.frame m ρ

/-- So does its reading over the extended reals. -/
theorem frame_ki : Cert.frame_KernelIdeal := fun m ρ _ => Cert.KernelIdeal.Fr.frame m ρ

/-- The reference is a line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the label matrix and the edge list both programs end with the same [100000, 192] array:
    the kernel's, as the function G of what its region finds; the reference's, equal to it by the bridge. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  exact Cert.Result.result_eq m m' c (hagree c).1 (hagree c).2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
